-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x40x128 : Shape := ⟨3, ![2048, 40, 128]⟩
abbrev S128x128 : Shape := ⟨2, ![128, 128]⟩
abbrev S_ : Shape := ⟨0, ![]⟩

class Facts : Prop where
  bcast_S_S2048x40x128 : S_.BroadcastsInDim S2048x40x128 (![] : Fin 0 → Fin S2048x40x128.rank)
  reducesTo_S2048x40x128_S_d0_1_2 : S2048x40x128.ReducesTo [0, 1, 2] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S2048x40x128 .f32) (main_arg1 : FVec F S128x128 .f32) : IVec S_ 1 :=
  let main_v0 : FVec F S2048x40x128 .f32 := Host.absf main_arg0
  let main_cst : FVec F S_ .f32 := constant S_ .f32 0x7F800000#32
  let main_v1 : FVec F S2048x40x128 .f32 := broadcastInDim S2048x40x128 ![] bcast_S_S2048x40x128 main_cst
  let main_v2 : IVec S2048x40x128 1 := cmpf .olt main_v0 main_v1
  let main_c : IVec S_ 1 := constantI S_ 1 1#1
  let main_v3 : IVec S_ 1 := (fun x v => Host.reduce IntOp.andi x v reducesTo_S2048x40x128_S_d0_1_2 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  main_v8
-- ==== Kernel.lean ====
abbrev S2048x40x128 : Shape := ⟨3, ![2048, 40, 128]⟩
abbrev S128x128 : Shape := ⟨2, ![128, 128]⟩
abbrev S2048x780x128 : Shape := ⟨3, ![2048, 780, 128]⟩
abbrev S32x40x128 : Shape := ⟨3, ![32, 40, 128]⟩
abbrev S32x780x128 : Shape := ⟨3, ![32, 780, 128]⟩
abbrev S1280x128 : Shape := ⟨2, ![1280, 128]⟩
abbrev S32x1x128 : Shape := ⟨3, ![32, 1, 128]⟩
abbrev S32x39x128 : Shape := ⟨3, ![32, 39, 128]⟩
abbrev S32x38x128 : Shape := ⟨3, ![32, 38, 128]⟩
abbrev S32x37x128 : Shape := ⟨3, ![32, 37, 128]⟩
abbrev S32x36x128 : Shape := ⟨3, ![32, 36, 128]⟩
abbrev S32x35x128 : Shape := ⟨3, ![32, 35, 128]⟩
abbrev S32x34x128 : Shape := ⟨3, ![32, 34, 128]⟩
abbrev S32x33x128 : Shape := ⟨3, ![32, 33, 128]⟩
abbrev S32x32x128 : Shape := ⟨3, ![32, 32, 128]⟩
abbrev S32x31x128 : Shape := ⟨3, ![32, 31, 128]⟩
abbrev S32x30x128 : Shape := ⟨3, ![32, 30, 128]⟩
abbrev S32x29x128 : Shape := ⟨3, ![32, 29, 128]⟩
abbrev S32x28x128 : Shape := ⟨3, ![32, 28, 128]⟩
abbrev S32x27x128 : Shape := ⟨3, ![32, 27, 128]⟩
abbrev S32x26x128 : Shape := ⟨3, ![32, 26, 128]⟩
abbrev S32x25x128 : Shape := ⟨3, ![32, 25, 128]⟩
abbrev S32x24x128 : Shape := ⟨3, ![32, 24, 128]⟩
abbrev S32x23x128 : Shape := ⟨3, ![32, 23, 128]⟩
abbrev S32x22x128 : Shape := ⟨3, ![32, 22, 128]⟩
abbrev S32x21x128 : Shape := ⟨3, ![32, 21, 128]⟩
abbrev S32x20x128 : Shape := ⟨3, ![32, 20, 128]⟩
abbrev S32x19x128 : Shape := ⟨3, ![32, 19, 128]⟩
abbrev S32x18x128 : Shape := ⟨3, ![32, 18, 128]⟩
abbrev S32x17x128 : Shape := ⟨3, ![32, 17, 128]⟩
abbrev S32x16x128 : Shape := ⟨3, ![32, 16, 128]⟩
abbrev S32x15x128 : Shape := ⟨3, ![32, 15, 128]⟩
abbrev S32x14x128 : Shape := ⟨3, ![32, 14, 128]⟩
abbrev S32x13x128 : Shape := ⟨3, ![32, 13, 128]⟩
abbrev S32x12x128 : Shape := ⟨3, ![32, 12, 128]⟩
abbrev S32x11x128 : Shape := ⟨3, ![32, 11, 128]⟩
abbrev S32x10x128 : Shape := ⟨3, ![32, 10, 128]⟩
abbrev S32x9x128 : Shape := ⟨3, ![32, 9, 128]⟩
abbrev S32x8x128 : Shape := ⟨3, ![32, 8, 128]⟩
abbrev S32x7x128 : Shape := ⟨3, ![32, 7, 128]⟩
abbrev S32x6x128 : Shape := ⟨3, ![32, 6, 128]⟩
abbrev S32x5x128 : Shape := ⟨3, ![32, 5, 128]⟩
abbrev S32x4x128 : Shape := ⟨3, ![32, 4, 128]⟩
abbrev S32x3x128 : Shape := ⟨3, ![32, 3, 128]⟩
abbrev S32x2x128 : Shape := ⟨3, ![32, 2, 128]⟩

abbrev nBuf : Space → Nat
  | .hbm => 3
  | .vmem => 5
  | .smem => 0
  | _ => 0

abbrev bufTy : (tb : Table) → Fin (tcTables nBuf tb) → BufTy
  | .hbm, ⟨0, _⟩ => ⟨S2048x40x128, .f32⟩
  | .hbm, ⟨1, _⟩ => ⟨S128x128, .f32⟩
  | .hbm, ⟨2, _⟩ => ⟨S2048x780x128, .f32⟩
  | .local _ .vmem, ⟨0, _⟩ => ⟨S32x40x128, .f32⟩
  | .local _ .vmem, ⟨1, _⟩ => ⟨S32x40x128, .f32⟩
  | .local _ .vmem, ⟨2, _⟩ => ⟨S128x128, .f32⟩
  | .local _ .vmem, ⟨3, _⟩ => ⟨S32x780x128, .f32⟩
  | .local _ .vmem, ⟨4, _⟩ => ⟨S32x780x128, .f32⟩
  | _, _ => ⟨S2048x40x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x40x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S32x780x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S32x40x128_S32x40x128_0_0_0 : ∀ a, (![0, 0, 0] : Fin 3 → Nat) a + S32x40x128.size a ≤ S32x40x128.size a
  h_S32x40x128 : 0 < S32x40x128.numel
  inb_S128x128_S128x128_0_0 : ∀ a, (![0, 0] : Fin 2 → Nat) a + S128x128.size a ≤ S128x128.size a
  h_S128x128 : 0 < S128x128.numel
  shapeCasts_S32x40x128_S1280x128 : S32x40x128.ShapeCasts S1280x128
  shapeCasts_S1280x128_S32x40x128 : S1280x128.ShapeCasts S32x40x128
  slices_S32x40x128_o0_0_0_S32x1x128 : S32x40x128.Slices ![0, 0, 0] S32x1x128
  slices_S32x40x128_o0_1_0_S32x39x128 : S32x40x128.Slices ![0, 1, 0] S32x39x128
  broadcasts_S32x1x128_S32x39x128 : S32x1x128.Broadcasts S32x39x128
  inb_S32x780x128_S32x39x128_0_0_0 : ∀ a, (![0, 0, 0] : Fin 3 → Nat) a + S32x39x128.size a ≤ S32x780x128.size a
  h_S32x39x128 : 0 < S32x39x128.numel
  slices_S32x40x128_o0_1_0_S32x1x128 : S32x40x128.Slices ![0, 1, 0] S32x1x128
  slices_S32x40x128_o0_2_0_S32x38x128 : S32x40x128.Slices ![0, 2, 0] S32x38x128
  broadcasts_S32x1x128_S32x38x128 : S32x1x128.Broadcasts S32x38x128
  inb_S32x780x128_S32x38x128_0_39_0 : ∀ a, (![0, 39, 0] : Fin 3 → Nat) a + S32x38x128.size a ≤ S32x780x128.size a
  h_S32x38x128 : 0 < S32x38x128.numel
  slices_S32x40x128_o0_2_0_S32x1x128 : S32x40x128.Slices ![0, 2, 0] S32x1x128
  slices_S32x40x128_o0_3_0_S32x37x128 : S32x40x128.Slices ![0, 3, 0] S32x37x128
  broadcasts_S32x1x128_S32x37x128 : S32x1x128.Broadcasts S32x37x128
  inb_S32x780x128_S32x37x128_0_77_0 : ∀ a, (![0, 77, 0] : Fin 3 → Nat) a + S32x37x128.size a ≤ S32x780x128.size a
  h_S32x37x128 : 0 < S32x37x128.numel
  slices_S32x40x128_o0_3_0_S32x1x128 : S32x40x128.Slices ![0, 3, 0] S32x1x128
  slices_S32x40x128_o0_4_0_S32x36x128 : S32x40x128.Slices ![0, 4, 0] S32x36x128
  broadcasts_S32x1x128_S32x36x128 : S32x1x128.Broadcasts S32x36x128
  inb_S32x780x128_S32x36x128_0_114_0 : ∀ a, (![0, 114, 0] : Fin 3 → Nat) a + S32x36x128.size a ≤ S32x780x128.size a
  h_S32x36x128 : 0 < S32x36x128.numel
  slices_S32x40x128_o0_4_0_S32x1x128 : S32x40x128.Slices ![0, 4, 0] S32x1x128
  slices_S32x40x128_o0_5_0_S32x35x128 : S32x40x128.Slices ![0, 5, 0] S32x35x128
  broadcasts_S32x1x128_S32x35x128 : S32x1x128.Broadcasts S32x35x128
  inb_S32x780x128_S32x35x128_0_150_0 : ∀ a, (![0, 150, 0] : Fin 3 → Nat) a + S32x35x128.size a ≤ S32x780x128.size a
  h_S32x35x128 : 0 < S32x35x128.numel
  slices_S32x40x128_o0_5_0_S32x1x128 : S32x40x128.Slices ![0, 5, 0] S32x1x128
  slices_S32x40x128_o0_6_0_S32x34x128 : S32x40x128.Slices ![0, 6, 0] S32x34x128
  broadcasts_S32x1x128_S32x34x128 : S32x1x128.Broadcasts S32x34x128
  inb_S32x780x128_S32x34x128_0_185_0 : ∀ a, (![0, 185, 0] : Fin 3 → Nat) a + S32x34x128.size a ≤ S32x780x128.size a
  h_S32x34x128 : 0 < S32x34x128.numel
  slices_S32x40x128_o0_6_0_S32x1x128 : S32x40x128.Slices ![0, 6, 0] S32x1x128
  slices_S32x40x128_o0_7_0_S32x33x128 : S32x40x128.Slices ![0, 7, 0] S32x33x128
  broadcasts_S32x1x128_S32x33x128 : S32x1x128.Broadcasts S32x33x128
  inb_S32x780x128_S32x33x128_0_219_0 : ∀ a, (![0, 219, 0] : Fin 3 → Nat) a + S32x33x128.size a ≤ S32x780x128.size a
  h_S32x33x128 : 0 < S32x33x128.numel
  slices_S32x40x128_o0_7_0_S32x1x128 : S32x40x128.Slices ![0, 7, 0] S32x1x128
  slices_S32x40x128_o0_8_0_S32x32x128 : S32x40x128.Slices ![0, 8, 0] S32x32x128
  broadcasts_S32x1x128_S32x32x128 : S32x1x128.Broadcasts S32x32x128
  inb_S32x780x128_S32x32x128_0_252_0 : ∀ a, (![0, 252, 0] : Fin 3 → Nat) a + S32x32x128.size a ≤ S32x780x128.size a
  h_S32x32x128 : 0 < S32x32x128.numel
  slices_S32x40x128_o0_8_0_S32x1x128 : S32x40x128.Slices ![0, 8, 0] S32x1x128
  slices_S32x40x128_o0_9_0_S32x31x128 : S32x40x128.Slices ![0, 9, 0] S32x31x128
  broadcasts_S32x1x128_S32x31x128 : S32x1x128.Broadcasts S32x31x128
  inb_S32x780x128_S32x31x128_0_284_0 : ∀ a, (![0, 284, 0] : Fin 3 → Nat) a + S32x31x128.size a ≤ S32x780x128.size a
  h_S32x31x128 : 0 < S32x31x128.numel
  slices_S32x40x128_o0_9_0_S32x1x128 : S32x40x128.Slices ![0, 9, 0] S32x1x128
  slices_S32x40x128_o0_10_0_S32x30x128 : S32x40x128.Slices ![0, 10, 0] S32x30x128
  broadcasts_S32x1x128_S32x30x128 : S32x1x128.Broadcasts S32x30x128
  inb_S32x780x128_S32x30x128_0_315_0 : ∀ a, (![0, 315, 0] : Fin 3 → Nat) a + S32x30x128.size a ≤ S32x780x128.size a
  h_S32x30x128 : 0 < S32x30x128.numel
  slices_S32x40x128_o0_10_0_S32x1x128 : S32x40x128.Slices ![0, 10, 0] S32x1x128
  slices_S32x40x128_o0_11_0_S32x29x128 : S32x40x128.Slices ![0, 11, 0] S32x29x128
  broadcasts_S32x1x128_S32x29x128 : S32x1x128.Broadcasts S32x29x128
  inb_S32x780x128_S32x29x128_0_345_0 : ∀ a, (![0, 345, 0] : Fin 3 → Nat) a + S32x29x128.size a ≤ S32x780x128.size a
  h_S32x29x128 : 0 < S32x29x128.numel
  slices_S32x40x128_o0_11_0_S32x1x128 : S32x40x128.Slices ![0, 11, 0] S32x1x128
  slices_S32x40x128_o0_12_0_S32x28x128 : S32x40x128.Slices ![0, 12, 0] S32x28x128
  broadcasts_S32x1x128_S32x28x128 : S32x1x128.Broadcasts S32x28x128
  inb_S32x780x128_S32x28x128_0_374_0 : ∀ a, (![0, 374, 0] : Fin 3 → Nat) a + S32x28x128.size a ≤ S32x780x128.size a
  h_S32x28x128 : 0 < S32x28x128.numel
  slices_S32x40x128_o0_12_0_S32x1x128 : S32x40x128.Slices ![0, 12, 0] S32x1x128
  slices_S32x40x128_o0_13_0_S32x27x128 : S32x40x128.Slices ![0, 13, 0] S32x27x128
  broadcasts_S32x1x128_S32x27x128 : S32x1x128.Broadcasts S32x27x128
  inb_S32x780x128_S32x27x128_0_402_0 : ∀ a, (![0, 402, 0] : Fin 3 → Nat) a + S32x27x128.size a ≤ S32x780x128.size a
  h_S32x27x128 : 0 < S32x27x128.numel
  slices_S32x40x128_o0_13_0_S32x1x128 : S32x40x128.Slices ![0, 13, 0] S32x1x128
  slices_S32x40x128_o0_14_0_S32x26x128 : S32x40x128.Slices ![0, 14, 0] S32x26x128
  broadcasts_S32x1x128_S32x26x128 : S32x1x128.Broadcasts S32x26x128
  inb_S32x780x128_S32x26x128_0_429_0 : ∀ a, (![0, 429, 0] : Fin 3 → Nat) a + S32x26x128.size a ≤ S32x780x128.size a
  h_S32x26x128 : 0 < S32x26x128.numel
  slices_S32x40x128_o0_14_0_S32x1x128 : S32x40x128.Slices ![0, 14, 0] S32x1x128
  slices_S32x40x128_o0_15_0_S32x25x128 : S32x40x128.Slices ![0, 15, 0] S32x25x128
  broadcasts_S32x1x128_S32x25x128 : S32x1x128.Broadcasts S32x25x128
  inb_S32x780x128_S32x25x128_0_455_0 : ∀ a, (![0, 455, 0] : Fin 3 → Nat) a + S32x25x128.size a ≤ S32x780x128.size a
  h_S32x25x128 : 0 < S32x25x128.numel
  slices_S32x40x128_o0_15_0_S32x1x128 : S32x40x128.Slices ![0, 15, 0] S32x1x128
  slices_S32x40x128_o0_16_0_S32x24x128 : S32x40x128.Slices ![0, 16, 0] S32x24x128
  broadcasts_S32x1x128_S32x24x128 : S32x1x128.Broadcasts S32x24x128
  inb_S32x780x128_S32x24x128_0_480_0 : ∀ a, (![0, 480, 0] : Fin 3 → Nat) a + S32x24x128.size a ≤ S32x780x128.size a
  h_S32x24x128 : 0 < S32x24x128.numel
  slices_S32x40x128_o0_16_0_S32x1x128 : S32x40x128.Slices ![0, 16, 0] S32x1x128
  slices_S32x40x128_o0_17_0_S32x23x128 : S32x40x128.Slices ![0, 17, 0] S32x23x128
  broadcasts_S32x1x128_S32x23x128 : S32x1x128.Broadcasts S32x23x128
  inb_S32x780x128_S32x23x128_0_504_0 : ∀ a, (![0, 504, 0] : Fin 3 → Nat) a + S32x23x128.size a ≤ S32x780x128.size a
  h_S32x23x128 : 0 < S32x23x128.numel
  slices_S32x40x128_o0_17_0_S32x1x128 : S32x40x128.Slices ![0, 17, 0] S32x1x128
  slices_S32x40x128_o0_18_0_S32x22x128 : S32x40x128.Slices ![0, 18, 0] S32x22x128
  broadcasts_S32x1x128_S32x22x128 : S32x1x128.Broadcasts S32x22x128
  inb_S32x780x128_S32x22x128_0_527_0 : ∀ a, (![0, 527, 0] : Fin 3 → Nat) a + S32x22x128.size a ≤ S32x780x128.size a
  h_S32x22x128 : 0 < S32x22x128.numel
  slices_S32x40x128_o0_18_0_S32x1x128 : S32x40x128.Slices ![0, 18, 0] S32x1x128
  slices_S32x40x128_o0_19_0_S32x21x128 : S32x40x128.Slices ![0, 19, 0] S32x21x128
  broadcasts_S32x1x128_S32x21x128 : S32x1x128.Broadcasts S32x21x128
  inb_S32x780x128_S32x21x128_0_549_0 : ∀ a, (![0, 549, 0] : Fin 3 → Nat) a + S32x21x128.size a ≤ S32x780x128.size a
  h_S32x21x128 : 0 < S32x21x128.numel
  slices_S32x40x128_o0_19_0_S32x1x128 : S32x40x128.Slices ![0, 19, 0] S32x1x128
  slices_S32x40x128_o0_20_0_S32x20x128 : S32x40x128.Slices ![0, 20, 0] S32x20x128
  broadcasts_S32x1x128_S32x20x128 : S32x1x128.Broadcasts S32x20x128
  inb_S32x780x128_S32x20x128_0_570_0 : ∀ a, (![0, 570, 0] : Fin 3 → Nat) a + S32x20x128.size a ≤ S32x780x128.size a
  h_S32x20x128 : 0 < S32x20x128.numel
  slices_S32x40x128_o0_20_0_S32x1x128 : S32x40x128.Slices ![0, 20, 0] S32x1x128
  slices_S32x40x128_o0_21_0_S32x19x128 : S32x40x128.Slices ![0, 21, 0] S32x19x128
  broadcasts_S32x1x128_S32x19x128 : S32x1x128.Broadcasts S32x19x128
  inb_S32x780x128_S32x19x128_0_590_0 : ∀ a, (![0, 590, 0] : Fin 3 → Nat) a + S32x19x128.size a ≤ S32x780x128.size a
  h_S32x19x128 : 0 < S32x19x128.numel
  slices_S32x40x128_o0_21_0_S32x1x128 : S32x40x128.Slices ![0, 21, 0] S32x1x128
  slices_S32x40x128_o0_22_0_S32x18x128 : S32x40x128.Slices ![0, 22, 0] S32x18x128
  broadcasts_S32x1x128_S32x18x128 : S32x1x128.Broadcasts S32x18x128
  inb_S32x780x128_S32x18x128_0_609_0 : ∀ a, (![0, 609, 0] : Fin 3 → Nat) a + S32x18x128.size a ≤ S32x780x128.size a
  h_S32x18x128 : 0 < S32x18x128.numel
  slices_S32x40x128_o0_22_0_S32x1x128 : S32x40x128.Slices ![0, 22, 0] S32x1x128
  slices_S32x40x128_o0_23_0_S32x17x128 : S32x40x128.Slices ![0, 23, 0] S32x17x128
  broadcasts_S32x1x128_S32x17x128 : S32x1x128.Broadcasts S32x17x128
  inb_S32x780x128_S32x17x128_0_627_0 : ∀ a, (![0, 627, 0] : Fin 3 → Nat) a + S32x17x128.size a ≤ S32x780x128.size a
  h_S32x17x128 : 0 < S32x17x128.numel
  slices_S32x40x128_o0_23_0_S32x1x128 : S32x40x128.Slices ![0, 23, 0] S32x1x128
  slices_S32x40x128_o0_24_0_S32x16x128 : S32x40x128.Slices ![0, 24, 0] S32x16x128
  broadcasts_S32x1x128_S32x16x128 : S32x1x128.Broadcasts S32x16x128
  inb_S32x780x128_S32x16x128_0_644_0 : ∀ a, (![0, 644, 0] : Fin 3 → Nat) a + S32x16x128.size a ≤ S32x780x128.size a
  h_S32x16x128 : 0 < S32x16x128.numel
  slices_S32x40x128_o0_24_0_S32x1x128 : S32x40x128.Slices ![0, 24, 0] S32x1x128
  slices_S32x40x128_o0_25_0_S32x15x128 : S32x40x128.Slices ![0, 25, 0] S32x15x128
  broadcasts_S32x1x128_S32x15x128 : S32x1x128.Broadcasts S32x15x128
  inb_S32x780x128_S32x15x128_0_660_0 : ∀ a, (![0, 660, 0] : Fin 3 → Nat) a + S32x15x128.size a ≤ S32x780x128.size a
  h_S32x15x128 : 0 < S32x15x128.numel
  slices_S32x40x128_o0_25_0_S32x1x128 : S32x40x128.Slices ![0, 25, 0] S32x1x128
  slices_S32x40x128_o0_26_0_S32x14x128 : S32x40x128.Slices ![0, 26, 0] S32x14x128
  broadcasts_S32x1x128_S32x14x128 : S32x1x128.Broadcasts S32x14x128
  inb_S32x780x128_S32x14x128_0_675_0 : ∀ a, (![0, 675, 0] : Fin 3 → Nat) a + S32x14x128.size a ≤ S32x780x128.size a
  h_S32x14x128 : 0 < S32x14x128.numel
  slices_S32x40x128_o0_26_0_S32x1x128 : S32x40x128.Slices ![0, 26, 0] S32x1x128
  slices_S32x40x128_o0_27_0_S32x13x128 : S32x40x128.Slices ![0, 27, 0] S32x13x128
  broadcasts_S32x1x128_S32x13x128 : S32x1x128.Broadcasts S32x13x128
  inb_S32x780x128_S32x13x128_0_689_0 : ∀ a, (![0, 689, 0] : Fin 3 → Nat) a + S32x13x128.size a ≤ S32x780x128.size a
  h_S32x13x128 : 0 < S32x13x128.numel
  slices_S32x40x128_o0_27_0_S32x1x128 : S32x40x128.Slices ![0, 27, 0] S32x1x128
  slices_S32x40x128_o0_28_0_S32x12x128 : S32x40x128.Slices ![0, 28, 0] S32x12x128
  broadcasts_S32x1x128_S32x12x128 : S32x1x128.Broadcasts S32x12x128
  inb_S32x780x128_S32x12x128_0_702_0 : ∀ a, (![0, 702, 0] : Fin 3 → Nat) a + S32x12x128.size a ≤ S32x780x128.size a
  h_S32x12x128 : 0 < S32x12x128.numel
  slices_S32x40x128_o0_28_0_S32x1x128 : S32x40x128.Slices ![0, 28, 0] S32x1x128
  slices_S32x40x128_o0_29_0_S32x11x128 : S32x40x128.Slices ![0, 29, 0] S32x11x128
  broadcasts_S32x1x128_S32x11x128 : S32x1x128.Broadcasts S32x11x128
  inb_S32x780x128_S32x11x128_0_714_0 : ∀ a, (![0, 714, 0] : Fin 3 → Nat) a + S32x11x128.size a ≤ S32x780x128.size a
  h_S32x11x128 : 0 < S32x11x128.numel
  slices_S32x40x128_o0_29_0_S32x1x128 : S32x40x128.Slices ![0, 29, 0] S32x1x128
  slices_S32x40x128_o0_30_0_S32x10x128 : S32x40x128.Slices ![0, 30, 0] S32x10x128
  broadcasts_S32x1x128_S32x10x128 : S32x1x128.Broadcasts S32x10x128
  inb_S32x780x128_S32x10x128_0_725_0 : ∀ a, (![0, 725, 0] : Fin 3 → Nat) a + S32x10x128.size a ≤ S32x780x128.size a
  h_S32x10x128 : 0 < S32x10x128.numel
  slices_S32x40x128_o0_30_0_S32x1x128 : S32x40x128.Slices ![0, 30, 0] S32x1x128
  slices_S32x40x128_o0_31_0_S32x9x128 : S32x40x128.Slices ![0, 31, 0] S32x9x128
  broadcasts_S32x1x128_S32x9x128 : S32x1x128.Broadcasts S32x9x128
  inb_S32x780x128_S32x9x128_0_735_0 : ∀ a, (![0, 735, 0] : Fin 3 → Nat) a + S32x9x128.size a ≤ S32x780x128.size a
  h_S32x9x128 : 0 < S32x9x128.numel
  slices_S32x40x128_o0_31_0_S32x1x128 : S32x40x128.Slices ![0, 31, 0] S32x1x128
  slices_S32x40x128_o0_32_0_S32x8x128 : S32x40x128.Slices ![0, 32, 0] S32x8x128
  broadcasts_S32x1x128_S32x8x128 : S32x1x128.Broadcasts S32x8x128
  inb_S32x780x128_S32x8x128_0_744_0 : ∀ a, (![0, 744, 0] : Fin 3 → Nat) a + S32x8x128.size a ≤ S32x780x128.size a
  h_S32x8x128 : 0 < S32x8x128.numel
  slices_S32x40x128_o0_32_0_S32x1x128 : S32x40x128.Slices ![0, 32, 0] S32x1x128
  slices_S32x40x128_o0_33_0_S32x7x128 : S32x40x128.Slices ![0, 33, 0] S32x7x128
  broadcasts_S32x1x128_S32x7x128 : S32x1x128.Broadcasts S32x7x128
  inb_S32x780x128_S32x7x128_0_752_0 : ∀ a, (![0, 752, 0] : Fin 3 → Nat) a + S32x7x128.size a ≤ S32x780x128.size a
  h_S32x7x128 : 0 < S32x7x128.numel
  slices_S32x40x128_o0_33_0_S32x1x128 : S32x40x128.Slices ![0, 33, 0] S32x1x128
  slices_S32x40x128_o0_34_0_S32x6x128 : S32x40x128.Slices ![0, 34, 0] S32x6x128
  broadcasts_S32x1x128_S32x6x128 : S32x1x128.Broadcasts S32x6x128
  inb_S32x780x128_S32x6x128_0_759_0 : ∀ a, (![0, 759, 0] : Fin 3 → Nat) a + S32x6x128.size a ≤ S32x780x128.size a
  h_S32x6x128 : 0 < S32x6x128.numel
  slices_S32x40x128_o0_34_0_S32x1x128 : S32x40x128.Slices ![0, 34, 0] S32x1x128
  slices_S32x40x128_o0_35_0_S32x5x128 : S32x40x128.Slices ![0, 35, 0] S32x5x128
  broadcasts_S32x1x128_S32x5x128 : S32x1x128.Broadcasts S32x5x128
  inb_S32x780x128_S32x5x128_0_765_0 : ∀ a, (![0, 765, 0] : Fin 3 → Nat) a + S32x5x128.size a ≤ S32x780x128.size a
  h_S32x5x128 : 0 < S32x5x128.numel
  slices_S32x40x128_o0_35_0_S32x1x128 : S32x40x128.Slices ![0, 35, 0] S32x1x128
  slices_S32x40x128_o0_36_0_S32x4x128 : S32x40x128.Slices ![0, 36, 0] S32x4x128
  broadcasts_S32x1x128_S32x4x128 : S32x1x128.Broadcasts S32x4x128
  inb_S32x780x128_S32x4x128_0_770_0 : ∀ a, (![0, 770, 0] : Fin 3 → Nat) a + S32x4x128.size a ≤ S32x780x128.size a
  h_S32x4x128 : 0 < S32x4x128.numel
  slices_S32x40x128_o0_36_0_S32x1x128 : S32x40x128.Slices ![0, 36, 0] S32x1x128
  slices_S32x40x128_o0_37_0_S32x3x128 : S32x40x128.Slices ![0, 37, 0] S32x3x128
  broadcasts_S32x1x128_S32x3x128 : S32x1x128.Broadcasts S32x3x128
  inb_S32x780x128_S32x3x128_0_774_0 : ∀ a, (![0, 774, 0] : Fin 3 → Nat) a + S32x3x128.size a ≤ S32x780x128.size a
  h_S32x3x128 : 0 < S32x3x128.numel
  slices_S32x40x128_o0_37_0_S32x1x128 : S32x40x128.Slices ![0, 37, 0] S32x1x128
  slices_S32x40x128_o0_38_0_S32x2x128 : S32x40x128.Slices ![0, 38, 0] S32x2x128
  broadcasts_S32x1x128_S32x2x128 : S32x1x128.Broadcasts S32x2x128
  inb_S32x780x128_S32x2x128_0_777_0 : ∀ a, (![0, 777, 0] : Fin 3 → Nat) a + S32x2x128.size a ≤ S32x780x128.size a
  h_S32x2x128 : 0 < S32x2x128.numel
  slices_S32x40x128_o0_38_0_S32x1x128 : S32x40x128.Slices ![0, 38, 0] S32x1x128
  slices_S32x40x128_o0_39_0_S32x1x128 : S32x40x128.Slices ![0, 39, 0] S32x1x128
  inb_S32x780x128_S32x1x128_0_779_0 : ∀ a, (![0, 779, 0] : Fin 3 → Nat) a + S32x1x128.size a ≤ S32x780x128.size a
  h_S32x1x128 : 0 < S32x1x128.numel
  dot_S1280x128_S128x128_S1280x128_1_0_0_1_n_n_wf : DotDims.WF S1280x128 S128x128 S1280x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x40x128.size a ≤ S2048x40x128.size a
  hwx0_0 : ∀ i : grid0.Coords, EltTy.bits .f32 = 32 ∨ (Rect.block (s := S2048x40x128) S32x40x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x780x128.size a ≤ S2048x780x128.size a
  hwx0_2 : ∀ i : grid0.Coords, EltTy.bits .f32 = 32 ∨ (Rect.block (s := S2048x780x128) S32x780x128.size (cc0_transform_2 i) (hinb0_2 i)).WholeWords (EltTy.packing .f32)

variable [Facts₀]

def dot_S1280x128_S128x128_S1280x128_1_0_0_1_n_n : DotDims S1280x128 S128x128 S1280x128 where
  lhsContracting := [1]
  rhsContracting := [0]
  lhsNonContracting := [0]
  rhsNonContracting := [1]
  lhsBatch := []
  rhsBatch := []
  wf := dot_S1280x128_S128x128_S1280x128_1_0_0_1_n_n_wf

abbrev win0_0 : Pipeline.Window sig grid0 :=
  Pipeline.Window.ofSpec (Memref.whole main_arg0) S32x40x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S32x780x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2048x40x128 : Shape := ⟨3, ![2048, 40, 128]⟩
abbrev S128x128 : Shape := ⟨2, ![128, 128]⟩
abbrev S_ : Shape := ⟨0, ![]⟩
abbrev S40x40 : Shape := ⟨2, ![40, 40]⟩
abbrev S1600 : Shape := ⟨1, ![1600]⟩
abbrev S780 : Shape := ⟨1, ![780]⟩
abbrev S1600x1 : Shape := ⟨2, ![1600, 1]⟩
abbrev S780x1 : Shape := ⟨2, ![780, 1]⟩
abbrev S2048x780x128 : Shape := ⟨3, ![2048, 780, 128]⟩

abbrev nBuf : Space → Nat
  | .hbm => 139
  | .vmem => 0
  | .smem => 0
  | _ => 0

abbrev hbmTy0_0 (i : Nat) : BufTy := match i % 128 with
  | 0 => ⟨S2048x40x128, .f32⟩
  | 1 => ⟨S128x128, .f32⟩
  | 2 => ⟨S2048x40x128, .f32⟩
  | 3 => ⟨S_, .f32⟩
  | 4 => ⟨S40x40, .f32⟩
  | 5 => ⟨S40x40, .i32⟩
  | 6 => ⟨S_, .i32⟩
  | 7 => ⟨S40x40, .i32⟩
  | 8 => ⟨S40x40, .i32⟩
  | 9 => ⟨S40x40, .i32⟩
  | 10 => ⟨S40x40, .i1⟩
  | 11 => ⟨S_, .f32⟩
  | 12 => ⟨S40x40, .f32⟩
  | 13 => ⟨S40x40, .f32⟩
  | 14 => ⟨S_, .f32⟩
  | 15 => ⟨S40x40, .f32⟩
  | 16 => ⟨S40x40, .i1⟩
  | 17 => ⟨S1600, .i1⟩
  | 18 => ⟨S1600, .i32⟩
  | 19 => ⟨S_, .i32⟩
  | 20 => ⟨S_, .i32⟩
  | 21 => ⟨S1600, .i32⟩
  | 22 => ⟨S_, .i32⟩
  | 23 => ⟨S780, .i32⟩
  | 24 => ⟨S_, .i32⟩
  | 25 => ⟨S_, .i32⟩
  | 26 => ⟨S1600, .i32⟩
  | 27 => ⟨S1600, .i32⟩
  | 28 => ⟨S_, .i32⟩
  | 29 => ⟨S1600, .i32⟩
  | 30 => ⟨S1600, .i1⟩
  | 31 => ⟨S_, .i32⟩
  | 32 => ⟨S1600, .i32⟩
  | 33 => ⟨S1600, .i32⟩
  | 34 => ⟨S1600, .i32⟩
  | 35 => ⟨S1600x1, .i32⟩
  | 36 => ⟨S_, .i32⟩
  | 37 => ⟨S1600, .i32⟩
  | 38 => ⟨S780, .i32⟩
  | 39 => ⟨S_, .i32⟩
  | 40 => ⟨S_, .i32⟩
  | 41 => ⟨S780, .i32⟩
  | 42 => ⟨S_, .i32⟩
  | 43 => ⟨S780, .i32⟩
  | 44 => ⟨S780, .i32⟩
  | 45 => ⟨S780, .i32⟩
  | 46 => ⟨S_, .i32⟩
  | 47 => ⟨S780, .i32⟩
  | 48 => ⟨S780, .i1⟩
  | 49 => ⟨S780, .i32⟩
  | 50 => ⟨S780, .i32⟩
  | 51 => ⟨S_, .i32⟩
  | 52 => ⟨S780, .i32⟩
  | 53 => ⟨S780, .i1⟩
  | 54 => ⟨S780, .i1⟩
  | 55 => ⟨S_, .i32⟩
  | 56 => ⟨S780, .i32⟩
  | 57 => ⟨S780, .i32⟩
  | 58 => ⟨S780, .i32⟩
  | 59 => ⟨S_, .i32⟩
  | 60 => ⟨S_, .i32⟩
  | 61 => ⟨S_, .i32⟩
  | 62 => ⟨S_, .i1⟩
  | 63 => ⟨S_, .i32⟩
  | 64 => ⟨S_, .i32⟩
  | 65 => ⟨S780, .i32⟩
  | 66 => ⟨S780, .i32⟩
  | 67 => ⟨S_, .i32⟩
  | 68 => ⟨S780, .i32⟩
  | 69 => ⟨S780, .i1⟩
  | 70 => ⟨S_, .i32⟩
  | 71 => ⟨S780, .i32⟩
  | 72 => ⟨S780, .i1⟩
  | 73 => ⟨S_, .i32⟩
  | 74 => ⟨S_, .i1⟩
  | 75 => ⟨S780, .i1⟩
  | 76 => ⟨S780, .i1⟩
  | 77 => ⟨S780, .i1⟩
  | 78 => ⟨S780, .i32⟩
  | 79 => ⟨S780, .i32⟩
  | 80 => ⟨S780, .i32⟩
  | 81 => ⟨S_, .i32⟩
  | 82 => ⟨S780, .i32⟩
  | 83 => ⟨S780, .i32⟩
  | 84 => ⟨S780, .i32⟩
  | 85 => ⟨S_, .i32⟩
  | 86 => ⟨S780, .i32⟩
  | 87 => ⟨S780, .i1⟩
  | 88 => ⟨S780, .i32⟩
  | 89 => ⟨S780, .i32⟩
  | 90 => ⟨S_, .i32⟩
  | 91 => ⟨S780, .i32⟩
  | 92 => ⟨S780, .i1⟩
  | 93 => ⟨S780, .i1⟩
  | 94 => ⟨S_, .i32⟩
  | 95 => ⟨S780, .i32⟩
  | 96 => ⟨S780, .i32⟩
  | 97 => ⟨S780, .i32⟩
  | 98 => ⟨S_, .i32⟩
  | 99 => ⟨S_, .i32⟩
  | 100 => ⟨S_, .i32⟩
  | 101 => ⟨S_, .i1⟩
  | 102 => ⟨S_, .i32⟩
  | 103 => ⟨S_, .i32⟩
  | 104 => ⟨S780, .i32⟩
  | 105 => ⟨S780, .i32⟩
  | 106 => ⟨S_, .i32⟩
  | 107 => ⟨S780, .i32⟩
  | 108 => ⟨S780, .i1⟩
  | 109 => ⟨S_, .i32⟩
  | 110 => ⟨S780, .i32⟩
  | 111 => ⟨S780, .i1⟩
  | 112 => ⟨S_, .i32⟩
  | 113 => ⟨S_, .i1⟩
  | 114 => ⟨S780, .i1⟩
  | 115 => ⟨S780, .i1⟩
  | 116 => ⟨S780, .i1⟩
  | 117 => ⟨S780, .i32⟩
  | 118 => ⟨S780, .i32⟩
  | 119 => ⟨S780, .i32⟩
  | 120 => ⟨S_, .i32⟩
  | 121 => ⟨S780, .i32⟩
  | 122 => ⟨S780, .i1⟩
  | 123 => ⟨S_, .i32⟩
  | 124 => ⟨S780, .i32⟩
  | 125 => ⟨S780, .i32⟩
  | 126 => ⟨S780, .i32⟩
  | 127 => ⟨S780x1, .i32⟩
  | _ => ⟨S2048x40x128, .f32⟩

abbrev hbmTy0_1 (i : Nat) : BufTy := match i % 128 with
  | 0 => ⟨S2048x780x128, .f32⟩
  | 1 => ⟨S_, .i32⟩
  | 2 => ⟨S780, .i32⟩
  | 3 => ⟨S780, .i1⟩
  | 4 => ⟨S_, .i32⟩
  | 5 => ⟨S780, .i32⟩
  | 6 => ⟨S780, .i32⟩
  | 7 => ⟨S780, .i32⟩
  | 8 => ⟨S780x1, .i32⟩
  | 9 => ⟨S2048x780x128, .f32⟩
  | 10 => ⟨S2048x780x128, .f32⟩
  | _ => ⟨S2048x40x128, .f32⟩

abbrev hbmTy (i : Nat) : BufTy := match i / 128 with
  | 0 => hbmTy0_0 i
  | 1 => hbmTy0_1 i
  | _ => ⟨S2048x40x128, .f32⟩

abbrev bufTy : (tb : Table) → Fin (tcTables nBuf tb) → BufTy
  | .hbm, ⟨i, _⟩ => hbmTy i
  | _, _ => ⟨S2048x40x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_call0_v0 : Ref sig .tc := ⟨.hbm, 5, rfl⟩
abbrev main_call0_c : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_cst : Ref sig .tc := ⟨.hbm, 11, rfl⟩
abbrev main_call0_v5 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_call1_v0 : Ref sig .tc := ⟨.hbm, 17, rfl⟩
abbrev main_call1_v1 : Ref sig .tc := ⟨.hbm, 18, rfl⟩
abbrev main_call1_call0_c : Ref sig .tc := ⟨.hbm, 19, rfl⟩
abbrev main_call1_call0_v0 : Ref sig .tc := ⟨.hbm, 20, rfl⟩
abbrev main_v5 : Ref sig .tc := ⟨.hbm, 21, rfl⟩
abbrev main_c : Ref sig .tc := ⟨.hbm, 22, rfl⟩
abbrev main_v6 : Ref sig .tc := ⟨.hbm, 23, rfl⟩
abbrev main_c_1 : Ref sig .tc := ⟨.hbm, 24, rfl⟩
abbrev main_call2_v0 : Ref sig .tc := ⟨.hbm, 25, rfl⟩
abbrev main_call2_v1 : Ref sig .tc := ⟨.hbm, 26, rfl⟩
abbrev main_v7 : Ref sig .tc := ⟨.hbm, 27, rfl⟩
abbrev main_c_2 : Ref sig .tc := ⟨.hbm, 28, rfl⟩
abbrev main_v8 : Ref sig .tc := ⟨.hbm, 29, rfl⟩
abbrev main_v9 : Ref sig .tc := ⟨.hbm, 30, rfl⟩
abbrev main_c_3 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_c_4 : Ref sig .tc := ⟨.hbm, 36, rfl⟩
abbrev main_v14 : Ref sig .tc := ⟨.hbm, 37, rfl⟩
abbrev main_v15 : Ref sig .tc := ⟨.hbm, 38, rfl⟩
abbrev main_call3_call0_c : Ref sig .tc := ⟨.hbm, 39, rfl⟩
abbrev main_call3_call0_v0 : Ref sig .tc := ⟨.hbm, 40, rfl⟩
abbrev main_v16 : Ref sig .tc := ⟨.hbm, 41, rfl⟩
abbrev main_c_5 : Ref sig .tc := ⟨.hbm, 42, rfl⟩
abbrev main_call4_v0 : Ref sig .tc := ⟨.hbm, 43, rfl⟩
abbrev main_call4_v1 : Ref sig .tc := ⟨.hbm, 44, rfl⟩
abbrev main_call4_v2 : Ref sig .tc := ⟨.hbm, 45, rfl⟩
abbrev main_call4_v3 : Ref sig .tc := ⟨.hbm, 46, rfl⟩
abbrev main_call4_v4 : Ref sig .tc := ⟨.hbm, 47, rfl⟩
abbrev main_call4_v5 : Ref sig .tc := ⟨.hbm, 48, rfl⟩
abbrev main_call4_v6 : Ref sig .tc := ⟨.hbm, 49, rfl⟩
abbrev main_call4_v7 : Ref sig .tc := ⟨.hbm, 50, rfl⟩
abbrev main_call4_c : Ref sig .tc := ⟨.hbm, 51, rfl⟩
abbrev main_call4_v8 : Ref sig .tc := ⟨.hbm, 52, rfl⟩
abbrev main_call4_v9 : Ref sig .tc := ⟨.hbm, 53, rfl⟩
abbrev main_call4_v10 : Ref sig .tc := ⟨.hbm, 54, rfl⟩
abbrev main_call4_c_0 : Ref sig .tc := ⟨.hbm, 55, rfl⟩
abbrev main_call4_v11 : Ref sig .tc := ⟨.hbm, 56, rfl⟩
abbrev main_call4_v12 : Ref sig .tc := ⟨.hbm, 57, rfl⟩
abbrev main_v17 : Ref sig .tc := ⟨.hbm, 58, rfl⟩
abbrev main_c_6 : Ref sig .tc := ⟨.hbm, 59, rfl⟩
abbrev main_call5_v0 : Ref sig .tc := ⟨.hbm, 60, rfl⟩
abbrev main_call5_c : Ref sig .tc := ⟨.hbm, 61, rfl⟩
abbrev main_call5_v1 : Ref sig .tc := ⟨.hbm, 62, rfl⟩
abbrev main_call5_c_0 : Ref sig .tc := ⟨.hbm, 63, rfl⟩
abbrev main_call5_v2 : Ref sig .tc := ⟨.hbm, 64, rfl⟩
abbrev main_call5_v3 : Ref sig .tc := ⟨.hbm, 65, rfl⟩
abbrev main_call5_v4 : Ref sig .tc := ⟨.hbm, 66, rfl⟩
abbrev main_call5_c_1 : Ref sig .tc := ⟨.hbm, 67, rfl⟩
abbrev main_call5_v5 : Ref sig .tc := ⟨.hbm, 68, rfl⟩
abbrev main_call5_v6 : Ref sig .tc := ⟨.hbm, 69, rfl⟩
abbrev main_call5_c_2 : Ref sig .tc := ⟨.hbm, 70, rfl⟩
abbrev main_call5_v7 : Ref sig .tc := ⟨.hbm, 71, rfl⟩
abbrev main_call5_v8 : Ref sig .tc := ⟨.hbm, 72, rfl⟩
abbrev main_call5_c_3 : Ref sig .tc := ⟨.hbm, 73, rfl⟩
abbrev main_call5_v9 : Ref sig .tc := ⟨.hbm, 74, rfl⟩
abbrev main_call5_v10 : Ref sig .tc := ⟨.hbm, 75, rfl⟩
abbrev main_call5_v11 : Ref sig .tc := ⟨.hbm, 76, rfl⟩
abbrev main_call5_v12 : Ref sig .tc := ⟨.hbm, 77, rfl⟩
abbrev main_call5_v13 : Ref sig .tc := ⟨.hbm, 78, rfl⟩
abbrev main_call5_v14 : Ref sig .tc := ⟨.hbm, 79, rfl⟩
abbrev main_v18 : Ref sig .tc := ⟨.hbm, 80, rfl⟩
abbrev main_c_7 : Ref sig .tc := ⟨.hbm, 81, rfl⟩
abbrev main_call6_v0 : Ref sig .tc := ⟨.hbm, 82, rfl⟩
abbrev main_call6_v1 : Ref sig .tc := ⟨.hbm, 83, rfl⟩
abbrev main_call6_v2 : Ref sig .tc := ⟨.hbm, 84, rfl⟩
abbrev main_call6_v3 : Ref sig .tc := ⟨.hbm, 85, rfl⟩
abbrev main_call6_v4 : Ref sig .tc := ⟨.hbm, 86, rfl⟩
abbrev main_call6_v5 : Ref sig .tc := ⟨.hbm, 87, rfl⟩
abbrev main_call6_v6 : Ref sig .tc := ⟨.hbm, 88, rfl⟩
abbrev main_call6_v7 : Ref sig .tc := ⟨.hbm, 89, rfl⟩
abbrev main_call6_c : Ref sig .tc := ⟨.hbm, 90, rfl⟩
abbrev main_call6_v8 : Ref sig .tc := ⟨.hbm, 91, rfl⟩
abbrev main_call6_v9 : Ref sig .tc := ⟨.hbm, 92, rfl⟩
abbrev main_call6_v10 : Ref sig .tc := ⟨.hbm, 93, rfl⟩
abbrev main_call6_c_0 : Ref sig .tc := ⟨.hbm, 94, rfl⟩
abbrev main_call6_v11 : Ref sig .tc := ⟨.hbm, 95, rfl⟩
abbrev main_call6_v12 : Ref sig .tc := ⟨.hbm, 96, rfl⟩
abbrev main_v19 : Ref sig .tc := ⟨.hbm, 97, rfl⟩
abbrev main_c_8 : Ref sig .tc := ⟨.hbm, 98, rfl⟩
abbrev main_call7_v0 : Ref sig .tc := ⟨.hbm, 99, rfl⟩
abbrev main_call7_c : Ref sig .tc := ⟨.hbm, 100, rfl⟩
abbrev main_call7_v1 : Ref sig .tc := ⟨.hbm, 101, rfl⟩
abbrev main_call7_c_0 : Ref sig .tc := ⟨.hbm, 102, rfl⟩
abbrev main_call7_v2 : Ref sig .tc := ⟨.hbm, 103, rfl⟩
abbrev main_call7_v3 : Ref sig .tc := ⟨.hbm, 104, rfl⟩
abbrev main_call7_v4 : Ref sig .tc := ⟨.hbm, 105, rfl⟩
abbrev main_call7_c_1 : Ref sig .tc := ⟨.hbm, 106, rfl⟩
abbrev main_call7_v5 : Ref sig .tc := ⟨.hbm, 107, rfl⟩
abbrev main_call7_v6 : Ref sig .tc := ⟨.hbm, 108, rfl⟩
abbrev main_call7_c_2 : Ref sig .tc := ⟨.hbm, 109, rfl⟩
abbrev main_call7_v7 : Ref sig .tc := ⟨.hbm, 110, rfl⟩
abbrev main_call7_v8 : Ref sig .tc := ⟨.hbm, 111, rfl⟩
abbrev main_call7_c_3 : Ref sig .tc := ⟨.hbm, 112, rfl⟩
abbrev main_call7_v9 : Ref sig .tc := ⟨.hbm, 113, rfl⟩
abbrev main_call7_v10 : Ref sig .tc := ⟨.hbm, 114, rfl⟩
abbrev main_call7_v11 : Ref sig .tc := ⟨.hbm, 115, rfl⟩
abbrev main_call7_v12 : Ref sig .tc := ⟨.hbm, 116, rfl⟩
abbrev main_call7_v13 : Ref sig .tc := ⟨.hbm, 117, rfl⟩
abbrev main_call7_v14 : Ref sig .tc := ⟨.hbm, 118, rfl⟩
abbrev main_v20 : Ref sig .tc := ⟨.hbm, 119, rfl⟩
abbrev main_c_9 : Ref sig .tc := ⟨.hbm, 120, rfl⟩
abbrev main_v21 : Ref sig .tc := ⟨.hbm, 121, rfl⟩
abbrev main_v22 : Ref sig .tc := ⟨.hbm, 122, rfl⟩
abbrev main_c_10 : Ref sig .tc := ⟨.hbm, 123, rfl⟩
abbrev main_v23 : Ref sig .tc := ⟨.hbm, 124, rfl⟩
abbrev main_v24 : Ref sig .tc := ⟨.hbm, 125, rfl⟩
abbrev main_v25 : Ref sig .tc := ⟨.hbm, 126, rfl⟩
abbrev main_v26 : Ref sig .tc := ⟨.hbm, 127, rfl⟩
abbrev main_v27 : Ref sig .tc := ⟨.hbm, 128, rfl⟩
abbrev main_c_11 : Ref sig .tc := ⟨.hbm, 129, rfl⟩
abbrev main_v28 : Ref sig .tc := ⟨.hbm, 130, rfl⟩
abbrev main_v29 : Ref sig .tc := ⟨.hbm, 131, rfl⟩
abbrev main_c_12 : Ref sig .tc := ⟨.hbm, 132, rfl⟩
abbrev main_v30 : Ref sig .tc := ⟨.hbm, 133, rfl⟩
abbrev main_v31 : Ref sig .tc := ⟨.hbm, 134, rfl⟩
abbrev main_v32 : Ref sig .tc := ⟨.hbm, 135, rfl⟩
abbrev main_v33 : Ref sig .tc := ⟨.hbm, 136, rfl⟩
abbrev main_v34 : Ref sig .tc := ⟨.hbm, 137, rfl⟩
abbrev main_v35 : Ref sig .tc := ⟨.hbm, 138, rfl⟩

abbrev nD : Nat := 1
abbrev τ : Topo := Topo.v7x

variable {F : FTy → Type} [FloatOps F]

class Facts₀ : Prop where
  bcast_S_S40x40 : S_.BroadcastsInDim S40x40 (![] : Fin 0 → Fin S40x40.rank)
  shapeCasts_S40x40_S1600 : S40x40.ShapeCasts S1600
  natLt_1_32 : 1 < 32
  bcast_S_S_ : S_.BroadcastsInDim S_ (![] : Fin 0 → Fin S_.rank)
  reduceWindows_S1600_S1600_w1600s1p1599_0 : S1600.ReduceWindows (![1600] : Fin 1 → Nat) ![1] ![1599] ![0] S1600
  h_S_ : 0 < S_.numel
  bcast_S_S780 : S_.BroadcastsInDim S780 (![] : Fin 0 → Fin S780.rank)
  bcast_S_S1600 : S_.BroadcastsInDim S1600 (![] : Fin 0 → Fin S1600.rank)
  bcast_S1600_S1600x1_0 : S1600.BroadcastsInDim S1600x1 (![0] : Fin 1 → Fin S1600x1.rank)
  reduceWindows_S780_S780_w780s1p779_0 : S780.ReduceWindows (![780] : Fin 1 → Nat) ![1] ![779] ![0] S780
  bcast_S780_S780x1_0 : S780.BroadcastsInDim S780x1 (![0] : Fin 1 → Fin S780x1.rank)
  dot_S2048x40x128_S128x128_S2048x40x128_2_0_01_1_n_n_wf : DotDims.WF S2048x40x128 S128x128 S2048x40x128 [2] [0] [0, 1] [1] [] []
  scatter_S780_S1600x1_S1600_n_0_0_1_wf : ScatterDims.WF S780 S1600x1 S1600 [] [0] [0] 1
  gather_S2048x40x128_S780x1_S2048x780x128_02_1_n_n_1_1_20481128_wf : GatherDims.WF S2048x40x128 S780x1 S2048x780x128 [0, 2] [1] [] [1] [] 1 ![2048, 1, 128]

variable [Facts₀]

def dot_S2048x40x128_S128x128_S2048x40x128_2_0_01_1_n_n : DotDims S2048x40x128 S128x128 S2048x40x128 where
  lhsContracting := [2]
  rhsContracting := [0]
  lhsNonContracting := [0, 1]
  rhsNonContracting := [1]
  lhsBatch := []
  rhsBatch := []
  wf := dot_S2048x40x128_S128x128_S2048x40x128_2_0_01_1_n_n_wf
def scatter_S780_S1600x1_S1600_n_0_0_1 : ScatterDims S780 S1600x1 S1600 where
  updateWindowDims := []
  insertedWindowDims := [0]
  scatterDimsToOperandDims := [0]
  indexVectorDim := 1
  wf := scatter_S780_S1600x1_S1600_n_0_0_1_wf
def gather_S2048x40x128_S780x1_S2048x780x128_02_1_n_n_1_1_20481128 : GatherDims S2048x40x128 S780x1 S2048x780x128 where
  offsetDims := [0, 2]
  collapsedSliceDims := [1]
  operandBatchingDims := []
  startIndicesBatchingDims := []
  startIndexMap := [1]
  indexVectorDim := 1
  sliceSizes := ![2048, 1, 128]
  wf := gather_S2048x40x128_S780x1_S2048x780x128_02_1_n_n_1_1_20481128_wf

class Facts : Prop extends Facts₀ where

variable [Facts]
-- ==== Proof.RefTerm.lean ====
import proofs.«101170_j24747601560016_2_alg».proof.ReferenceIdeal

/-!
The reference's result as one term of its two argument arrays.

The reference multiplies two rows gathered from `x` and from `x · W` (a contraction over the last axis of `x` and the
first of `W`).  Which rows: the two index tables `iiTab`, `jjTab` (780 entries each), computed by integer operations
only — the strictly-upper-triangular 40 × 40 mask, flattened to 1600 flags; their running count `cum1`; a histogram
of the running counts over 780 bins (`hist`); the running count of the histogram (`flat`, which is the flat position
`40 · i + j` of the p-th pair `i < j`); and its quotient and remainder by 40.  Every definition below is one
operation applied to the previous ones, in the program's order.
-/

noncomputable section

namespace Cert.ReferenceIdeal.RefTerm

open Idealize.ShloMosaic Cert.ReferenceIdeal
open Facts₀ Facts

variable {F : FTy → Type} [FloatOps F] [Facts]

/-- A rank-0 integer constant spread over 780 entries. -/
def splat780 (v : BitVec 32) : IVec S780 32 := broadcastInDim S780 ![] bcast_S_S780 (constantI S_ 32 v)

/-- A rank-0 integer constant spread over 1600 entries. -/
def splat1600 (v : BitVec 32) : IVec S1600 32 := broadcastInDim S1600 ![] bcast_S_S1600 (constantI S_ 32 v)

/-- Floor division of every entry by a rank-0 divisor: the truncating quotient, less one where the signs differ and
    the remainder is not zero. -/
def floorDiv (a : IVec S780 32) (b : IVec S_ 32) : IVec S780 32 :=
  let q : IVec S780 32 := Host.divsi a (broadcastInDim S780 ![] bcast_S_S780 b)
  select
    (andi (cmpi .ne (signi a) (broadcastInDim S780 ![] bcast_S_S780 (signi b)))
      (cmpi .ne (Host.remsi a (broadcastInDim S780 ![] bcast_S_S780 b)) (splat780 0#32)))
    (subi q (splat780 1#32)) q

/-- The divisor with zero replaced by one. -/
def safeDivisor (b : IVec S_ 32) : IVec S_ 32 := select (cmpi .eq b (constantI S_ 32 0#32)) (constantI S_ 32 1#32) b

/-- The floored remainder of every entry by a rank-0 divisor: the truncating remainder, plus the divisor where it is
    not zero and its sign differs from the divisor's. -/
def rem (a : IVec S780 32) (b : IVec S_ 32) : IVec S780 32 :=
  let r : IVec S780 32 := Host.remsi a (broadcastInDim S780 ![] bcast_S_S780 (safeDivisor b))
  select
    (andi
      (cmpi .ne (cmpi .slt r (splat780 0#32))
        (broadcastInDim S780 ![] bcast_S_S780 (cmpi .slt (safeDivisor b) (constantI S_ 32 0#32))))
      (cmpi .ne r (splat780 0#32)))
    (addi r (broadcastInDim S780 ![] bcast_S_S780 (safeDivisor b))) r

/-- A negative entry wrapped by the axis length 40 (indexing from the end). -/
def wrap (a : IVec S780 32) : IVec S780 32 := select (cmpi .slt a (splat780 0#32)) (addi a (splat780 40#32)) a

/-- The strictly-upper-triangular 40 × 40 array of ones: zero where row ≥ column. -/
def upperF : FVec F S40x40 .f32 :=
  select
    (cmpi .sge (addi (iotaInDim S40x40 32 0) (broadcastInDim S40x40 ![] bcast_S_S40x40 (constantI S_ 32 0#32)))
      (iotaInDim S40x40 32 1))
    (broadcastInDim S40x40 ![] bcast_S_S40x40 (constant S_ .f32 0x00000000#32))
    (broadcastInDim S40x40 ![] bcast_S_S40x40 (constant S_ .f32 0x3F800000#32))

/-- Its nonzero flags. -/
def mask : IVec S40x40 1 :=
  cmpf .une (upperF (F := F)) (broadcastInDim S40x40 ![] bcast_S_S40x40 (constant S_ .f32 0x00000000#32))

/-- The flags flattened row-major, as 32-bit words. -/
def flags : IVec S1600 32 := extui 32 (shapeCast S1600 (mask (F := F)) shapeCasts_S40x40_S1600) natLt_1_32

/-- The running count of the flags: entry `q` counts the flags at positions `≤ q`. -/
def cum1 : IVec S1600 32 :=
  Host.reduceWindow IntOp.addi ![1600] ![1] ![1599] ![0] (flags (F := F))
    (broadcastInDim S_ ![] bcast_S_S_ (constantI S_ 32 0#32)) reduceWindows_S1600_S1600_w1600s1p1599_0 h_S_

/-- The running count bounded below by zero. -/
def clipped : IVec S1600 32 :=
  maxsi (broadcastInDim S1600 ![] bcast_S_S1600 (id (constantI S_ 32 0#32) : IVec S_ 32)) (cum1 (F := F))

/-- The bins the histogram adds into: the bounded running count, a negative one wrapped by 780. -/
def bins : IVec S1600 32 :=
  select (cmpi .slt (clipped (F := F)) (splat1600 0#32)) (addi (clipped (F := F)) (splat1600 780#32)) (clipped (F := F))

/-- The histogram over 780 bins: one added at each position's bin (a bin outside `0 … 779` is dropped). -/
def hist : IVec S780 32 :=
  Host.scatter scatter_S780_S1600x1_S1600_n_0_0_1 IntOp.addi (splat780 0#32)
    (broadcastInDim S1600x1 ![0] bcast_S1600_S1600x1_0 (bins (F := F))) (splat1600 1#32)

/-- The running count of the histogram: the flat position of the p-th flag. -/
def flat : IVec S780 32 :=
  Host.reduceWindow IntOp.addi ![780] ![1] ![779] ![0] (hist (F := F))
    (broadcastInDim S_ ![] bcast_S_S_ (constantI S_ 32 0#32)) reduceWindows_S780_S780_w780s1p779_0 h_S_

/-- The row coordinates of the pairs: `(flat / 40) mod 40`. -/
def iiTab : IVec S780 32 := wrap (rem (floorDiv (flat (F := F)) (constantI S_ 32 40#32)) (constantI S_ 32 40#32))

/-- The column coordinates of the pairs: `(flat / 1) mod 40`. -/
def jjTab : IVec S780 32 := wrap (rem (floorDiv (flat (F := F)) (constantI S_ 32 1#32)) (constantI S_ 32 40#32))

/-- The reference's result: the rows `iiTab` of `x` times the rows `jjTab` of `x · W`. -/
def refOut (x : FVec F S2048x40x128 .f32) (W : FVec F S128x128 .f32) : FVec F S2048x780x128 .f32 :=
  mulf
    (Host.gather gather_S2048x40x128_S780x1_S2048x780x128_02_1_n_n_1_1_20481128 x
      (broadcastInDim S780x1 ![0] bcast_S780_S780x1_0 (iiTab (F := F))))
    (Host.gather gather_S2048x40x128_S780x1_S2048x780x128_02_1_n_n_1_1_20481128
      (Host.dotGeneral dot_S2048x40x128_S128x128_S2048x40x128_2_0_01_1_n_n none x W)
      (broadcastInDim S780x1 ![0] bcast_S780_S780x1_0 (jjTab (F := F))))

end Cert.ReferenceIdeal.RefTerm

end
-- ==== Proof.RefRun.lean ====
import proofs.«101170_j24747601560016_2_alg».proof.Proof.Gen.ReferenceIdeal
import proofs.«101170_j24747601560016_2_alg».proof.Proof.RefTerm
import Idealize.ShloMosaic.Lib.StableHlo.Run

/-!
The run of the reference program, read back as one term of its two argument arrays.

@main is a straight line of 137 tensor operations once its calls are unfolded (each callee's operations listed at the
call site over that call's record of buffers).  `main_eq` identifies @main with that list; the fold of the list over
any buffer contents is computed in seven consecutive stretches (what each stretch leaves in the buffers later
stretches read, as a function of what it reads), composed along the concatenation; `run` is then the general run of a
straight line of tensor operations, read at the result buffer and at the two argument buffers.
-/

noncomputable section

namespace Cert.ReferenceIdeal.RefRun

open Cert.ReferenceIdeal Idealize.ShloMosaic Idealize.ShloMosaic.TcCoe Idealize.SL.Sem Idealize.ShloMosaic.StableHlo
open Facts₀ Facts

variable {F : FTy → Type} [FloatOps F]

/-- The fold over a concatenation is the fold over the second part from the fold over the first. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-! ## The operations, in seven consecutive stretches

@main's operations in order, each call's operations listed at the call over that call's record of buffers. -/

/-- Operations 1–20 of the 137. -/
abbrev opsA : List (HloOp τ sig (Elt F)) :=
  [ binary main_arg0 main_arg1 main_v0 ((fun l r => Host.dotGeneral dot_S2048x40x128_S128x128_S2048x40x128_2_0_01_1_n_n none l r) : (⟨S2048x40x128, .f32⟩ : BufTy).Contents (Elt F) → (⟨S128x128, .f32⟩ : BufTy).Contents (Elt F) → (⟨S2048x40x128, .f32⟩ : BufTy).Contents (Elt F)),
    nullary main_cst (constant S_ .f32 0x3F800000#32),
    unary main_cst main_v1 (broadcastInDim S40x40 ![] bcast_S_S40x40 : (⟨S_, .f32⟩ : BufTy).Contents (Elt F) → (⟨S40x40, .f32⟩ : BufTy).Contents (Elt F)),
    TRef.nullary main_call0.v0 (iotaInDim S40x40 32 0),
    TRef.nullary main_call0.c (constantI S_ 32 0#32),
    TRef.unary main_call0.c main_call0.v1 (broadcastInDim S40x40 ![] bcast_S_S40x40),
    TRef.binary main_call0.v0 main_call0.v1 main_call0.v2 addi,
    TRef.nullary main_call0.v3 (iotaInDim S40x40 32 1),
    TRef.binary main_call0.v2 main_call0.v3 main_call0.v4 (cmpi .sge),
    TRef.nullary main_call0.cst (constant S_ .f32 0x00000000#32),
    TRef.unary main_call0.cst main_call0.v5 (broadcastInDim S40x40 ![] bcast_S_S40x40),
    TRef.ternary main_call0.v4 main_call0.v5 (.of main_v1 : StableHlo.TRef sig ⟨S40x40, .f32⟩) main_call0.v6 select,
    nullary main_cst_0 (constant S_ .f32 0x00000000#32),
    unary main_cst_0 main_v3 (broadcastInDim S40x40 ![] bcast_S_S40x40 : (⟨S_, .f32⟩ : BufTy).Contents (Elt F) → (⟨S40x40, .f32⟩ : BufTy).Contents (Elt F)),
    binary main_v2 main_v3 main_v4 (cmpf .une : (⟨S40x40, .f32⟩ : BufTy).Contents (Elt F) → (⟨S40x40, .f32⟩ : BufTy).Contents (Elt F) → (⟨S40x40, .i1⟩ : BufTy).Contents (Elt F)),
    TRef.reshape (.of main_v4 : StableHlo.TRef sig ⟨S40x40, .i1⟩) main_call1.v0 rfl shapeCasts_S40x40_S1600,
    TRef.unary main_call1.v0 main_call1.v1 (extui 32 · natLt_1_32),
    TRef.nullary main_call1.call0.c (constantI S_ 32 0#32),
    TRef.unary main_call1.call0.c main_call1.call0.v0 (broadcastInDim S_ ![] bcast_S_S_),
    TRef.binary main_call1.v1 main_call1.call0.v0 main_call1.call0.v1 (fun x v => Host.reduceWindow IntOp.addi ![1600] ![1] ![1599] ![0] x v reduceWindows_S1600_S1600_w1600s1p1599_0 h_S_) ]

/-- Operations 21–37 of the 137. -/
abbrev opsB : List (HloOp τ sig (Elt F)) :=
  [ nullary main_c (constantI S_ 32 0#32),
    unary main_c main_v6 (broadcastInDim S780 ![] bcast_S_S780 : (⟨S_, .i32⟩ : BufTy).Contents (Elt F) → (⟨S780, .i32⟩ : BufTy).Contents (Elt F)),
    nullary main_c_1 (constantI S_ 32 0#32),
    TRef.unary (.of main_c_1 : StableHlo.TRef sig ⟨S_, .i32⟩) main_call2.v0 id,
    TRef.unary main_call2.v0 main_call2.v1 (broadcastInDim S1600 ![] bcast_S_S1600),
    TRef.binary main_call2.v1 (.of main_v5 : StableHlo.TRef sig ⟨S1600, .i32⟩) main_call2.v2 maxsi,
    nullary main_c_2 (constantI S_ 32 0#32),
    unary main_c_2 main_v8 (broadcastInDim S1600 ![] bcast_S_S1600 : (⟨S_, .i32⟩ : BufTy).Contents (Elt F) → (⟨S1600, .i32⟩ : BufTy).Contents (Elt F)),
    binary main_v7 main_v8 main_v9 (cmpi .slt : (⟨S1600, .i32⟩ : BufTy).Contents (Elt F) → (⟨S1600, .i32⟩ : BufTy).Contents (Elt F) → (⟨S1600, .i1⟩ : BufTy).Contents (Elt F)),
    nullary main_c_3 (constantI S_ 32 780#32),
    unary main_c_3 main_v10 (broadcastInDim S1600 ![] bcast_S_S1600 : (⟨S_, .i32⟩ : BufTy).Contents (Elt F) → (⟨S1600, .i32⟩ : BufTy).Contents (Elt F)),
    binary main_v7 main_v10 main_v11 (addi : (⟨S1600, .i32⟩ : BufTy).Contents (Elt F) → (⟨S1600, .i32⟩ : BufTy).Contents (Elt F) → (⟨S1600, .i32⟩ : BufTy).Contents (Elt F)),
    ternary main_v9 main_v11 main_v7 main_v12 (select : (⟨S1600, .i1⟩ : BufTy).Contents (Elt F) → (⟨S1600, .i32⟩ : BufTy).Contents (Elt F) → (⟨S1600, .i32⟩ : BufTy).Contents (Elt F) → (⟨S1600, .i32⟩ : BufTy).Contents (Elt F)),
    unary main_v12 main_v13 (broadcastInDim S1600x1 ![0] bcast_S1600_S1600x1_0 : (⟨S1600, .i32⟩ : BufTy).Contents (Elt F) → (⟨S1600x1, .i32⟩ : BufTy).Contents (Elt F)),
    nullary main_c_4 (constantI S_ 32 1#32),
    unary main_c_4 main_v14 (broadcastInDim S1600 ![] bcast_S_S1600 : (⟨S_, .i32⟩ : BufTy).Contents (Elt F) → (⟨S1600, .i32⟩ : BufTy).Contents (Elt F)),
    ternary main_v6 main_v13 main_v14 main_v15 ((fun x i u => Host.scatter scatter_S780_S1600x1_S1600_n_0_0_1 IntOp.addi x i u) : (⟨S780, .i32⟩ : BufTy).Contents (Elt F) → (⟨S1600x1, .i32⟩ : BufTy).Contents (Elt F) → (⟨S1600, .i32⟩ : BufTy).Contents (Elt F) → (⟨S780, .i32⟩ : BufTy).Contents (Elt F)) ]

/-- Operations 38–57 of the 137. -/
abbrev opsC1a : List (HloOp τ sig (Elt F)) :=
  [ TRef.nullary main_call3.call0.c (constantI S_ 32 0#32),
    TRef.unary main_call3.call0.c main_call3.call0.v0 (broadcastInDim S_ ![] bcast_S_S_),
    TRef.binary (.of main_v15 : StableHlo.TRef sig ⟨S780, .i32⟩) main_call3.call0.v0 main_call3.call0.v1 (fun x v => Host.reduceWindow IntOp.addi ![780] ![1] ![779] ![0] x v reduceWindows_S780_S780_w780s1p779_0 h_S_),
    nullary main_c_5 (constantI S_ 32 40#32),
    TRef.unary (.of main_c_5 : StableHlo.TRef sig ⟨S_, .i32⟩) main_call4.v0 (broadcastInDim S780 ![] bcast_S_S780),
    TRef.binary (.of main_v16 : StableHlo.TRef sig ⟨S780, .i32⟩) main_call4.v0 main_call4.v1 Host.divsi,
    TRef.unary (.of main_v16 : StableHlo.TRef sig ⟨S780, .i32⟩) main_call4.v2 signi,
    TRef.unary (.of main_c_5 : StableHlo.TRef sig ⟨S_, .i32⟩) main_call4.v3 signi,
    TRef.unary main_call4.v3 main_call4.v4 (broadcastInDim S780 ![] bcast_S_S780),
    TRef.binary main_call4.v2 main_call4.v4 main_call4.v5 (cmpi .ne),
    TRef.unary (.of main_c_5 : StableHlo.TRef sig ⟨S_, .i32⟩) main_call4.v6 (broadcastInDim S780 ![] bcast_S_S780),
    TRef.binary (.of main_v16 : StableHlo.TRef sig ⟨S780, .i32⟩) main_call4.v6 main_call4.v7 Host.remsi,
    TRef.nullary main_call4.c (constantI S_ 32 0#32),
    TRef.unary main_call4.c main_call4.v8 (broadcastInDim S780 ![] bcast_S_S780),
    TRef.binary main_call4.v7 main_call4.v8 main_call4.v9 (cmpi .ne),
    TRef.binary main_call4.v5 main_call4.v9 main_call4.v10 andi,
    TRef.nullary main_call4.c_0 (constantI S_ 32 1#32),
    TRef.unary main_call4.c_0 main_call4.v11 (broadcastInDim S780 ![] bcast_S_S780),
    TRef.binary main_call4.v1 main_call4.v11 main_call4.v12 subi,
    TRef.ternary main_call4.v10 main_call4.v12 main_call4.v1 main_call4.call0.v0 select ]

/-- Operations 58–79 of the 137. -/
abbrev opsC1b : List (HloOp τ sig (Elt F)) :=
  [ nullary main_c_6 (constantI S_ 32 40#32),
    TRef.unary (.of main_c_6 : StableHlo.TRef sig ⟨S_, .i32⟩) main_call5.v0 id,
    TRef.nullary main_call5.c (constantI S_ 32 0#32),
    TRef.binary main_call5.v0 main_call5.c main_call5.v1 (cmpi .eq),
    TRef.nullary main_call5.c_0 (constantI S_ 32 1#32),
    TRef.ternary main_call5.v1 main_call5.c_0 main_call5.v0 main_call5.call0.v0 select,
    TRef.unary main_call5.call0.v0 main_call5.v3 (broadcastInDim S780 ![] bcast_S_S780),
    TRef.binary (.of main_v17 : StableHlo.TRef sig ⟨S780, .i32⟩) main_call5.v3 main_call5.v4 Host.remsi,
    TRef.nullary main_call5.c_1 (constantI S_ 32 0#32),
    TRef.unary main_call5.c_1 main_call5.v5 (broadcastInDim S780 ![] bcast_S_S780),
    TRef.binary main_call5.v4 main_call5.v5 main_call5.v6 (cmpi .ne),
    TRef.nullary main_call5.c_2 (constantI S_ 32 0#32),
    TRef.unary main_call5.c_2 main_call5.v7 (broadcastInDim S780 ![] bcast_S_S780),
    TRef.binary main_call5.v4 main_call5.v7 main_call5.v8 (cmpi .slt),
    TRef.nullary main_call5.c_3 (constantI S_ 32 0#32),
    TRef.binary main_call5.call0.v0 main_call5.c_3 main_call5.v9 (cmpi .slt),
    TRef.unary main_call5.v9 main_call5.v10 (broadcastInDim S780 ![] bcast_S_S780),
    TRef.binary main_call5.v8 main_call5.v10 main_call5.v11 (cmpi .ne),
    TRef.binary main_call5.v11 main_call5.v6 main_call5.v12 andi,
    TRef.unary main_call5.call0.v0 main_call5.v13 (broadcastInDim S780 ![] bcast_S_S780),
    TRef.binary main_call5.v4 main_call5.v13 main_call5.v14 addi,
    TRef.ternary main_call5.v12 main_call5.v14 main_call5.v4 main_call5.v15 select ]

/-- Operations 80–96 of the 137. -/
abbrev opsC2a : List (HloOp τ sig (Elt F)) :=
  [ nullary main_c_7 (constantI S_ 32 1#32),
    TRef.unary (.of main_c_7 : StableHlo.TRef sig ⟨S_, .i32⟩) main_call6.v0 (broadcastInDim S780 ![] bcast_S_S780),
    TRef.binary (.of main_v16 : StableHlo.TRef sig ⟨S780, .i32⟩) main_call6.v0 main_call6.v1 Host.divsi,
    TRef.unary (.of main_v16 : StableHlo.TRef sig ⟨S780, .i32⟩) main_call6.v2 signi,
    TRef.unary (.of main_c_7 : StableHlo.TRef sig ⟨S_, .i32⟩) main_call6.v3 signi,
    TRef.unary main_call6.v3 main_call6.v4 (broadcastInDim S780 ![] bcast_S_S780),
    TRef.binary main_call6.v2 main_call6.v4 main_call6.v5 (cmpi .ne),
    TRef.unary (.of main_c_7 : StableHlo.TRef sig ⟨S_, .i32⟩) main_call6.v6 (broadcastInDim S780 ![] bcast_S_S780),
    TRef.binary (.of main_v16 : StableHlo.TRef sig ⟨S780, .i32⟩) main_call6.v6 main_call6.v7 Host.remsi,
    TRef.nullary main_call6.c (constantI S_ 32 0#32),
    TRef.unary main_call6.c main_call6.v8 (broadcastInDim S780 ![] bcast_S_S780),
    TRef.binary main_call6.v7 main_call6.v8 main_call6.v9 (cmpi .ne),
    TRef.binary main_call6.v5 main_call6.v9 main_call6.v10 andi,
    TRef.nullary main_call6.c_0 (constantI S_ 32 1#32),
    TRef.unary main_call6.c_0 main_call6.v11 (broadcastInDim S780 ![] bcast_S_S780),
    TRef.binary main_call6.v1 main_call6.v11 main_call6.v12 subi,
    TRef.ternary main_call6.v10 main_call6.v12 main_call6.v1 main_call6.call0.v0 select ]

/-- Operations 97–118 of the 137. -/
abbrev opsC2b : List (HloOp τ sig (Elt F)) :=
  [ nullary main_c_8 (constantI S_ 32 40#32),
    TRef.unary (.of main_c_8 : StableHlo.TRef sig ⟨S_, .i32⟩) main_call7.v0 id,
    TRef.nullary main_call7.c (constantI S_ 32 0#32),
    TRef.binary main_call7.v0 main_call7.c main_call7.v1 (cmpi .eq),
    TRef.nullary main_call7.c_0 (constantI S_ 32 1#32),
    TRef.ternary main_call7.v1 main_call7.c_0 main_call7.v0 main_call7.call0.v0 select,
    TRef.unary main_call7.call0.v0 main_call7.v3 (broadcastInDim S780 ![] bcast_S_S780),
    TRef.binary (.of main_v19 : StableHlo.TRef sig ⟨S780, .i32⟩) main_call7.v3 main_call7.v4 Host.remsi,
    TRef.nullary main_call7.c_1 (constantI S_ 32 0#32),
    TRef.unary main_call7.c_1 main_call7.v5 (broadcastInDim S780 ![] bcast_S_S780),
    TRef.binary main_call7.v4 main_call7.v5 main_call7.v6 (cmpi .ne),
    TRef.nullary main_call7.c_2 (constantI S_ 32 0#32),
    TRef.unary main_call7.c_2 main_call7.v7 (broadcastInDim S780 ![] bcast_S_S780),
    TRef.binary main_call7.v4 main_call7.v7 main_call7.v8 (cmpi .slt),
    TRef.nullary main_call7.c_3 (constantI S_ 32 0#32),
    TRef.binary main_call7.call0.v0 main_call7.c_3 main_call7.v9 (cmpi .slt),
    TRef.unary main_call7.v9 main_call7.v10 (broadcastInDim S780 ![] bcast_S_S780),
    TRef.binary main_call7.v8 main_call7.v10 main_call7.v11 (cmpi .ne),
    TRef.binary main_call7.v11 main_call7.v6 main_call7.v12 andi,
    TRef.unary main_call7.call0.v0 main_call7.v13 (broadcastInDim S780 ![] bcast_S_S780),
    TRef.binary main_call7.v4 main_call7.v13 main_call7.v14 addi,
    TRef.ternary main_call7.v12 main_call7.v14 main_call7.v4 main_call7.v15 select ]

/-- Operations 119–137 of the 137. -/
abbrev opsD : List (HloOp τ sig (Elt F)) :=
  [ nullary main_c_9 (constantI S_ 32 0#32),
    unary main_c_9 main_v21 (broadcastInDim S780 ![] bcast_S_S780 : (⟨S_, .i32⟩ : BufTy).Contents (Elt F) → (⟨S780, .i32⟩ : BufTy).Contents (Elt F)),
    binary main_v18 main_v21 main_v22 (cmpi .slt : (⟨S780, .i32⟩ : BufTy).Contents (Elt F) → (⟨S780, .i32⟩ : BufTy).Contents (Elt F) → (⟨S780, .i1⟩ : BufTy).Contents (Elt F)),
    nullary main_c_10 (constantI S_ 32 40#32),
    unary main_c_10 main_v23 (broadcastInDim S780 ![] bcast_S_S780 : (⟨S_, .i32⟩ : BufTy).Contents (Elt F) → (⟨S780, .i32⟩ : BufTy).Contents (Elt F)),
    binary main_v18 main_v23 main_v24 (addi : (⟨S780, .i32⟩ : BufTy).Contents (Elt F) → (⟨S780, .i32⟩ : BufTy).Contents (Elt F) → (⟨S780, .i32⟩ : BufTy).Contents (Elt F)),
    ternary main_v22 main_v24 main_v18 main_v25 (select : (⟨S780, .i1⟩ : BufTy).Contents (Elt F) → (⟨S780, .i32⟩ : BufTy).Contents (Elt F) → (⟨S780, .i32⟩ : BufTy).Contents (Elt F) → (⟨S780, .i32⟩ : BufTy).Contents (Elt F)),
    unary main_v25 main_v26 (broadcastInDim S780x1 ![0] bcast_S780_S780x1_0 : (⟨S780, .i32⟩ : BufTy).Contents (Elt F) → (⟨S780x1, .i32⟩ : BufTy).Contents (Elt F)),
    binary main_arg0 main_v26 main_v27 ((fun x i => Host.gather gather_S2048x40x128_S780x1_S2048x780x128_02_1_n_n_1_1_20481128 x i) : (⟨S2048x40x128, .f32⟩ : BufTy).Contents (Elt F) → (⟨S780x1, .i32⟩ : BufTy).Contents (Elt F) → (⟨S2048x780x128, .f32⟩ : BufTy).Contents (Elt F)),
    nullary main_c_11 (constantI S_ 32 0#32),
    unary main_c_11 main_v28 (broadcastInDim S780 ![] bcast_S_S780 : (⟨S_, .i32⟩ : BufTy).Contents (Elt F) → (⟨S780, .i32⟩ : BufTy).Contents (Elt F)),
    binary main_v20 main_v28 main_v29 (cmpi .slt : (⟨S780, .i32⟩ : BufTy).Contents (Elt F) → (⟨S780, .i32⟩ : BufTy).Contents (Elt F) → (⟨S780, .i1⟩ : BufTy).Contents (Elt F)),
    nullary main_c_12 (constantI S_ 32 40#32),
    unary main_c_12 main_v30 (broadcastInDim S780 ![] bcast_S_S780 : (⟨S_, .i32⟩ : BufTy).Contents (Elt F) → (⟨S780, .i32⟩ : BufTy).Contents (Elt F)),
    binary main_v20 main_v30 main_v31 (addi : (⟨S780, .i32⟩ : BufTy).Contents (Elt F) → (⟨S780, .i32⟩ : BufTy).Contents (Elt F) → (⟨S780, .i32⟩ : BufTy).Contents (Elt F)),
    ternary main_v29 main_v31 main_v20 main_v32 (select : (⟨S780, .i1⟩ : BufTy).Contents (Elt F) → (⟨S780, .i32⟩ : BufTy).Contents (Elt F) → (⟨S780, .i32⟩ : BufTy).Contents (Elt F) → (⟨S780, .i32⟩ : BufTy).Contents (Elt F)),
    unary main_v32 main_v33 (broadcastInDim S780x1 ![0] bcast_S780_S780x1_0 : (⟨S780, .i32⟩ : BufTy).Contents (Elt F) → (⟨S780x1, .i32⟩ : BufTy).Contents (Elt F)),
    binary main_v0 main_v33 main_v34 ((fun x i => Host.gather gather_S2048x40x128_S780x1_S2048x780x128_02_1_n_n_1_1_20481128 x i) : (⟨S2048x40x128, .f32⟩ : BufTy).Contents (Elt F) → (⟨S780x1, .i32⟩ : BufTy).Contents (Elt F) → (⟨S2048x780x128, .f32⟩ : BufTy).Contents (Elt F)),
    binary main_v27 main_v34 main_v35 (mulf : (⟨S2048x780x128, .f32⟩ : BufTy).Contents (Elt F) → (⟨S2048x780x128, .f32⟩ : BufTy).Contents (Elt F) → (⟨S2048x780x128, .f32⟩ : BufTy).Contents (Elt F)) ]

section Stretches

-- the window reductions, the scatter and the gathers stay folded: no equation below looks inside them
attribute [local irreducible] Host.reduceWindow Host.scatter Host.gather

set_option maxRecDepth 8192
set_option maxHeartbeats 1000000

/-! ### First stretch: the contraction, the triangular mask, its running count -/

theorem A_v5 (V : Valuation τ sig (Elt F)) : after opsA V (main_v5 : DevRef τ sig) = RefTerm.cum1 (F := F) := by
  after_results_simp
  rfl

theorem A_v0 (V : Valuation τ sig (Elt F)) :
    after opsA V (main_v0 : DevRef τ sig) = Host.dotGeneral dot_S2048x40x128_S128x128_S2048x40x128_2_0_01_1_n_n none (V (main_arg0 : DevRef τ sig)) (V (main_arg1 : DevRef τ sig)) := by
  after_results_simp

theorem A_arg0 (V : Valuation τ sig (Elt F)) :
    after opsA V (main_arg0 : DevRef τ sig) = V (main_arg0 : DevRef τ sig) := by
  after_results_simp

theorem A_arg1 (V : Valuation τ sig (Elt F)) :
    after opsA V (main_arg1 : DevRef τ sig) = V (main_arg1 : DevRef τ sig) := by
  after_results_simp

/-! ### Second stretch: the bins and the histogram -/

theorem B_v15 (V : Valuation τ sig (Elt F)) (h : V (main_v5 : DevRef τ sig) = RefTerm.cum1 (F := F)) :
    after opsB V (main_v15 : DevRef τ sig) = RefTerm.hist (F := F) := by
  after_results_simp
  rw [h]
  rfl

theorem B_v0 (V : Valuation τ sig (Elt F)) :
    after opsB V (main_v0 : DevRef τ sig) = V (main_v0 : DevRef τ sig) := by
  after_results_simp

theorem B_arg0 (V : Valuation τ sig (Elt F)) :
    after opsB V (main_arg0 : DevRef τ sig) = V (main_arg0 : DevRef τ sig) := by
  after_results_simp

theorem B_arg1 (V : Valuation τ sig (Elt F)) :
    after opsB V (main_arg1 : DevRef τ sig) = V (main_arg1 : DevRef τ sig) := by
  after_results_simp

/-! ### Third stretch: the histogram's running count and its floor quotient by 40 -/

theorem C1a_v16 (V : Valuation τ sig (Elt F)) (h : V (main_v15 : DevRef τ sig) = RefTerm.hist (F := F)) :
    after opsC1a V (main_v16 : DevRef τ sig) = RefTerm.flat (F := F) := by
  after_results_simp
  rw [h]
  rfl

theorem C1a_v17 (V : Valuation τ sig (Elt F)) (h : V (main_v15 : DevRef τ sig) = RefTerm.hist (F := F)) :
    after opsC1a V (main_v17 : DevRef τ sig) = RefTerm.floorDiv (RefTerm.flat (F := F)) (constantI S_ 32 40#32) := by
  after_results_simp
  rw [h]
  rfl

theorem C1a_v0 (V : Valuation τ sig (Elt F)) :
    after opsC1a V (main_v0 : DevRef τ sig) = V (main_v0 : DevRef τ sig) := by
  after_results_simp

theorem C1a_arg0 (V : Valuation τ sig (Elt F)) :
    after opsC1a V (main_arg0 : DevRef τ sig) = V (main_arg0 : DevRef τ sig) := by
  after_results_simp

theorem C1a_arg1 (V : Valuation τ sig (Elt F)) :
    after opsC1a V (main_arg1 : DevRef τ sig) = V (main_arg1 : DevRef τ sig) := by
  after_results_simp

/-! ### Fourth stretch: the floored remainder by 40 of the quotient -/

theorem C1b_v18 (V : Valuation τ sig (Elt F)) (a : IVec S780 32) (h : V (main_v17 : DevRef τ sig) = a) :
    after opsC1b V (main_v18 : DevRef τ sig) = RefTerm.rem a (constantI S_ 32 40#32) := by
  after_results_simp
  rw [h]
  rfl

theorem C1b_v16 (V : Valuation τ sig (Elt F)) :
    after opsC1b V (main_v16 : DevRef τ sig) = V (main_v16 : DevRef τ sig) := by
  after_results_simp

theorem C1b_v0 (V : Valuation τ sig (Elt F)) :
    after opsC1b V (main_v0 : DevRef τ sig) = V (main_v0 : DevRef τ sig) := by
  after_results_simp

theorem C1b_arg0 (V : Valuation τ sig (Elt F)) :
    after opsC1b V (main_arg0 : DevRef τ sig) = V (main_arg0 : DevRef τ sig) := by
  after_results_simp

theorem C1b_arg1 (V : Valuation τ sig (Elt F)) :
    after opsC1b V (main_arg1 : DevRef τ sig) = V (main_arg1 : DevRef τ sig) := by
  after_results_simp

/-! ### Fifth stretch: the running count's floor quotient by 1 -/

theorem C2a_v19 (V : Valuation τ sig (Elt F)) (a : IVec S780 32) (h : V (main_v16 : DevRef τ sig) = a) :
    after opsC2a V (main_v19 : DevRef τ sig) = RefTerm.floorDiv a (constantI S_ 32 1#32) := by
  after_results_simp
  rw [h]
  rfl

theorem C2a_v18 (V : Valuation τ sig (Elt F)) :
    after opsC2a V (main_v18 : DevRef τ sig) = V (main_v18 : DevRef τ sig) := by
  after_results_simp

theorem C2a_v0 (V : Valuation τ sig (Elt F)) :
    after opsC2a V (main_v0 : DevRef τ sig) = V (main_v0 : DevRef τ sig) := by
  after_results_simp

theorem C2a_arg0 (V : Valuation τ sig (Elt F)) :
    after opsC2a V (main_arg0 : DevRef τ sig) = V (main_arg0 : DevRef τ sig) := by
  after_results_simp

theorem C2a_arg1 (V : Valuation τ sig (Elt F)) :
    after opsC2a V (main_arg1 : DevRef τ sig) = V (main_arg1 : DevRef τ sig) := by
  after_results_simp

/-! ### Sixth stretch: the floored remainder by 40 of that quotient -/

theorem C2b_v20 (V : Valuation τ sig (Elt F)) (a : IVec S780 32) (h : V (main_v19 : DevRef τ sig) = a) :
    after opsC2b V (main_v20 : DevRef τ sig) = RefTerm.rem a (constantI S_ 32 40#32) := by
  after_results_simp
  rw [h]
  rfl

theorem C2b_v18 (V : Valuation τ sig (Elt F)) :
    after opsC2b V (main_v18 : DevRef τ sig) = V (main_v18 : DevRef τ sig) := by
  after_results_simp

theorem C2b_v0 (V : Valuation τ sig (Elt F)) :
    after opsC2b V (main_v0 : DevRef τ sig) = V (main_v0 : DevRef τ sig) := by
  after_results_simp

theorem C2b_arg0 (V : Valuation τ sig (Elt F)) :
    after opsC2b V (main_arg0 : DevRef τ sig) = V (main_arg0 : DevRef τ sig) := by
  after_results_simp

theorem C2b_arg1 (V : Valuation τ sig (Elt F)) :
    after opsC2b V (main_arg1 : DevRef τ sig) = V (main_arg1 : DevRef τ sig) := by
  after_results_simp

/-! ### Last stretch: the wraps, the two gathers, the product -/

theorem D_v35 (V : Valuation τ sig (Elt F)) (i j : IVec S780 32) (x y : FVec F S2048x40x128 .f32)
    (h18 : V (main_v18 : DevRef τ sig) = i) (h20 : V (main_v20 : DevRef τ sig) = j)
    (h0 : V (main_v0 : DevRef τ sig) = y) (ha : V (main_arg0 : DevRef τ sig) = x) :
    after opsD V (main_v35 : DevRef τ sig)
      = mulf (Host.gather gather_S2048x40x128_S780x1_S2048x780x128_02_1_n_n_1_1_20481128 x (broadcastInDim S780x1 ![0] bcast_S780_S780x1_0 (RefTerm.wrap i))) (Host.gather gather_S2048x40x128_S780x1_S2048x780x128_02_1_n_n_1_1_20481128 y (broadcastInDim S780x1 ![0] bcast_S780_S780x1_0 (RefTerm.wrap j))) := by
  after_results_simp
  rw [h18, h20, h0, ha]
  rfl

theorem D_arg0 (V : Valuation τ sig (Elt F)) :
    after opsD V (main_arg0 : DevRef τ sig) = V (main_arg0 : DevRef τ sig) := by
  after_results_simp

theorem D_arg1 (V : Valuation τ sig (Elt F)) :
    after opsD V (main_arg1 : DevRef τ sig) = V (main_arg1 : DevRef τ sig) := by
  after_results_simp

end Stretches

/-! ## The whole line -/

/-- @main's 137 operations, in order, the calls unfolded: `triu` (nine), `cumsum` (two and `cumsum_0`'s three),
    `clip` (three), `cumsum_1` (`cumsum_2`'s three), `floor_divide` (fifteen and `_where`'s one) and `remainder`
    (twenty and `_where_3`'s one) twice each, around @main's own forty-three. -/
abbrev ops : List (HloOp τ sig (Elt F)) :=
  [ binary main_arg0 main_arg1 main_v0 ((fun l r => Host.dotGeneral dot_S2048x40x128_S128x128_S2048x40x128_2_0_01_1_n_n none l r) : (⟨S2048x40x128, .f32⟩ : BufTy).Contents (Elt F) → (⟨S128x128, .f32⟩ : BufTy).Contents (Elt F) → (⟨S2048x40x128, .f32⟩ : BufTy).Contents (Elt F)),
    nullary main_cst (constant S_ .f32 0x3F800000#32),
    unary main_cst main_v1 (broadcastInDim S40x40 ![] bcast_S_S40x40 : (⟨S_, .f32⟩ : BufTy).Contents (Elt F) → (⟨S40x40, .f32⟩ : BufTy).Contents (Elt F)),
    TRef.nullary main_call0.v0 (iotaInDim S40x40 32 0),
    TRef.nullary main_call0.c (constantI S_ 32 0#32),
    TRef.unary main_call0.c main_call0.v1 (broadcastInDim S40x40 ![] bcast_S_S40x40),
    TRef.binary main_call0.v0 main_call0.v1 main_call0.v2 addi,
    TRef.nullary main_call0.v3 (iotaInDim S40x40 32 1),
    TRef.binary main_call0.v2 main_call0.v3 main_call0.v4 (cmpi .sge),
    TRef.nullary main_call0.cst (constant S_ .f32 0x00000000#32),
    TRef.unary main_call0.cst main_call0.v5 (broadcastInDim S40x40 ![] bcast_S_S40x40),
    TRef.ternary main_call0.v4 main_call0.v5 (.of main_v1 : StableHlo.TRef sig ⟨S40x40, .f32⟩) main_call0.v6 select,
    nullary main_cst_0 (constant S_ .f32 0x00000000#32),
    unary main_cst_0 main_v3 (broadcastInDim S40x40 ![] bcast_S_S40x40 : (⟨S_, .f32⟩ : BufTy).Contents (Elt F) → (⟨S40x40, .f32⟩ : BufTy).Contents (Elt F)),
    binary main_v2 main_v3 main_v4 (cmpf .une : (⟨S40x40, .f32⟩ : BufTy).Contents (Elt F) → (⟨S40x40, .f32⟩ : BufTy).Contents (Elt F) → (⟨S40x40, .i1⟩ : BufTy).Contents (Elt F)),
    TRef.reshape (.of main_v4 : StableHlo.TRef sig ⟨S40x40, .i1⟩) main_call1.v0 rfl shapeCasts_S40x40_S1600,
    TRef.unary main_call1.v0 main_call1.v1 (extui 32 · natLt_1_32),
    TRef.nullary main_call1.call0.c (constantI S_ 32 0#32),
    TRef.unary main_call1.call0.c main_call1.call0.v0 (broadcastInDim S_ ![] bcast_S_S_),
    TRef.binary main_call1.v1 main_call1.call0.v0 main_call1.call0.v1 (fun x v => Host.reduceWindow IntOp.addi ![1600] ![1] ![1599] ![0] x v reduceWindows_S1600_S1600_w1600s1p1599_0 h_S_),
    nullary main_c (constantI S_ 32 0#32),
    unary main_c main_v6 (broadcastInDim S780 ![] bcast_S_S780 : (⟨S_, .i32⟩ : BufTy).Contents (Elt F) → (⟨S780, .i32⟩ : BufTy).Contents (Elt F)),
    nullary main_c_1 (constantI S_ 32 0#32),
    TRef.unary (.of main_c_1 : StableHlo.TRef sig ⟨S_, .i32⟩) main_call2.v0 id,
    TRef.unary main_call2.v0 main_call2.v1 (broadcastInDim S1600 ![] bcast_S_S1600),
    TRef.binary main_call2.v1 (.of main_v5 : StableHlo.TRef sig ⟨S1600, .i32⟩) main_call2.v2 maxsi,
    nullary main_c_2 (constantI S_ 32 0#32),
    unary main_c_2 main_v8 (broadcastInDim S1600 ![] bcast_S_S1600 : (⟨S_, .i32⟩ : BufTy).Contents (Elt F) → (⟨S1600, .i32⟩ : BufTy).Contents (Elt F)),
    binary main_v7 main_v8 main_v9 (cmpi .slt : (⟨S1600, .i32⟩ : BufTy).Contents (Elt F) → (⟨S1600, .i32⟩ : BufTy).Contents (Elt F) → (⟨S1600, .i1⟩ : BufTy).Contents (Elt F)),
    nullary main_c_3 (constantI S_ 32 780#32),
    unary main_c_3 main_v10 (broadcastInDim S1600 ![] bcast_S_S1600 : (⟨S_, .i32⟩ : BufTy).Contents (Elt F) → (⟨S1600, .i32⟩ : BufTy).Contents (Elt F)),
    binary main_v7 main_v10 main_v11 (addi : (⟨S1600, .i32⟩ : BufTy).Contents (Elt F) → (⟨S1600, .i32⟩ : BufTy).Contents (Elt F) → (⟨S1600, .i32⟩ : BufTy).Contents (Elt F)),
    ternary main_v9 main_v11 main_v7 main_v12 (select : (⟨S1600, .i1⟩ : BufTy).Contents (Elt F) → (⟨S1600, .i32⟩ : BufTy).Contents (Elt F) → (⟨S1600, .i32⟩ : BufTy).Contents (Elt F) → (⟨S1600, .i32⟩ : BufTy).Contents (Elt F)),
    unary main_v12 main_v13 (broadcastInDim S1600x1 ![0] bcast_S1600_S1600x1_0 : (⟨S1600, .i32⟩ : BufTy).Contents (Elt F) → (⟨S1600x1, .i32⟩ : BufTy).Contents (Elt F)),
    nullary main_c_4 (constantI S_ 32 1#32),
    unary main_c_4 main_v14 (broadcastInDim S1600 ![] bcast_S_S1600 : (⟨S_, .i32⟩ : BufTy).Contents (Elt F) → (⟨S1600, .i32⟩ : BufTy).Contents (Elt F)),
    ternary main_v6 main_v13 main_v14 main_v15 ((fun x i u => Host.scatter scatter_S780_S1600x1_S1600_n_0_0_1 IntOp.addi x i u) : (⟨S780, .i32⟩ : BufTy).Contents (Elt F) → (⟨S1600x1, .i32⟩ : BufTy).Contents (Elt F) → (⟨S1600, .i32⟩ : BufTy).Contents (Elt F) → (⟨S780, .i32⟩ : BufTy).Contents (Elt F)),
    TRef.nullary main_call3.call0.c (constantI S_ 32 0#32),
    TRef.unary main_call3.call0.c main_call3.call0.v0 (broadcastInDim S_ ![] bcast_S_S_),
    TRef.binary (.of main_v15 : StableHlo.TRef sig ⟨S780, .i32⟩) main_call3.call0.v0 main_call3.call0.v1 (fun x v => Host.reduceWindow IntOp.addi ![780] ![1] ![779] ![0] x v reduceWindows_S780_S780_w780s1p779_0 h_S_),
    nullary main_c_5 (constantI S_ 32 40#32),
    TRef.unary (.of main_c_5 : StableHlo.TRef sig ⟨S_, .i32⟩) main_call4.v0 (broadcastInDim S780 ![] bcast_S_S780),
    TRef.binary (.of main_v16 : StableHlo.TRef sig ⟨S780, .i32⟩) main_call4.v0 main_call4.v1 Host.divsi,
    TRef.unary (.of main_v16 : StableHlo.TRef sig ⟨S780, .i32⟩) main_call4.v2 signi,
    TRef.unary (.of main_c_5 : StableHlo.TRef sig ⟨S_, .i32⟩) main_call4.v3 signi,
    TRef.unary main_call4.v3 main_call4.v4 (broadcastInDim S780 ![] bcast_S_S780),
    TRef.binary main_call4.v2 main_call4.v4 main_call4.v5 (cmpi .ne),
    TRef.unary (.of main_c_5 : StableHlo.TRef sig ⟨S_, .i32⟩) main_call4.v6 (broadcastInDim S780 ![] bcast_S_S780),
    TRef.binary (.of main_v16 : StableHlo.TRef sig ⟨S780, .i32⟩) main_call4.v6 main_call4.v7 Host.remsi,
    TRef.nullary main_call4.c (constantI S_ 32 0#32),
    TRef.unary main_call4.c main_call4.v8 (broadcastInDim S780 ![] bcast_S_S780),
    TRef.binary main_call4.v7 main_call4.v8 main_call4.v9 (cmpi .ne),
    TRef.binary main_call4.v5 main_call4.v9 main_call4.v10 andi,
    TRef.nullary main_call4.c_0 (constantI S_ 32 1#32),
    TRef.unary main_call4.c_0 main_call4.v11 (broadcastInDim S780 ![] bcast_S_S780),
    TRef.binary main_call4.v1 main_call4.v11 main_call4.v12 subi,
    TRef.ternary main_call4.v10 main_call4.v12 main_call4.v1 main_call4.call0.v0 select,
    nullary main_c_6 (constantI S_ 32 40#32),
    TRef.unary (.of main_c_6 : StableHlo.TRef sig ⟨S_, .i32⟩) main_call5.v0 id,
    TRef.nullary main_call5.c (constantI S_ 32 0#32),
    TRef.binary main_call5.v0 main_call5.c main_call5.v1 (cmpi .eq),
    TRef.nullary main_call5.c_0 (constantI S_ 32 1#32),
    TRef.ternary main_call5.v1 main_call5.c_0 main_call5.v0 main_call5.call0.v0 select,
    TRef.unary main_call5.call0.v0 main_call5.v3 (broadcastInDim S780 ![] bcast_S_S780),
    TRef.binary (.of main_v17 : StableHlo.TRef sig ⟨S780, .i32⟩) main_call5.v3 main_call5.v4 Host.remsi,
    TRef.nullary main_call5.c_1 (constantI S_ 32 0#32),
    TRef.unary main_call5.c_1 main_call5.v5 (broadcastInDim S780 ![] bcast_S_S780),
    TRef.binary main_call5.v4 main_call5.v5 main_call5.v6 (cmpi .ne),
    TRef.nullary main_call5.c_2 (constantI S_ 32 0#32),
    TRef.unary main_call5.c_2 main_call5.v7 (broadcastInDim S780 ![] bcast_S_S780),
    TRef.binary main_call5.v4 main_call5.v7 main_call5.v8 (cmpi .slt),
    TRef.nullary main_call5.c_3 (constantI S_ 32 0#32),
    TRef.binary main_call5.call0.v0 main_call5.c_3 main_call5.v9 (cmpi .slt),
    TRef.unary main_call5.v9 main_call5.v10 (broadcastInDim S780 ![] bcast_S_S780),
    TRef.binary main_call5.v8 main_call5.v10 main_call5.v11 (cmpi .ne),
    TRef.binary main_call5.v11 main_call5.v6 main_call5.v12 andi,
    TRef.unary main_call5.call0.v0 main_call5.v13 (broadcastInDim S780 ![] bcast_S_S780),
    TRef.binary main_call5.v4 main_call5.v13 main_call5.v14 addi,
    TRef.ternary main_call5.v12 main_call5.v14 main_call5.v4 main_call5.v15 select,
    nullary main_c_7 (constantI S_ 32 1#32),
    TRef.unary (.of main_c_7 : StableHlo.TRef sig ⟨S_, .i32⟩) main_call6.v0 (broadcastInDim S780 ![] bcast_S_S780),
    TRef.binary (.of main_v16 : StableHlo.TRef sig ⟨S780, .i32⟩) main_call6.v0 main_call6.v1 Host.divsi,
    TRef.unary (.of main_v16 : StableHlo.TRef sig ⟨S780, .i32⟩) main_call6.v2 signi,
    TRef.unary (.of main_c_7 : StableHlo.TRef sig ⟨S_, .i32⟩) main_call6.v3 signi,
    TRef.unary main_call6.v3 main_call6.v4 (broadcastInDim S780 ![] bcast_S_S780),
    TRef.binary main_call6.v2 main_call6.v4 main_call6.v5 (cmpi .ne),
    TRef.unary (.of main_c_7 : StableHlo.TRef sig ⟨S_, .i32⟩) main_call6.v6 (broadcastInDim S780 ![] bcast_S_S780),
    TRef.binary (.of main_v16 : StableHlo.TRef sig ⟨S780, .i32⟩) main_call6.v6 main_call6.v7 Host.remsi,
    TRef.nullary main_call6.c (constantI S_ 32 0#32),
    TRef.unary main_call6.c main_call6.v8 (broadcastInDim S780 ![] bcast_S_S780),
    TRef.binary main_call6.v7 main_call6.v8 main_call6.v9 (cmpi .ne),
    TRef.binary main_call6.v5 main_call6.v9 main_call6.v10 andi,
    TRef.nullary main_call6.c_0 (constantI S_ 32 1#32),
    TRef.unary main_call6.c_0 main_call6.v11 (broadcastInDim S780 ![] bcast_S_S780),
    TRef.binary main_call6.v1 main_call6.v11 main_call6.v12 subi,
    TRef.ternary main_call6.v10 main_call6.v12 main_call6.v1 main_call6.call0.v0 select,
    nullary main_c_8 (constantI S_ 32 40#32),
    TRef.unary (.of main_c_8 : StableHlo.TRef sig ⟨S_, .i32⟩) main_call7.v0 id,
    TRef.nullary main_call7.c (constantI S_ 32 0#32),
    TRef.binary main_call7.v0 main_call7.c main_call7.v1 (cmpi .eq),
    TRef.nullary main_call7.c_0 (constantI S_ 32 1#32),
    TRef.ternary main_call7.v1 main_call7.c_0 main_call7.v0 main_call7.call0.v0 select,
    TRef.unary main_call7.call0.v0 main_call7.v3 (broadcastInDim S780 ![] bcast_S_S780),
    TRef.binary (.of main_v19 : StableHlo.TRef sig ⟨S780, .i32⟩) main_call7.v3 main_call7.v4 Host.remsi,
    TRef.nullary main_call7.c_1 (constantI S_ 32 0#32),
    TRef.unary main_call7.c_1 main_call7.v5 (broadcastInDim S780 ![] bcast_S_S780),
    TRef.binary main_call7.v4 main_call7.v5 main_call7.v6 (cmpi .ne),
    TRef.nullary main_call7.c_2 (constantI S_ 32 0#32),
    TRef.unary main_call7.c_2 main_call7.v7 (broadcastInDim S780 ![] bcast_S_S780),
    TRef.binary main_call7.v4 main_call7.v7 main_call7.v8 (cmpi .slt),
    TRef.nullary main_call7.c_3 (constantI S_ 32 0#32),
    TRef.binary main_call7.call0.v0 main_call7.c_3 main_call7.v9 (cmpi .slt),
    TRef.unary main_call7.v9 main_call7.v10 (broadcastInDim S780 ![] bcast_S_S780),
    TRef.binary main_call7.v8 main_call7.v10 main_call7.v11 (cmpi .ne),
    TRef.binary main_call7.v11 main_call7.v6 main_call7.v12 andi,
    TRef.unary main_call7.call0.v0 main_call7.v13 (broadcastInDim S780 ![] bcast_S_S780),
    TRef.binary main_call7.v4 main_call7.v13 main_call7.v14 addi,
    TRef.ternary main_call7.v12 main_call7.v14 main_call7.v4 main_call7.v15 select,
    nullary main_c_9 (constantI S_ 32 0#32),
    unary main_c_9 main_v21 (broadcastInDim S780 ![] bcast_S_S780 : (⟨S_, .i32⟩ : BufTy).Contents (Elt F) → (⟨S780, .i32⟩ : BufTy).Contents (Elt F)),
    binary main_v18 main_v21 main_v22 (cmpi .slt : (⟨S780, .i32⟩ : BufTy).Contents (Elt F) → (⟨S780, .i32⟩ : BufTy).Contents (Elt F) → (⟨S780, .i1⟩ : BufTy).Contents (Elt F)),
    nullary main_c_10 (constantI S_ 32 40#32),
    unary main_c_10 main_v23 (broadcastInDim S780 ![] bcast_S_S780 : (⟨S_, .i32⟩ : BufTy).Contents (Elt F) → (⟨S780, .i32⟩ : BufTy).Contents (Elt F)),
    binary main_v18 main_v23 main_v24 (addi : (⟨S780, .i32⟩ : BufTy).Contents (Elt F) → (⟨S780, .i32⟩ : BufTy).Contents (Elt F) → (⟨S780, .i32⟩ : BufTy).Contents (Elt F)),
    ternary main_v22 main_v24 main_v18 main_v25 (select : (⟨S780, .i1⟩ : BufTy).Contents (Elt F) → (⟨S780, .i32⟩ : BufTy).Contents (Elt F) → (⟨S780, .i32⟩ : BufTy).Contents (Elt F) → (⟨S780, .i32⟩ : BufTy).Contents (Elt F)),
    unary main_v25 main_v26 (broadcastInDim S780x1 ![0] bcast_S780_S780x1_0 : (⟨S780, .i32⟩ : BufTy).Contents (Elt F) → (⟨S780x1, .i32⟩ : BufTy).Contents (Elt F)),
    binary main_arg0 main_v26 main_v27 ((fun x i => Host.gather gather_S2048x40x128_S780x1_S2048x780x128_02_1_n_n_1_1_20481128 x i) : (⟨S2048x40x128, .f32⟩ : BufTy).Contents (Elt F) → (⟨S780x1, .i32⟩ : BufTy).Contents (Elt F) → (⟨S2048x780x128, .f32⟩ : BufTy).Contents (Elt F)),
    nullary main_c_11 (constantI S_ 32 0#32),
    unary main_c_11 main_v28 (broadcastInDim S780 ![] bcast_S_S780 : (⟨S_, .i32⟩ : BufTy).Contents (Elt F) → (⟨S780, .i32⟩ : BufTy).Contents (Elt F)),
    binary main_v20 main_v28 main_v29 (cmpi .slt : (⟨S780, .i32⟩ : BufTy).Contents (Elt F) → (⟨S780, .i32⟩ : BufTy).Contents (Elt F) → (⟨S780, .i1⟩ : BufTy).Contents (Elt F)),
    nullary main_c_12 (constantI S_ 32 40#32),
    unary main_c_12 main_v30 (broadcastInDim S780 ![] bcast_S_S780 : (⟨S_, .i32⟩ : BufTy).Contents (Elt F) → (⟨S780, .i32⟩ : BufTy).Contents (Elt F)),
    binary main_v20 main_v30 main_v31 (addi : (⟨S780, .i32⟩ : BufTy).Contents (Elt F) → (⟨S780, .i32⟩ : BufTy).Contents (Elt F) → (⟨S780, .i32⟩ : BufTy).Contents (Elt F)),
    ternary main_v29 main_v31 main_v20 main_v32 (select : (⟨S780, .i1⟩ : BufTy).Contents (Elt F) → (⟨S780, .i32⟩ : BufTy).Contents (Elt F) → (⟨S780, .i32⟩ : BufTy).Contents (Elt F) → (⟨S780, .i32⟩ : BufTy).Contents (Elt F)),
    unary main_v32 main_v33 (broadcastInDim S780x1 ![0] bcast_S780_S780x1_0 : (⟨S780, .i32⟩ : BufTy).Contents (Elt F) → (⟨S780x1, .i32⟩ : BufTy).Contents (Elt F)),
    binary main_v0 main_v33 main_v34 ((fun x i => Host.gather gather_S2048x40x128_S780x1_S2048x780x128_02_1_n_n_1_1_20481128 x i) : (⟨S2048x40x128, .f32⟩ : BufTy).Contents (Elt F) → (⟨S780x1, .i32⟩ : BufTy).Contents (Elt F) → (⟨S2048x780x128, .f32⟩ : BufTy).Contents (Elt F)),
    binary main_v27 main_v34 main_v35 (mulf : (⟨S2048x780x128, .f32⟩ : BufTy).Contents (Elt F) → (⟨S2048x780x128, .f32⟩ : BufTy).Contents (Elt F) → (⟨S2048x780x128, .f32⟩ : BufTy).Contents (Elt F)) ]

-- 137 binds re-associated: the rewrite under the chain recurses once per statement
set_option maxRecDepth 8192 in
set_option maxHeartbeats 1000000 in
/-- @main is that straight line: the functions' definitions unfolded at their calls and the records at their fields,
    both sides are one chain of `hlo` steps once sequencing is re-associated. -/
theorem main_eq (c : Dev nD) : main (F := F) c = seq ops := by
  simp only [main, fn_triu.body, fn_cumsum.body, fn_cumsum_0.body, fn_clip.body, fn_cumsum_1.body, fn_cumsum_2.body,
    fn_floor_divide.body, fn_where.body, fn_remainder.body, fn_where_3.body, seq, bind_assoc, pure_bind]

/-- The line is its seven stretches in order. -/
theorem ops_split : (ops : List (HloOp τ sig (Elt F))) = opsA ++ (opsB ++ (opsC1a ++ (opsC1b ++ (opsC2a ++ (opsC2b ++ opsD))))) := rfl

/-- After the line the result buffer holds `RefTerm.refOut` of the two arguments' contents: each stretch's lemma
    at the contents the stretches before it leave. -/
theorem out_eq (V : Valuation τ sig (Elt F)) :
    after ops V (main_v35 : DevRef τ sig)
      = RefTerm.refOut (F := F) (V (main_arg0 : DevRef τ sig)) (V (main_arg1 : DevRef τ sig)) := by
  rw [ops_split, after_app, after_app, after_app, after_app, after_app, after_app]
  have h15 := B_v15 (after opsA V) (A_v5 V)
  have h16 := C1a_v16 (after opsB (after opsA V)) h15
  have h17 := C1a_v17 (after opsB (after opsA V)) h15
  have h18 := C1b_v18 (after opsC1a (after opsB (after opsA V))) _ h17
  have h16' := (C1b_v16 (after opsC1a (after opsB (after opsA V)))).trans h16
  have h19 := C2a_v19 (after opsC1b (after opsC1a (after opsB (after opsA V)))) _ h16'
  have h18' := (C2a_v18 (after opsC1b (after opsC1a (after opsB (after opsA V))))).trans h18
  have h20 := C2b_v20 (after opsC2a (after opsC1b (after opsC1a (after opsB (after opsA V))))) _ h19
  have h18'' := (C2b_v18 (after opsC2a (after opsC1b (after opsC1a (after opsB (after opsA V)))))).trans h18'
  have h0 := (C2b_v0 _).trans ((C2a_v0 _).trans ((C1b_v0 _).trans ((C1a_v0 _).trans ((B_v0 _).trans (A_v0 V)))))
  have ha := (C2b_arg0 _).trans ((C2a_arg0 _).trans ((C1b_arg0 _).trans ((C1a_arg0 _).trans ((B_arg0 _).trans (A_arg0 V)))))
  exact D_v35 _ _ _ _ _ h18'' h20 h0 ha

/-- No operation of the line writes the first argument's buffer. -/
theorem arg0_eq (V : Valuation τ sig (Elt F)) :
    after ops V (main_arg0 : DevRef τ sig) = V (main_arg0 : DevRef τ sig) := by
  rw [ops_split, after_app, after_app, after_app, after_app, after_app, after_app]
  exact (D_arg0 _).trans ((C2b_arg0 _).trans ((C2a_arg0 _).trans ((C1b_arg0 _).trans ((C1a_arg0 _).trans ((B_arg0 _).trans (A_arg0 V))))))

/-- Nor the second's. -/
theorem arg1_eq (V : Valuation τ sig (Elt F)) :
    after ops V (main_arg1 : DevRef τ sig) = V (main_arg1 : DevRef τ sig) := by
  rw [ops_split, after_app, after_app, after_app, after_app, after_app, after_app]
  exact (D_arg1 _).trans ((C2b_arg1 _).trans ((C2a_arg1 _).trans ((C1b_arg1 _).trans ((C1a_arg1 _).trans ((B_arg1 _).trans (A_arg1 V))))))

theorem scopedRefs_eq : (Finset.univ.filter fun b : Ref sig .tc => b.isScoped) = ∅ := by decide
theorem scopedSems_eq : (Finset.univ.filter fun sm : SemLoc sig => sm.isScoped .tc) = ∅ := by decide

/-- Every operation of the line touches TensorCore references only. -/
theorem ops_sub : (ops : List (HloOp τ sig (Elt F))).Forall fun op => op.bufs ⊆ tcRefs τ sig :=
  ⟨binary_bufs_sub .., nullary_bufs_sub .., unary_bufs_sub .., nullary_bufs_sub .., nullary_bufs_sub .., unary_bufs_sub ..,
    binary_bufs_sub .., nullary_bufs_sub .., binary_bufs_sub .., nullary_bufs_sub .., unary_bufs_sub .., ternary_bufs_sub ..,
    nullary_bufs_sub .., unary_bufs_sub .., binary_bufs_sub .., reshape_bufs_sub .., unary_bufs_sub .., nullary_bufs_sub ..,
    unary_bufs_sub .., binary_bufs_sub .., nullary_bufs_sub .., unary_bufs_sub .., nullary_bufs_sub .., unary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., nullary_bufs_sub .., unary_bufs_sub ..,
    ternary_bufs_sub .., nullary_bufs_sub .., unary_bufs_sub .., binary_bufs_sub .., nullary_bufs_sub .., unary_bufs_sub ..,
    binary_bufs_sub .., unary_bufs_sub .., unary_bufs_sub .., unary_bufs_sub .., binary_bufs_sub .., unary_bufs_sub ..,
    binary_bufs_sub .., nullary_bufs_sub .., unary_bufs_sub .., binary_bufs_sub .., binary_bufs_sub .., nullary_bufs_sub ..,
    unary_bufs_sub .., binary_bufs_sub .., ternary_bufs_sub .., nullary_bufs_sub .., unary_bufs_sub .., nullary_bufs_sub ..,
    binary_bufs_sub .., nullary_bufs_sub .., ternary_bufs_sub .., unary_bufs_sub .., binary_bufs_sub .., nullary_bufs_sub ..,
    unary_bufs_sub .., binary_bufs_sub .., nullary_bufs_sub .., unary_bufs_sub .., binary_bufs_sub .., nullary_bufs_sub ..,
    binary_bufs_sub .., unary_bufs_sub .., binary_bufs_sub .., binary_bufs_sub .., unary_bufs_sub .., binary_bufs_sub ..,
    ternary_bufs_sub .., nullary_bufs_sub .., unary_bufs_sub .., binary_bufs_sub .., unary_bufs_sub .., unary_bufs_sub ..,
    unary_bufs_sub .., binary_bufs_sub .., unary_bufs_sub .., binary_bufs_sub .., nullary_bufs_sub .., unary_bufs_sub ..,
    binary_bufs_sub .., binary_bufs_sub .., nullary_bufs_sub .., unary_bufs_sub .., binary_bufs_sub .., ternary_bufs_sub ..,
    nullary_bufs_sub .., unary_bufs_sub .., nullary_bufs_sub .., binary_bufs_sub .., nullary_bufs_sub .., ternary_bufs_sub ..,
    unary_bufs_sub .., binary_bufs_sub .., nullary_bufs_sub .., unary_bufs_sub .., binary_bufs_sub .., nullary_bufs_sub ..,
    unary_bufs_sub .., binary_bufs_sub .., nullary_bufs_sub .., binary_bufs_sub .., unary_bufs_sub .., binary_bufs_sub ..,
    binary_bufs_sub .., unary_bufs_sub .., binary_bufs_sub .., ternary_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., binary_bufs_sub ..⟩

set_option maxRecDepth 8192 in
set_option maxHeartbeats 1000000 in
/-- At the compiled mesh, for any float values, from any memory with zero counters: every weakly fair execution of
    @main on the TensorCores terminates, and every final state has each TensorCore buffer at the operations' fold over
    the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (b : DevRef τ sig) :=
  run_seq scopedRefs_eq scopedSems_eq defs main (fun _ => ops) main_eq (fun _ => ops_sub) m ρ

/-- On every device, for any float values, from any memory with zero counters: every weakly fair execution of @main
    terminates with the result buffer at `RefTerm.refOut` of the arguments' launch contents and the arguments
    unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v35)
          = RefTerm.refOut (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v35).trans (out_eq _), (h c main_arg0).trans (arg0_eq _),
      (h c main_arg1).trans (arg1_eq _)⟩)
    (run_main m ρ)

end Cert.ReferenceIdeal.RefRun

end
-- ==== Proof.Pairs.lean ====
import Mathlib.Data.Fin.Basic
import Mathlib.Tactic

/-!
The pairs `i < j` of `{0, …, 39}` in row-major order (all pairs of row 0, then of row 1, …): there are
`39 + 38 + … + 1 = 780`.  Row `i` holds the `39 - i` pairs `(i, i+1), …, (i, 39)` and starts at position
`rowStart i = 39 + 38 + … + (40 - i)`; the p-th pair is `(rowOf p, colOf p)`.
-/

namespace Cert.Pairs

/-- The position of the first pair of row `i`: `39 i - i (i - 1) / 2` (0, 39, 77, 114, …, 779; and 780 for `i = 39`). -/
def rowStart (i : Nat) : Nat := 39 * i - i * (i - 1) / 2

/-- The row of the pair at position `p`: the number of rows `1 ≤ i ≤ 39` that start at or before `p`. -/
def rowOf (p : Nat) : Nat := ((List.range 40).filter fun i => 0 < i ∧ rowStart i ≤ p).length

/-- The column of the pair at position `p`: its offset inside the row, past the diagonal. -/
def colOf (p : Nat) : Nat := p - rowStart (rowOf p) + rowOf p + 1

theorem rowOf_lt (p : Fin 780) : rowOf p.val < 40 := by revert p; decide +kernel
theorem colOf_lt (p : Fin 780) : colOf p.val < 40 := by revert p; decide +kernel

/-- The row coordinate of the p-th pair. -/
def I (p : Fin 780) : Fin 40 := ⟨rowOf p.val, rowOf_lt p⟩
/-- The column coordinate of the p-th pair. -/
def J (p : Fin 780) : Fin 40 := ⟨colOf p.val, colOf_lt p⟩

/-- Every enumerated pair is strictly upper triangular. -/
theorem I_lt_J (p : Fin 780) : I p < J p := by revert p; decide +kernel

/-- Row `i` occupies the positions `rowStart i + r`, `r < 39 - i`, and there the pair is `(i, i + 1 + r)`. -/
theorem row_col_at (i r : Fin 39) (h : r.val < 39 - i.val) :
    rowStart i.val + r.val < 780 ∧ rowOf (rowStart i.val + r.val) = i.val ∧ colOf (rowStart i.val + r.val) = i.val + 1 + r.val := by
  revert i r; decide +kernel

/-- The flat position `40 i + j` of the p-th pair in the 40 × 40 square. -/
def pos (p : Fin 780) : Nat := 40 * (I p).val + (J p).val

/-- The flat positions increase with `p`. -/
theorem pos_lt_succ (p : Fin 779) : pos ⟨p.val, by omega⟩ < pos ⟨p.val + 1, by omega⟩ := by revert p; decide +kernel

end Cert.Pairs
-- ==== Proof.Spec.lean ====
import Idealize.ShloMosaic.PureOps.Ideal
import Idealize.ShloMosaic.Lib.ValueIdx
import proofs.«101170_j24747601560016_2_alg».proof.Proof.Pairs

/-!
The common result of the two programs, as one function of the argument arrays over the extended reals:
for a batch row `b`, the p-th pair `(i, j)`, `i < j`, and a lane `d`,

  `out[b, p, d] = x[b, i, d] · Σ_k x[b, j, k] · W[k, d]`.
-/

noncomputable section

open scoped BigOperators

namespace Cert.Spec

open Idealize.ShloMosaic Idealize.ShloMosaic.ValueIdx Cert.Pairs

abbrev SX : Shape := ⟨3, ![2048, 40, 128]⟩
abbrev SW : Shape := ⟨2, ![128, 128]⟩
abbrev SO : Shape := ⟨3, ![2048, 780, 128]⟩

/-- The projected row `x[b, j, :] · W` at lane `d`. -/
def proj (x : FVec Ideal SX .f32) (W : FVec Ideal SW .f32) (b : Fin 2048) (j : Fin 40) (d : Fin 128) : EReal :=
  ∑ k : Fin 128, x (ix3 b j k) * W (ix2 k d)

/-- The result array: row `I p` of `x` times the projected row `J p`, lane by lane. -/
def G (x : FVec Ideal SX .f32) (W : FVec Ideal SW .f32) : FVec Ideal SO .f32 :=
  fun o => x (ix3 (o 0) (I (o 1)) (o 2)) * proj x W (o 0) (J (o 1)) (o 2)

/-- One grid block of the kernel: 32 batch rows.  The same formula over the block's own arrays (the 32 × 40 × 128 block of
    `x` and the whole of `W`). -/
abbrev SXb : Shape := ⟨3, ![32, 40, 128]⟩
abbrev SOb : Shape := ⟨3, ![32, 780, 128]⟩

/-- The projected row of a block. -/
def projb (x0 : FVec Ideal SXb .f32) (x1 : FVec Ideal SW .f32) (b : Fin 32) (j : Fin 40) (d : Fin 128) : EReal :=
  ∑ k : Fin 128, x0 (ix3 b j k) * x1 (ix2 k d)

/-- What one grid block of the result holds, as a function of the block of `x` and of `W`. -/
def Gblk (x0 : FVec Ideal SXb .f32) (x1 : FVec Ideal SW .f32) : FVec Ideal SOb .f32 :=
  fun o => x0 (ix3 (o 0) (I (o 1)) (o 2)) * projb x0 x1 (o 0) (J (o 1)) (o 2)

theorem Gblk_apply (x0 : FVec Ideal SXb .f32) (x1 : FVec Ideal SW .f32) (b : Fin 32) (p : Fin 780) (d : Fin 128) :
    Gblk x0 x1 (ix3 b p d) = x0 (ix3 b (I p) d) * projb x0 x1 b (J p) d := rfl

theorem G_apply (x : FVec Ideal SX .f32) (W : FVec Ideal SW .f32) (b : Fin 2048) (p : Fin 780) (d : Fin 128) :
    G x W (ix3 b p d) = x (ix3 b (I p) d) * proj x W b (J p) d := rfl

end Cert.Spec

end
-- ==== Proof.RefValue.lean ====
import Idealize.ShloMosaic.PureOps.Ideal.Laws
import Idealize.ShloMosaic.Lib.ValueIdx
import proofs.«101170_j24747601560016_2_alg».proof.Proof.Gen.ReferenceIdeal
import proofs.«101170_j24747601560016_2_alg».proof.Proof.RefTerm
import proofs.«101170_j24747601560016_2_alg».proof.Proof.Spec

/-!
The reference's result term, read at an index, is the common specification — given that its two index tables are the
pair enumeration.

A gather along axis 1 with a table `tab` of row numbers reads, at `(b, p, d)`, the operand at `(b, tab p, d)`
(the row number is read signed and clamped into `0 … 39`; a table entry that is a row number below 40 is its own
clamp).  The contraction of the last axis of `x` with the first of `W` at `(b, j, e)` is `Σ_k x[b, j, k] · W[k, e]`.
-/

noncomputable section

open scoped BigOperators

namespace Cert.ReferenceIdeal.RefValue

open Idealize.ShloMosaic Idealize.ShloMosaic.ValueIdx Cert.ReferenceIdeal Cert.ReferenceIdeal.RefTerm
open Facts₀ Facts

abbrev GD := gather_S2048x40x128_S780x1_S2048x780x128_02_1_n_n_1_1_20481128
abbrev DD := dot_S2048x40x128_S128x128_S2048x40x128_2_0_01_1_n_n

/-- The table spread along a trailing unit axis reads the table. -/
theorem col_apply (tab : IVec S780 32) (p : Fin 780) (z : Fin 1) :
    broadcastInDim S780x1 ![0] bcast_S780_S780x1_0 tab (ix2 p z) = tab (ix1 p) := by
  unfold broadcastInDim
  refine congrArg tab ?_
  funext a
  match a with
  | ⟨0, _⟩ => rfl

/-- The operand index of the gather at `(b, p, d)` when the table's entry at `p` is the row number `r`. -/
theorem operandIdx_eq (idx : IVec S780x1 32) (b : Fin 2048) (p : Fin 780) (d : Fin 128) (r : Fin 40)
    (h : idx (ix2 p (0 : Fin 1)) = BitVec.ofNat 32 r.val) :
    GD.operandIdx (ix3 b p d) idx = ix3 b r d := by
  have hb : ∀ a : Fin 3, GD.batchCoord (ix3 b p d) a = 0 := fun a => GD.batchCoord_eq_zero _ a List.not_mem_nil
  have hr : r.val < 40 := r.isLt
  funext a
  refine Fin.ext ?_
  show GD.start (ix3 b p d) idx a + GD.batchCoord (ix3 b p d) a + GD.offCoord (ix3 b p d) a = _
  rw [hb a, Nat.add_zero]
  match a with
  | ⟨0, _⟩ =>
    have hs : GD.start (ix3 b p d) idx (0 : Fin 3) = 0 := by
      unfold GatherDims.start; exact dif_neg (by decide)
    have ho : GD.offCoord (ix3 b p d) (0 : Fin 3) = b.val := by
      unfold GatherDims.offCoord; rw [dif_pos (by decide)]; rfl
    exact (congrArg₂ (· + ·) hs ho).trans (Nat.zero_add _)
  | ⟨1, _⟩ =>
    have ho : GD.offCoord (ix3 b p d) (1 : Fin 3) = 0 :=
      GD.offCoord_eq_zero _ _ (fun h => ((GD.mem_sKept _).mp h).1 (List.mem_singleton.mpr rfl))
    have hs : GD.start (ix3 b p d) idx (1 : Fin 3) = r.val := by
      unfold GatherDims.start
      rw [dif_pos (show (1 : Fin 3) ∈ GD.startIndexMap from List.mem_singleton.mpr rfl)]
      have hsi : GD.siIdx (ix3 b p d) ⟨List.idxOf (1 : Fin 3) GD.startIndexMap,
          List.idxOf_lt_length_iff.2 (List.mem_singleton.mpr rfl)⟩ = ix2 p (0 : Fin 1) := by
        funext c; refine Fin.ext ?_
        match c with
        | ⟨0, _⟩ => rfl
        | ⟨1, _⟩ => rfl
      rw [hsi, h]
      show min (BitVec.ofNat 32 r.val).toInt.toNat (40 - 1) = r.val
      have h1 : (BitVec.ofNat 32 r.val).toNat = r.val := by
        rw [BitVec.toNat_ofNat]; exact Nat.mod_eq_of_lt (by omega)
      have : (BitVec.ofNat 32 r.val).toInt = (r.val : Int) := by
        rw [BitVec.toInt_eq_toNat_cond, h1]; split <;> omega
      rw [this]; omega
    exact (congrArg₂ (· + ·) hs ho).trans (Nat.add_zero _)
  | ⟨2, _⟩ =>
    have hs : GD.start (ix3 b p d) idx (2 : Fin 3) = 0 := by
      unfold GatherDims.start; exact dif_neg (by decide)
    have ho : GD.offCoord (ix3 b p d) (2 : Fin 3) = d.val := by
      unfold GatherDims.offCoord; rw [dif_pos (by decide)]; rfl
    exact (congrArg₂ (· + ·) hs ho).trans (Nat.zero_add _)

theorem gather_rows_apply {α : Type} (x : S2048x40x128.Idx → α) (tab : IVec S780 32) (b : Fin 2048) (p : Fin 780)
    (d : Fin 128) (r : Fin 40) (h : tab (ix1 p) = BitVec.ofNat 32 r.val) :
    Host.gather GD x (broadcastInDim S780x1 ![0] bcast_S780_S780x1_0 tab) (ix3 b p d) = x (ix3 b r d) := by
  unfold Host.gather
  exact congrArg x (operandIdx_eq _ b p d r ((col_apply tab p 0).trans h))

theorem lhs_eq (b : Fin 2048) (j : Fin 40) (e : Fin 128) (k : Fin 128) :
    DD.lhsIdx (ix3 b j e) ((contrEquiv1 DD 128 rfl rfl).symm k) = ix3 b j k := by
  funext a
  refine Fin.ext ?_
  match a with
  | ⟨0, _⟩ => simp [DotDims.lhsIdx, DD, dot_S2048x40x128_S128x128_S2048x40x128_2_0_01_1_n_n]; rfl
  | ⟨1, _⟩ => simp [DotDims.lhsIdx, DD, dot_S2048x40x128_S128x128_S2048x40x128_2_0_01_1_n_n]; rfl
  | ⟨2, _⟩ =>
    rw [show (⟨2, by decide⟩ : Fin S2048x40x128.rank) = (2 : Fin 3) from rfl,
      DD.lhsIdx_val_of_single (cl := (2 : Fin 3)) rfl]
    exact contrEquiv1_symm_val DD 128 rfl rfl k

theorem rhs_eq (b : Fin 2048) (j : Fin 40) (e : Fin 128) (k : Fin 128) :
    DD.rhsIdx (ix3 b j e) ((contrEquiv1 DD 128 rfl rfl).symm k) = ix2 k e := by
  funext a
  refine Fin.ext ?_
  match a with
  | ⟨0, _⟩ =>
    rw [show (⟨0, by decide⟩ : Fin S128x128.rank) = (0 : Fin 2) from rfl,
      DD.rhsIdx_val_of_single (cr := (0 : Fin 2)) rfl]
    exact contrEquiv1_symm_val DD 128 rfl rfl k
  | ⟨1, _⟩ => simp [DotDims.rhsIdx, DD, dot_S2048x40x128_S128x128_S2048x40x128_2_0_01_1_n_n]; rfl

/-- The contraction at an index is the projected row of the specification. -/
theorem dot_apply (x : FVec Ideal S2048x40x128 .f32) (W : FVec Ideal S128x128 .f32) (b : Fin 2048) (j : Fin 40) (e : Fin 128) :
    Host.dotGeneral DD none x W (ix3 b j e) = Cert.Spec.proj x W b j e := by
  simp only [Host.dotGeneral]
  rw [Ideal.dotGeneral_apply, ← Equiv.sum_comp (contrEquiv1 DD 128 rfl rfl).symm]
  unfold Cert.Spec.proj
  exact Finset.sum_congr rfl fun k _ => by rw [lhs_eq, rhs_eq]

/-- With the two tables the pair enumeration, the reference's result is the specification. -/
theorem refOut_eq (hi : ∀ p : Fin 780, iiTab (F := Ideal) (ix1 p) = BitVec.ofNat 32 (Cert.Pairs.I p).val)
    (hj : ∀ p : Fin 780, jjTab (F := Ideal) (ix1 p) = BitVec.ofNat 32 (Cert.Pairs.J p).val)
    (x : FVec Ideal S2048x40x128 .f32) (W : FVec Ideal S128x128 .f32) :
    refOut (F := Ideal) x W = Cert.Spec.G x W := by
  funext o
  obtain ⟨b, p, d, rfl⟩ : ∃ (b : Fin 2048) (p : Fin 780) (d : Fin 128), o = ix3 b p d := ⟨o 0, o 1, o 2, eq_ix3 o⟩
  unfold refOut
  rw [mulf_apply, gather_rows_apply x _ b p d _ (hi p), gather_rows_apply _ _ b p d _ (hj p), dot_apply, Cert.Spec.G_apply]

end Cert.ReferenceIdeal.RefValue

end
-- ==== Proof.CumSum.lean ====
import Idealize.ShloMosaic.PureOps.Ideal
import Idealize.ShloMosaic.Lib.ValueIdx
import Mathlib

/-!
The running count: a one-axis window sum whose window is the whole axis, padded on the low side by all but one
position, is at position `q` the sum of the operand's entries at positions `≤ q`.  Stated for operands whose entries
are the words of natural numbers: the result is the word of the sum of those numbers.
-/

namespace Cert.ReferenceIdeal.CumSum

open Idealize.ShloMosaic Idealize.ShloMosaic.ValueIdx

/-- A left fold adding words of natural numbers, from the word of a natural number, is the word of the sum. -/
theorem foldl_addi_ofNat {ι : Type} (l : List ι) (G : ι → BitVec 32) (g : ι → Nat) (hG : ∀ m, G m = BitVec.ofNat 32 (g m))
    (a : Nat) : l.foldl (fun r m => IntOp.addi r (G m)) (BitVec.ofNat 32 a) = BitVec.ofNat 32 (a + (l.map g).sum) := by
  induction l generalizing a with
  | nil => simp
  | cons m l ih =>
    rw [List.foldl_cons, hG m]
    have : IntOp.addi (BitVec.ofNat 32 a) (BitVec.ofNat 32 (g m)) = BitVec.ofNat 32 (a + g m) := by
      unfold IntOp.addi; rw [BitVec.ofNat_add]
    rw [this, ih, List.map_cons, List.sum_cons, Nat.add_assoc]

/-- The one-axis shape of length `n`: its number of elements. -/
theorem numel_one (n : Nat) : (⟨1, ![n]⟩ : Shape).numel = n := by
  simp [Shape.numel]

/-- The one-axis shape of length `n`: the coordinate of the index at a row-major position is the position. -/
theorem rowMajor_symm_one (n : Nat) (m : Fin (⟨1, ![n]⟩ : Shape).numel) :
    (((⟨1, ![n]⟩ : Shape).rowMajor.symm m) 0).val = m.val := by
  have h := Shape.rowMajor_val_one (d := ![n]) ((⟨1, ![n]⟩ : Shape).rowMajor.symm m)
  rw [Equiv.apply_symm_apply] at h
  exact h.symm

/-- The shifted sum: over `m < lo + 1`, the terms `c (q + m - lo)` with `lo ≤ q + m` are `c 0, …, c q`. -/
theorem sum_shift (c : Nat → Nat) (lo q : Nat) (hq : q ≤ lo) :
    ∑ m ∈ Finset.range (lo + 1), (if lo ≤ q + m then c (q + m - lo) else 0) = ∑ k ∈ Finset.range (q + 1), c k := by
  have hn : lo + 1 = (lo - q) + (q + 1) := by omega
  rw [hn, Finset.sum_range_add]
  have h0 : ∑ m ∈ Finset.range (lo - q), (if lo ≤ q + m then c (q + m - lo) else 0) = 0 := by
    apply Finset.sum_eq_zero
    intro m hm
    rw [Finset.mem_range] at hm
    rw [if_neg (by omega)]
  rw [h0, Nat.zero_add]
  apply Finset.sum_congr rfl
  intro k _
  rw [if_pos (by omega)]
  congr 1
  omega

/-- THE RUNNING COUNT at position `q`: the word of `c 0 + … + c q`, when entry `k` of the operand is the word of `c k`
    and the initial value is zero. -/
theorem reduceWindow_apply {n lo : Nat} (hlo : lo + 1 = n) {u : Shape} (x : (⟨1, ![n]⟩ : Shape).Idx → BitVec 32)
    (c : Nat → Nat) (hx : ∀ k : Fin n, x (ix1 k) = BitVec.ofNat 32 (c k.val))
    (init : u.Idx → BitVec 32) (hinit : ∀ i, init i = 0#32)
    (h : (⟨1, ![n]⟩ : Shape).ReduceWindows (![n] : Fin 1 → Nat) ![1] ![lo] ![0] ⟨1, ![n]⟩) (hu : 0 < u.numel) (q : Fin n) :
    Host.reduceWindow IntOp.addi ![n] ![1] ![lo] ![0] x init h hu (ix1 q)
      = BitVec.ofNat 32 (∑ k ∈ Finset.range (q.val + 1), c k) := by
  unfold Host.reduceWindow
  simp only []
  rw [hinit]
  have hm0 : ∀ m : Fin (⟨1, ![n]⟩ : Shape).numel, m.val < n := fun m => lt_of_lt_of_eq m.isLt (numel_one n)
  refine (foldl_addi_ofNat _ _ (fun m => if lo ≤ q.val + m.val then c (q.val + m.val - lo) else 0) ?_ 0).trans ?_
  · intro m
    have hr := rowMajor_symm_one n m
    have hmn := hm0 m
    have hqn := q.isLt
    by_cases hc : lo ≤ q.val + m.val
    · rw [if_pos hc]
      split
      · rw [← hx ⟨q.val + m.val - lo, by omega⟩]
        congr 1
        funext a
        obtain rfl : a = 0 := Subsingleton.elim _ _
        apply Fin.ext
        show q.val * 1 + ((⟨1, ![n]⟩ : Shape).rowMajor.symm m 0).val - lo = q.val + m.val - lo
        rw [hr]; omega
      · rename_i hnin
        refine absurd (fun a => ?_) hnin
        obtain rfl : a = 0 := Subsingleton.elim _ _
        show lo ≤ q.val * 1 + ((⟨1, ![n]⟩ : Shape).rowMajor.symm m 0).val
          ∧ q.val * 1 + ((⟨1, ![n]⟩ : Shape).rowMajor.symm m 0).val - lo < n
        rw [hr]; omega
    · rw [if_neg hc]
      split
      · rename_i hin
        have h0 := hin 0
        change lo ≤ q.val * 1 + ((⟨1, ![n]⟩ : Shape).rowMajor.symm m 0).val ∧ _ at h0
        rw [hr] at h0; omega
      · rfl
  · rw [Nat.zero_add, ← Fin.sum_univ_def,
      Fin.sum_univ_eq_sum_range (fun m => if lo ≤ q.val + m then c (q.val + m - lo) else 0), numel_one]
    have hs := sum_shift c lo q.val (by have := q.isLt; omega)
    rw [hlo] at hs
    rw [hs]

end Cert.ReferenceIdeal.CumSum
-- ==== Proof.Hist.lean ====
import proofs.«101170_j24747601560016_2_alg».proof.ReferenceIdeal
import proofs.«101170_j24747601560016_2_alg».proof.Proof.CumSum
import Idealize.ShloMosaic.Lib.ValueIdx
import Mathlib

/-!
The histogram: a scatter that adds one at each update's bin, into zeros, holds at bin `v` the number of updates whose
bin is `v`; an update whose bin is outside the operand is dropped.
-/

namespace Cert.ReferenceIdeal.Hist

open Idealize.ShloMosaic Idealize.ShloMosaic.ValueIdx Cert.ReferenceIdeal
open Facts₀

/-- A left fold whose step, for a list element with a target, adds that element's update (one) at the target, and
    for one without leaves the array alone: entry `i'` grows by the number of list elements whose target is `i'`. -/
theorem foldl_count {ι κ : Type} [DecidableEq κ] (l : List ι) (R : ι → Option κ) (U : ι → BitVec 32)
    (hU : ∀ n, U n = 1#32) (step : (κ → BitVec 32) → ι → κ → BitVec 32)
    (hsome : ∀ r n i, R n = some i → ∀ i', step r n i' = if i' = i then IntOp.addi (r i) (U n) else r i')
    (hnone : ∀ r n, R n = none → step r n = r)
    (r : κ → BitVec 32) (a : κ → Nat) (hr : ∀ i, r i = BitVec.ofNat 32 (a i)) (i' : κ) :
    l.foldl step r i' = BitVec.ofNat 32 (a i' + (l.map fun n => if R n = some i' then 1 else 0).sum) := by
  induction l generalizing r a with
  | nil => simp [hr]
  | cons n l ih =>
    rw [List.foldl_cons]
    rw [ih _ (fun i => a i + if R n = some i then 1 else 0)]
    · rw [List.map_cons, List.sum_cons, Nat.add_assoc]
    · intro i
      cases hR : R n with
      | none => rw [hnone r n hR]; simp [hr]
      | some j =>
        rw [hsome r n j hR i]
        by_cases hij : i = j
        · subst hij
          simp only [if_true, hr, hU]
          unfold IntOp.addi
          rw [show (1#32) = BitVec.ofNat 32 1 from rfl, ← BitVec.ofNat_add]
        · have : ¬ (some j = some i) := fun h => hij (Option.some.inj h).symm
          simp [hij, this, hr]

section
variable [Facts₀]

/-- The result index of update `q`: the bin read off the index array, when it is one of `0 … 779`. -/
theorem resultIdx_iff (idx : IVec S1600x1 32) (q : Fin 1600) (v : Fin 780) :
    scatter_S780_S1600x1_S1600_n_0_0_1.resultIdx? (ix1 q) idx = some (ix1 v)
      ↔ (idx (ix2 q (0 : Fin 1))).toInt = (v.val : Int) := by
  have hstart : scatter_S780_S1600x1_S1600_n_0_0_1.start (ix1 q) idx (0 : Fin 1) = (idx (ix2 q (0 : Fin 1))).toInt := by
    unfold ScatterDims.start
    rw [dif_pos (show (0 : Fin 1) ∈ scatter_S780_S1600x1_S1600_n_0_0_1.scatterDimsToOperandDims from
      List.mem_singleton.mpr rfl)]
    congr 2
    funext b
    refine Fin.ext ?_
    match b with
    | ⟨0, _⟩ => rfl
    | ⟨1, _⟩ => rfl
  have hwin : scatter_S780_S1600x1_S1600_n_0_0_1.window (ix1 q) (0 : Fin 1) = 0 := by
    unfold ScatterDims.window
    rw [dif_neg]
    show ¬ ((0 : Fin 1) ∈ S780.kept ([0] : List (Fin 1)))
    decide
  unfold ScatterDims.resultIdx?
  split
  · rename_i h
    have h0 := h (0 : Fin 1)
    rw [hstart, hwin] at h0
    change _ ∧ _ < ((780 : Nat) : Int) at h0
    constructor
    · intro e
      have e1 : (scatter_S780_S1600x1_S1600_n_0_0_1.start (ix1 q) idx (0 : Fin 1)
          + scatter_S780_S1600x1_S1600_n_0_0_1.window (ix1 q) (0 : Fin 1)).toNat = v.val :=
        congrArg Fin.val (congrFun (Option.some.inj e) (0 : Fin 1))
      rw [hstart, hwin] at e1
      omega
    · intro e
      congr 1
      funext a
      obtain rfl : a = (0 : Fin 1) := Subsingleton.elim _ _
      apply Fin.ext
      show (scatter_S780_S1600x1_S1600_n_0_0_1.start (ix1 q) idx (0 : Fin 1)
          + scatter_S780_S1600x1_S1600_n_0_0_1.window (ix1 q) (0 : Fin 1)).toNat = v.val
      rw [hstart, hwin, e]
      omega
  · rename_i h
    constructor
    · intro e; cases e
    · intro e
      exfalso
      apply h
      intro a
      obtain rfl : a = (0 : Fin 1) := Subsingleton.elim _ _
      rw [hstart, hwin, e]
      have := v.isLt
      change _ ∧ _ < ((780 : Nat) : Int)
      omega

/-- THE HISTOGRAM at bin `v`: the word of the number of updates whose bin is `v`, when the operand is zero and every
    update is one. -/
theorem scatter_apply (x0 : IVec S780 32) (hx0 : ∀ i, x0 i = 0#32) (idx : IVec S1600x1 32)
    (upd : IVec S1600 32) (hupd : ∀ j, upd j = 1#32)
    (b : Nat → Int) (hb : ∀ q : Fin 1600, (idx (ix2 q (0 : Fin 1))).toInt = b q.val) (v : Fin 780) :
    Host.scatter scatter_S780_S1600x1_S1600_n_0_0_1 IntOp.addi x0 idx upd (ix1 v)
      = BitVec.ofNat 32 (∑ q ∈ Finset.range 1600, if b q = (v.val : Int) then 1 else 0) := by
  unfold Host.scatter
  refine (foldl_count _ (fun n => scatter_S780_S1600x1_S1600_n_0_0_1.resultIdx? (S1600.rowMajor.symm n) idx)
    (fun n => upd (S1600.rowMajor.symm n)) (fun n => hupd _) _ ?_ ?_ x0 (fun _ => 0) hx0 (ix1 v)).trans ?_
  · intro r n i h i'
    simp only [h]
  · intro r n h
    simp only [h]
  rw [Nat.zero_add, ← Fin.sum_univ_def]
  have key : ∀ n : Fin S1600.numel,
      (if scatter_S780_S1600x1_S1600_n_0_0_1.resultIdx? (S1600.rowMajor.symm n) idx = some (ix1 v) then 1 else 0)
        = (fun m : Nat => if b m = (v.val : Int) then 1 else 0) n.val := by
    intro n
    have hn : n.val < 1600 := lt_of_lt_of_eq n.isLt (CumSum.numel_one 1600)
    have hix : S1600.rowMajor.symm n = ix1 (⟨n.val, hn⟩ : Fin 1600) := by
      rw [eq_ix1 (S1600.rowMajor.symm n)]
      congr 1
      exact Fin.ext (CumSum.rowMajor_symm_one 1600 n)
    rw [hix]
    exact if_congr ((resultIdx_iff idx ⟨n.val, hn⟩ v).trans (by rw [hb ⟨n.val, hn⟩])) rfl rfl
  rw [Finset.sum_congr rfl (fun n _ => key n),
    Fin.sum_univ_eq_sum_range (fun m : Nat => if b m = (v.val : Int) then 1 else 0), CumSum.numel_one]

end

end Cert.ReferenceIdeal.Hist
-- ==== Proof.Counting.lean ====
import proofs.«101170_j24747601560016_2_alg».proof.Proof.Pairs
import Mathlib

/-!
The counting argument, over the natural numbers.  `flag q` marks the strictly-upper-triangular positions of the
40 × 40 square in row-major order; `cum q` counts the marked positions `≤ q`; `hist v` counts the positions whose
running count is `v`; `flat p` sums the histogram up to `p`, which is the number of positions whose running count is
`≤ p` — the positions before the p-th marked one: `flat p = pos p`.
-/

namespace Cert.ReferenceIdeal.Counting

open Cert.Pairs

/-- One at a position `40 i + j` with `i < j`. -/
def flag (q : Nat) : Nat := if q / 40 < q % 40 then 1 else 0

/-- The number of marked positions `≤ q`. -/
def cum (q : Nat) : Nat := ∑ k ∈ Finset.range (q + 1), flag k

/-- The number of positions (of the 1600) whose running count is `v`. -/
def hist (v : Nat) : Nat := ∑ q ∈ Finset.range 1600, if cum q = v then 1 else 0

/-- The histogram summed up to `p`. -/
def flat (p : Nat) : Nat := ∑ v ∈ Finset.range (p + 1), hist v

/-- The running count in closed form: the rows above `i = q / 40` hold `rowStart i` marked positions, row `i` holds
    `j - i` of them up to column `j = q % 40`. -/
def cumC (q : Nat) : Nat := rowStart (q / 40) + (q % 40 - q / 40)

theorem flag_le_one (q : Nat) : flag q ≤ 1 := by unfold flag; split <;> omega

theorem cum_succ (q : Nat) : cum (q + 1) = cum q + flag (q + 1) := by
  unfold cum; rw [Finset.sum_range_succ]

theorem cum_le (q : Nat) : cum q ≤ q + 1 := by
  induction q with
  | zero =>
    show ∑ k ∈ Finset.range 1, flag k ≤ 1
    rw [Finset.sum_range_one]; exact flag_le_one 0
  | succ q ih => rw [cum_succ]; have := flag_le_one (q + 1); omega

theorem cum_mono {q q' : Nat} (h : q ≤ q') : cum q ≤ cum q' := by
  unfold cum
  exact Finset.sum_le_sum_of_subset (Finset.range_mono (by omega))

/-- The closed form steps as the running count does. -/
theorem cumC_succ (q : Fin 1599) : cumC (q.val + 1) = cumC q.val + flag (q.val + 1) := by
  revert q; decide +kernel

theorem cum_eq_cumC (q : Nat) (hq : q < 1600) : cum q = cumC q := by
  induction q with
  | zero => unfold cum; simp [flag, cumC, rowStart]
  | succ q ih => rw [cum_succ, ih (by omega), cumC_succ ⟨q, by omega⟩]

/-- At the p-th marked position the closed form is `p + 1`, just before it `p`; that position is inside the square and
    not the first. -/
theorem cumC_pos (p : Fin 780) : cumC (pos p) = p.val + 1 ∧ cumC (pos p - 1) = p.val ∧ 1 ≤ pos p ∧ pos p < 1600 := by
  revert p; decide +kernel

/-- The running count is `≤ p` exactly before the p-th marked position. -/
theorem cum_le_iff (p : Fin 780) (q : Nat) : cum q ≤ p.val ↔ q < pos p := by
  obtain ⟨h1, h2, h3, h4⟩ := cumC_pos p
  constructor
  · intro h
    by_contra hn
    have := cum_mono (Nat.le_of_not_lt hn)
    rw [cum_eq_cumC (pos p) h4, h1] at this
    omega
  · intro h
    have := cum_mono (show q ≤ pos p - 1 by omega)
    rw [cum_eq_cumC (pos p - 1) (by omega), h2] at this
    exact this

theorem sum_lt (N P : Nat) : ∑ q ∈ Finset.range N, (if q < P then 1 else 0) = min N P := by
  induction N with
  | zero => simp
  | succ N ih => rw [Finset.sum_range_succ, ih]; split_ifs <;> omega

/-- THE COUNT: the histogram summed up to `p` is the flat position of the p-th pair. -/
theorem flat_eq (p : Fin 780) : flat p.val = pos p := by
  obtain ⟨_, _, _, h4⟩ := cumC_pos p
  unfold flat hist
  rw [Finset.sum_comm]
  have : ∀ q ∈ Finset.range 1600, (∑ v ∈ Finset.range (p.val + 1), if cum q = v then 1 else 0) = if q < pos p then 1 else 0 := by
    intro q _
    rw [Finset.sum_ite_eq]
    have := cum_le_iff p q
    simp only [Finset.mem_range]
    by_cases hq : q < pos p
    · rw [if_pos hq, if_pos (by have := this.mpr hq; omega)]
    · rw [if_neg hq, if_neg (fun h => hq (this.mp (by omega)))]
  rw [Finset.sum_congr rfl this, sum_lt]
  omega

end Cert.ReferenceIdeal.Counting
-- ==== Proof.Flags.lean ====
import proofs.«101170_j24747601560016_2_alg».proof.Proof.RefTerm
import proofs.«101170_j24747601560016_2_alg».proof.Proof.Counting
import Idealize.ShloMosaic.Lib.ValueIdx
import Mathlib

/-!
The flags: the strictly-upper-triangular mask of the 40 × 40 square read at an index, and its row-major flattening as
32-bit words: entry `q` is one when `q / 40 < q % 40` and zero otherwise.
-/

namespace Cert.ReferenceIdeal.Flags

open Idealize.ShloMosaic Idealize.ShloMosaic.ValueIdx Cert.ReferenceIdeal
open Facts₀ Facts

variable [Facts]

/-- Row `i` is at or past column `j`, as the program's signed comparison of the two coordinates' words decides it. -/
theorem sge_word (i j : Fin 40) :
    IntOp.cmpi .sge (IntOp.addi (BitVec.ofNat 32 i.val) 0#32) (BitVec.ofNat 32 j.val) = if j.val ≤ i.val then 1#1 else 0#1 := by
  revert i j; decide +kernel

/-- The word of 1.0 is one. -/
theorem ofBits_one : Ideal.ofBits .f32 0x3F800000#32 = 1 := by
  simp [Ideal.ofBits, Ideal.ieee, -EReal.coe_mul]; norm_num

/-- The word of 0.0 is zero. -/
theorem ofBits_zero : Ideal.ofBits .f32 0x00000000#32 = 0 := by simp [Ideal.ofBits, Ideal.ieee]

/-- The mask at row `i`, column `j`: set exactly above the diagonal. -/
theorem mask_apply (i j : Fin 40) : RefTerm.mask (F := Ideal) (ix2 i j) = if i.val < j.val then 1#1 else 0#1 := by
  show Ideal.cmp .une
      (Scalar.select (IntOp.cmpi .sge (IntOp.addi (BitVec.ofNat 32 i.val) 0#32) (BitVec.ofNat 32 j.val))
        (Ideal.ofBits .f32 0x00000000#32) (Ideal.ofBits .f32 0x3F800000#32))
      (Ideal.ofBits .f32 0x00000000#32) = _
  rw [sge_word, ofBits_one, ofBits_zero]
  by_cases h : j.val ≤ i.val
  · rw [if_pos h, select_one, if_neg (by omega)]; simp [Ideal.cmp]
  · rw [if_neg h, select_zero, if_pos (by omega)]; simp [Ideal.cmp]

/-- The flattened flags at position `q`. -/
theorem flags_apply (q : Fin 1600) : RefTerm.flags (F := Ideal) (ix1 q) = BitVec.ofNat 32 (Counting.flag q.val) := by
  have hidx : Shape.reshapeEquiv shapeCasts_S40x40_S1600 (ix1 q)
      = ix2 (⟨q.val / 40, by omega⟩ : Fin 40) (⟨q.val % 40, by omega⟩ : Fin 40) := by
    apply Shape.reshapeEquiv_eq_of_rowMajor
    rw [Shape.rowMajor_val_two, Shape.rowMajor_val_one]
    show q.val / 40 * 40 + q.val % 40 = q.val
    omega
  show (RefTerm.mask (F := Ideal) (Shape.reshapeEquiv shapeCasts_S40x40_S1600 (ix1 q))).setWidth 32 = _
  rw [hidx, mask_apply]
  unfold Counting.flag
  by_cases h : q.val / 40 < q.val % 40
  · rw [if_pos h, if_pos h]; rfl
  · rw [if_neg h, if_neg h]; rfl

end Cert.ReferenceIdeal.Flags
-- ==== Proof.TabWords.lean ====
import Idealize.ShloMosaic.Lib.ValueIdx
import proofs.«101170_j24747601560016_2_alg».proof.Proof.Gen.ReferenceIdeal
import proofs.«101170_j24747601560016_2_alg».proof.Proof.RefTerm

/-!
Floor division, floored remainder and the wrap of negative entries, on a table whose entry is a small natural
number: for `n < 1600` as a 32-bit word, `(n div 40) mod 40` wrapped is `n / 40`, and `(n div 1) mod 40` wrapped
is `n % 40`.  Each vector operation is read at the index, which leaves a function of the one word there; that
function is then evaluated on the 1600 words.
-/

noncomputable section

namespace Cert.ReferenceIdeal.TabWords

open Idealize.ShloMosaic Idealize.ShloMosaic.ValueIdx Cert.ReferenceIdeal Cert.ReferenceIdeal.RefTerm

/-- The sign of a word: 0, 1 or −1. -/
def signW (x : BitVec 32) : BitVec 32 := if x = 0 then 0 else if x.msb then -1 else 1

/-- Floor division of one word by another. -/
def floorDivW (a b : BitVec 32) : BitVec 32 :=
  Scalar.select
    (IntOp.andi (IntOp.cmpi .ne (signW a) (signW b)) (IntOp.cmpi .ne (IntOp.remsi .host a b) 0#32))
    (IntOp.subi (IntOp.divsi .host a b) 1#32) (IntOp.divsi .host a b)

/-- The divisor, zero replaced by one. -/
def safeW (b : BitVec 32) : BitVec 32 := Scalar.select (IntOp.cmpi .eq b 0#32) 1#32 b

/-- The floored remainder of one word by another. -/
def remW (a b : BitVec 32) : BitVec 32 :=
  Scalar.select
    (IntOp.andi
      (IntOp.cmpi .ne (IntOp.cmpi .slt (IntOp.remsi .host a (safeW b)) 0#32) (IntOp.cmpi .slt (safeW b) 0#32))
      (IntOp.cmpi .ne (IntOp.remsi .host a (safeW b)) 0#32))
    (IntOp.addi (IntOp.remsi .host a (safeW b)) (safeW b)) (IntOp.remsi .host a (safeW b))

/-- A negative word wrapped by 40. -/
def wrapW (a : BitVec 32) : BitVec 32 := Scalar.select (IntOp.cmpi .slt a 0#32) (IntOp.addi a 40#32) a

theorem floorDiv_apply (fl : IVec S780 32) (v : BitVec 32) (i : S780.Idx) :
    floorDiv fl (constantI S_ 32 v) i = floorDivW (fl i) v := rfl

theorem rem_apply (fl : IVec S780 32) (v : BitVec 32) (i : S780.Idx) :
    rem fl (constantI S_ 32 v) i = remW (fl i) v := rfl

theorem wrap_apply (fl : IVec S780 32) (i : S780.Idx) : wrap fl i = wrapW (fl i) := rfl

theorem row_word : ∀ n : Fin 1600,
    wrapW (remW (floorDivW (BitVec.ofNat 32 n.val) 40#32) 40#32) = BitVec.ofNat 32 (n.val / 40) := by
  decide +kernel

theorem col_word : ∀ n : Fin 1600,
    wrapW (remW (floorDivW (BitVec.ofNat 32 n.val) 1#32) 40#32) = BitVec.ofNat 32 (n.val % 40) := by
  decide +kernel

/-- The row table from the flat positions. -/
theorem ii_of_word (fl : IVec S780 32) (p : Fin 780) (n : Nat) (hn : n < 1600) (h : fl (ix1 p) = BitVec.ofNat 32 n) :
    wrap (rem (floorDiv fl (constantI S_ 32 40#32)) (constantI S_ 32 40#32)) (ix1 p) = BitVec.ofNat 32 (n / 40) := by
  rw [wrap_apply, rem_apply, floorDiv_apply, h]
  exact row_word ⟨n, hn⟩

/-- The column table from the flat positions. -/
theorem jj_of_word (fl : IVec S780 32) (p : Fin 780) (n : Nat) (hn : n < 1600) (h : fl (ix1 p) = BitVec.ofNat 32 n) :
    wrap (rem (floorDiv fl (constantI S_ 32 1#32)) (constantI S_ 32 40#32)) (ix1 p) = BitVec.ofNat 32 (n % 40) := by
  rw [wrap_apply, rem_apply, floorDiv_apply, h]
  exact col_word ⟨n, hn⟩

end Cert.ReferenceIdeal.TabWords

end
-- ==== Proof.Tables.lean ====
import proofs.«101170_j24747601560016_2_alg».proof.Proof.Gen.ReferenceIdeal
import proofs.«101170_j24747601560016_2_alg».proof.Proof.RefTerm
import proofs.«101170_j24747601560016_2_alg».proof.Proof.Pairs
import proofs.«101170_j24747601560016_2_alg».proof.Proof.CumSum
import proofs.«101170_j24747601560016_2_alg».proof.Proof.Hist
import proofs.«101170_j24747601560016_2_alg».proof.Proof.Counting
import proofs.«101170_j24747601560016_2_alg».proof.Proof.Flags
import proofs.«101170_j24747601560016_2_alg».proof.Proof.TabWords
import Idealize.ShloMosaic.Lib.ValueIdx
import Mathlib

/-!
The reference's two index tables are the enumeration of the pairs `i < j`: entry `p` of the row table is the row of
the p-th pair, entry `p` of the column table its column.  Each array of the chain is read at an index as the word of
a natural number: the flags, their running count, the bins (the running count again: it is never negative), the
histogram of the bins, its running count — the flat position `40 i + j` of the p-th pair — and the quotient and
remainder of that by 40.
-/

namespace Cert.ReferenceIdeal.Tables

open Idealize.ShloMosaic Idealize.ShloMosaic.ValueIdx Cert.ReferenceIdeal
open Facts₀ Facts

/-- A word of a number up to 1600 is not negative: the maximum with zero, the test for a negative word, and the
    signed reading. -/
theorem word_small (c : Fin 1601) :
    IntOp.maxsi 0#32 (BitVec.ofNat 32 c.val) = BitVec.ofNat 32 c.val
      ∧ IntOp.cmpi .slt (BitVec.ofNat 32 c.val) 0#32 = 0#1
      ∧ (BitVec.ofNat 32 c.val).toInt = (c.val : Int) := by
  revert c; decide +kernel

/-- The running count of the flags at position `q`. -/
theorem cum1_apply (q : Fin 1600) : RefTerm.cum1 (F := Ideal) (ix1 q) = BitVec.ofNat 32 (Counting.cum q.val) :=
  CumSum.reduceWindow_apply (n := 1600) (lo := 1599) rfl (RefTerm.flags (F := Ideal)) Counting.flag Flags.flags_apply
    _ (fun _ => rfl) _ _ q

/-- The bounded running count is the running count. -/
theorem clipped_apply (q : Fin 1600) : RefTerm.clipped (F := Ideal) (ix1 q) = BitVec.ofNat 32 (Counting.cum q.val) := by
  show IntOp.maxsi 0#32 (RefTerm.cum1 (F := Ideal) (ix1 q)) = _
  rw [cum1_apply]
  exact (word_small ⟨Counting.cum q.val, by have := Counting.cum_le q.val; have := q.isLt; omega⟩).1

/-- The bins are the running count. -/
theorem bins_apply (q : Fin 1600) : RefTerm.bins (F := Ideal) (ix1 q) = BitVec.ofNat 32 (Counting.cum q.val) := by
  show Scalar.select (IntOp.cmpi .slt (RefTerm.clipped (F := Ideal) (ix1 q)) 0#32)
    (IntOp.addi (RefTerm.clipped (F := Ideal) (ix1 q)) 780#32) (RefTerm.clipped (F := Ideal) (ix1 q)) = _
  rw [clipped_apply,
    (word_small ⟨Counting.cum q.val, by have := Counting.cum_le q.val; have := q.isLt; omega⟩).2.1, select_zero]

/-- The histogram at bin `v`. -/
theorem hist_apply (v : Fin 780) : RefTerm.hist (F := Ideal) (ix1 v) = BitVec.ofNat 32 (Counting.hist v.val) := by
  have h := Hist.scatter_apply (RefTerm.splat780 0#32) (fun _ => rfl)
    (broadcastInDim S1600x1 ![0] bcast_S1600_S1600x1_0 (RefTerm.bins (F := Ideal))) (RefTerm.splat1600 1#32) (fun _ => rfl)
    (fun q => (Counting.cum q : Int)) (fun q => by
      have hi : broadcastInDim S1600x1 ![0] bcast_S1600_S1600x1_0 (RefTerm.bins (F := Ideal)) (ix2 q (0 : Fin 1))
          = RefTerm.bins (F := Ideal) (ix1 q) := by
        unfold broadcastInDim
        congr 1
        funext a
        obtain rfl : a = (0 : Fin 1) := Subsingleton.elim _ _
        rfl
      rw [hi, bins_apply]
      exact (word_small ⟨Counting.cum q.val, by have := Counting.cum_le q.val; have := q.isLt; omega⟩).2.2) v
  unfold RefTerm.hist
  rw [h]
  unfold Counting.hist
  refine congrArg (BitVec.ofNat 32) ?_
  exact Finset.sum_congr rfl fun q _ => if_congr Nat.cast_inj rfl rfl

/-- The running count of the histogram at `p`: the flat position of the p-th pair. -/
theorem flat_apply (p : Fin 780) : RefTerm.flat (F := Ideal) (ix1 p) = BitVec.ofNat 32 (Cert.Pairs.pos p) := by
  have h := CumSum.reduceWindow_apply (n := 780) (lo := 779) rfl (RefTerm.hist (F := Ideal)) Counting.hist hist_apply
    (broadcastInDim S_ ![] bcast_S_S_ (constantI S_ 32 0#32)) (fun _ => rfl) reduceWindows_S780_S780_w780s1p779_0 h_S_ p
  unfold RefTerm.flat
  rw [h]
  exact congrArg (BitVec.ofNat 32) (Counting.flat_eq p)

/-- THE ROW TABLE: entry `p` is the row of the p-th pair. -/
theorem iiTab_eq (p : Fin 780) : RefTerm.iiTab (F := Ideal) (ix1 p) = BitVec.ofNat 32 (Cert.Pairs.I p).val := by
  have h := TabWords.ii_of_word (RefTerm.flat (F := Ideal)) p (Cert.Pairs.pos p) (Counting.cumC_pos p).2.2.2 (flat_apply p)
  have hI : Cert.Pairs.pos p / 40 = (Cert.Pairs.I p).val := by
    unfold Cert.Pairs.pos; have := (Cert.Pairs.J p).isLt; omega
  rw [hI] at h
  exact h

/-- THE COLUMN TABLE: entry `p` is the column of the p-th pair. -/
theorem jjTab_eq (p : Fin 780) : RefTerm.jjTab (F := Ideal) (ix1 p) = BitVec.ofNat 32 (Cert.Pairs.J p).val := by
  have h := TabWords.jj_of_word (RefTerm.flat (F := Ideal)) p (Cert.Pairs.pos p) (Counting.cumC_pos p).2.2.2 (flat_apply p)
  have hJ : Cert.Pairs.pos p % 40 = (Cert.Pairs.J p).val := by
    unfold Cert.Pairs.pos; have := (Cert.Pairs.J p).isLt; omega
  rw [hJ] at h
  exact h

end Cert.ReferenceIdeal.Tables
-- ==== Proof.Vid.lean ====
import proofs.«101170_j24747601560016_2_alg».proof.Proof.Gen.KernelIdeal.Skeleton
import proofs.«101170_j24747601560016_2_alg».proof.Proof.Spec
import Idealize.ShloMosaic.Lib.Pipeline.Value
import Idealize.ShloMosaic.Lib.ValueIdx
import Idealize.ShloMosaic.PureOps.Ideal.Laws

/-!
The projected block: the kernel reshapes the 32 × 40 × 128 block of `x` to a 1280 × 128 matrix, multiplies it by `W`
into a zero accumulator and reshapes the product back.  Row `40 b + j` of the matrix is the row `(b, j)` of the block, so
the result at `(b, j, d)` is `Σ_k x[b, j, k] · W[k, d]`.
-/

noncomputable section

open scoped BigOperators
open Idealize.ShloMosaic Idealize.ShloMosaic.ValueIdx Idealize.SL.Sem

namespace Cert.KernelIdeal.Vid

open Cert.KernelIdeal Cert.KernelIdeal.Gen

/-- The reshaped block at row `40 b + j` is the block at `(b, j)`. -/
theorem flat_apply (x0 : FVec Ideal S32x40x128 .f32) (b : Fin 32) (j : Fin 40) (k : Fin 128) (r : Fin 1280)
    (hr : r.val = 40 * b.val + j.val) :
    shapeCast S1280x128 x0 shapeCasts_S32x40x128_S1280x128 (ix2 r k) = x0 (ix3 b j k) := by
  refine shapeCast_apply _ _ (ix2 r k) (ix3 b j k) ?_
  rw [Shape.rowMajor_val_two, Shape.rowMajor_val_three]
  show (b.val * 40 + j.val) * 128 + k.val = r.val * 128 + k.val
  omega

/-- The matrix product into the zero accumulator at `(r, d)`, `r = 40 b + j`: the sum over the contracted lane. -/
theorem prod_apply (x0 : FVec Ideal S32x40x128 .f32) (x1 : FVec Ideal S128x128 .f32) (b : Fin 32) (j : Fin 40) (d : Fin 128)
    (r : Fin 1280) (hr : r.val = 40 * b.val + j.val) :
    matmul dot_S1280x128_S128x128_S1280x128_1_0_0_1_n_n (some .fp32)
        (shapeCast S1280x128 x0 shapeCasts_S32x40x128_S1280x128) x1 (constant (F := Ideal) S1280x128 .f32 0x00000000#32) (ix2 r d)
      = ∑ k : Fin 128, x0 (ix3 b j k) * x1 (ix2 k d) := by
  refine (Ideal.matmul_constant_zero_apply dot_S1280x128_S128x128_S1280x128_1_0_0_1_n_n (some .fp32) _ _ (ix2 r d)).trans ?_
  rw [← Equiv.sum_comp (contrEquiv1 dot_S1280x128_S128x128_S1280x128_1_0_0_1_n_n 128 rfl rfl).symm]
  refine Finset.sum_congr rfl fun k _ => ?_
  have ck := contrEquiv1_symm_val dot_S1280x128_S128x128_S1280x128_1_0_0_1_n_n 128 rfl rfl k
  have hl : dot_S1280x128_S128x128_S1280x128_1_0_0_1_n_n.lhsIdx (ix2 r d)
      ((contrEquiv1 dot_S1280x128_S128x128_S1280x128_1_0_0_1_n_n 128 rfl rfl).symm k) = ix2 r k := by
    funext ax; apply Fin.ext
    match ax with
    | ⟨0, _⟩ => simp [DotDims.lhsIdx, dot_S1280x128_S128x128_S1280x128_1_0_0_1_n_n]; rfl
    | ⟨1, _⟩ => simp [DotDims.lhsIdx, dot_S1280x128_S128x128_S1280x128_1_0_0_1_n_n]; exact ck
  have hr' : dot_S1280x128_S128x128_S1280x128_1_0_0_1_n_n.rhsIdx (ix2 r d)
      ((contrEquiv1 dot_S1280x128_S128x128_S1280x128_1_0_0_1_n_n 128 rfl rfl).symm k) = ix2 k d := by
    funext ax; apply Fin.ext
    match ax with
    | ⟨0, _⟩ => simp [DotDims.rhsIdx, dot_S1280x128_S128x128_S1280x128_1_0_0_1_n_n]; exact ck
    | ⟨1, _⟩ => simp [DotDims.rhsIdx, dot_S1280x128_S128x128_S1280x128_1_0_0_1_n_n]; rfl
  rw [hl, hr', flat_apply x0 b j k r hr]

/-- The projected block at `(b, j, d)` is the specification's projected row. -/
theorem vid_apply (x0 : Vec Ideal S32x40x128 .f32) (x1 : Vec Ideal S128x128 .f32) (b : Fin 32) (j : Fin 40) (d : Fin 128) :
    k0_pay1 (F := Ideal) x0 x1 (ix3 b j d) = Cert.Spec.projb x0 x1 b j d := by
  have hb := b.isLt
  have hj := j.isLt
  unfold k0_pay1
  refine (shapeCast_apply _ _ (ix3 b j d) (ix2 (⟨40 * b.val + j.val, by omega⟩ : Fin 1280) d) (by
    rw [Shape.rowMajor_val_two, Shape.rowMajor_val_three]
    show (40 * b.val + j.val) * 128 + d.val = (b.val * 40 + j.val) * 128 + d.val
    omega)).trans ?_
  exact prod_apply x0 x1 b j d ⟨40 * b.val + j.val, by omega⟩ rfl

end Cert.KernelIdeal.Vid

end
-- ==== Proof.Slab.lean ====
import proofs.«101170_j24747601560016_2_alg».proof.Proof.Gen.KernelIdeal.Skeleton
import Idealize.ShloMosaic.Lib.Pipeline.Value
import Idealize.ShloMosaic.Lib.ValueIdx

/-!
One slab of products: for a fixed row `i` of the block, the kernel takes the single row `x[:, i, :]`, repeats it along the
middle axis `n` times, and multiplies it lane by lane with the rows `j, …, j + n - 1` of the projected block.  At `(b, r, d)`
the slab holds `x[b, i, d] · v[b, j + r, d]`.
-/

noncomputable section

open Idealize.ShloMosaic Idealize.ShloMosaic.ValueIdx Idealize.SL.Sem

namespace Cert.KernelIdeal.Slab

open Cert.KernelIdeal Cert.KernelIdeal.Gen

/-- Row `i` of the block, as a 32 × 1 × 128 slice, at `(b, 0, d)`. -/
theorem row_apply (i : Nat) (x0 : FVec Ideal S32x40x128 .f32) (hs : S32x40x128.Slices ![0, i, 0] S32x1x128)
    (b : Fin 32) (z : Fin 1) (d : Fin 128) (hi : i < 40) :
    extractStridedSlice S32x1x128 ![0, i, 0] x0 hs (ix3 b z d) = x0 (ix3 b ⟨i, hi⟩ d) := by
  have hz : z.val = 0 := by omega
  exact extractStridedSlice_apply _ x0 hs (ix3 b z d) (ix3 b ⟨i, hi⟩ d) (fun a => match a with
    | ⟨0, _⟩ => by show b.val = 0 + b.val; omega
    | ⟨1, _⟩ => by show i = i + z.val; omega
    | ⟨2, _⟩ => by show d.val = 0 + d.val; omega)

/-- Rows `j, …, j + n - 1` of a block, as a 32 × n × 128 slice, at `(b, r, d)`. -/
theorem rows_apply (n j : Nat) (v : FVec Ideal S32x40x128 .f32) (hs : S32x40x128.Slices ![0, j, 0] (⟨3, ![32, n, 128]⟩ : Shape))
    (b : Fin 32) (r : Fin n) (d : Fin 128) (hj : j + r.val < 40) :
    extractStridedSlice (⟨3, ![32, n, 128]⟩ : Shape) ![0, j, 0] v hs (ix3 b r d) = v (ix3 b ⟨j + r.val, hj⟩ d) :=
  extractStridedSlice_apply _ v hs (ix3 b r d) (ix3 b ⟨j + r.val, hj⟩ d) (fun a => match a with
    | ⟨0, _⟩ => by show b.val = 0 + b.val; omega
    | ⟨1, _⟩ => rfl
    | ⟨2, _⟩ => by show d.val = 0 + d.val; omega)

/-- The single row repeated `n` times along the middle axis, at `(b, r, d)`. -/
theorem rep_apply (n : Nat) (w : FVec Ideal S32x1x128 .f32) (hb : S32x1x128.Broadcasts (⟨3, ![32, n, 128]⟩ : Shape))
    (b : Fin 32) (r : Fin n) (d : Fin 128) :
    broadcastTo (⟨3, ![32, n, 128]⟩ : Shape) w hb (ix3 b r d) = w (ix3 b (0 : Fin 1) d) :=
  broadcastTo_apply w hb (ix3 b r d) (ix3 b (0 : Fin 1) d) (fun a => match a with
    | ⟨0, _⟩ => rfl
    | ⟨1, _⟩ => rfl
    | ⟨2, _⟩ => rfl)

/-- The slab of products at `(b, r, d)`. -/
theorem slab_apply (n i j : Nat) (x0 v : FVec Ideal S32x40x128 .f32)
    (hs1 : S32x40x128.Slices ![0, i, 0] S32x1x128)
    (hs2 : S32x40x128.Slices ![0, j, 0] (⟨3, ![32, n, 128]⟩ : Shape))
    (hb : S32x1x128.Broadcasts (⟨3, ![32, n, 128]⟩ : Shape))
    (b : Fin 32) (r : Fin n) (d : Fin 128) (hi : i < 40) (hj : j + r.val < 40) :
    mulf (broadcastTo (⟨3, ![32, n, 128]⟩ : Shape) (extractStridedSlice S32x1x128 ![0, i, 0] x0 hs1) hb)
        (extractStridedSlice (⟨3, ![32, n, 128]⟩ : Shape) ![0, j, 0] v hs2) (ix3 b r d)
      = x0 (ix3 b ⟨i, hi⟩ d) * v (ix3 b ⟨j + r.val, hj⟩ d) := by
  refine (mulf_apply _ _ _).trans ?_
  rw [rep_apply n _ hb b r d, row_apply i x0 hs1 b 0 d hi, rows_apply n j v hs2 b r d hj]

/-- The last slab has one row and no repetition: the product of two single rows. -/
theorem last_apply (i j : Nat) (x0 v : FVec Ideal S32x40x128 .f32)
    (hs1 : S32x40x128.Slices ![0, i, 0] S32x1x128) (hs2 : S32x40x128.Slices ![0, j, 0] S32x1x128)
    (b : Fin 32) (r : Fin 1) (d : Fin 128) (hi : i < 40) (hj : j + r.val < 40) :
    mulf (extractStridedSlice S32x1x128 ![0, i, 0] x0 hs1) (extractStridedSlice S32x1x128 ![0, j, 0] v hs2) (ix3 b r d)
      = x0 (ix3 b ⟨i, hi⟩ d) * v (ix3 b ⟨j + r.val, hj⟩ d) := by
  refine (mulf_apply _ _ _).trans ?_
  rw [row_apply i x0 hs1 b r d hi, rows_apply 1 j v hs2 b r d hj]

end Cert.KernelIdeal.Slab

end
-- ==== Proof.Block.lean ====
import proofs.«101170_j24747601560016_2_alg».proof.Proof.Vid
import proofs.«101170_j24747601560016_2_alg».proof.Proof.Slab

/-!
Where a slab of products sits in a block of the result.  The slab of row `i` is stored at the positions
`rowStart i + r`, `r < 39 - i`, of the middle axis; the pair at such a position is `(i, i + 1 + r)`, so the slab is exactly
the part of the specification's block under its rectangle.
-/

noncomputable section

open Idealize.ShloMosaic Idealize.ShloMosaic.ValueIdx Idealize.SL.Sem

namespace Cert.KernelIdeal.Block

open Cert.KernelIdeal Cert.KernelIdeal.Gen Cert.Pairs Cert.Spec

/-- A 32 × n × 128 array that holds `x[b, i, d] · v[b, i + 1 + r, d]` at `(b, r, d)`, `v` the projected block, is the
    specification's block read through the rectangle of `n = 39 - i` rows from row `rowStart i`. -/
theorem at_rect (n i off : Nat) (x0 : FVec Ideal S32x40x128 .f32) (x1 : FVec Ideal S128x128 .f32)
    (hi : i < 39) (hn : n = 39 - i) (hoff : off = rowStart i)
    (inb : ∀ a, (![0, off, 0] : Fin 3 → Nat) a + (⟨3, ![32, n, 128]⟩ : Shape).size a ≤ S32x780x128.size a)
    (w : (⟨3, ![32, n, 128]⟩ : Shape).Idx → EReal)
    (hw : ∀ (b : Fin 32) (r : Fin n) (d : Fin 128) (hj : i + 1 + r.val < 40),
      w (ix3 b r d) = x0 (ix3 b ⟨i, by omega⟩ d) * k0_pay1 (F := Ideal) x0 x1 (ix3 b ⟨i + 1 + r.val, hj⟩ d))
    (x : (⟨3, ![32, n, 128]⟩ : Shape).Idx) :
    w x = Gblk x0 x1 ((Rect.unit (s := S32x780x128) ![0, off, 0] (⟨3, ![32, n, 128]⟩ : Shape).size inb).emb x) := by
  obtain ⟨b, r, d, rfl⟩ : ∃ (b : Fin 32) (r : Fin n) (d : Fin 128), x = ix3 b r d := ⟨x 0, x 1, x 2, eq_ix3 x⟩
  have hrn : r.val < n := r.isLt
  have hr : r.val < 39 - i := by omega
  obtain ⟨h1, h2, h3⟩ := row_col_at ⟨i, hi⟩ ⟨r.val, by omega⟩ hr
  have he : (Rect.unit (s := S32x780x128) ![0, off, 0] (⟨3, ![32, n, 128]⟩ : Shape).size inb).emb (ix3 b r d)
      = ix3 b (⟨rowStart i + r.val, h1⟩ : Fin 780) d := by
    funext a; apply Fin.ext
    match a with
    | ⟨0, _⟩ => show 0 + 1 * b.val = b.val; omega
    | ⟨1, _⟩ => show off + 1 * r.val = rowStart i + r.val; omega
    | ⟨2, _⟩ => show 0 + 1 * d.val = d.val; omega
  have hI : I ⟨rowStart i + r.val, h1⟩ = ⟨i, by omega⟩ := Fin.ext h2
  have hJ : J ⟨rowStart i + r.val, h1⟩ = ⟨i + 1 + r.val, by omega⟩ := Fin.ext h3
  rw [he, Gblk_apply, hw b r d (by omega), Vid.vid_apply, hI, hJ]

/-- The slab of row `i` (the row repeated `n` times, times rows `i + 1, …` of the projected block) is the specification's
    block under its rectangle. -/
theorem slab_piece (n i j off : Nat) (x0 : FVec Ideal S32x40x128 .f32) (x1 : FVec Ideal S128x128 .f32)
    (hs1 : S32x40x128.Slices ![0, i, 0] S32x1x128)
    (hs2 : S32x40x128.Slices ![0, j, 0] (⟨3, ![32, n, 128]⟩ : Shape))
    (hb : S32x1x128.Broadcasts (⟨3, ![32, n, 128]⟩ : Shape))
    (inb : ∀ a, (![0, off, 0] : Fin 3 → Nat) a + (⟨3, ![32, n, 128]⟩ : Shape).size a ≤ S32x780x128.size a)
    (hi : i < 39) (hj : j = i + 1) (hn : n = 39 - i) (hoff : off = rowStart i)
    (x : (⟨3, ![32, n, 128]⟩ : Shape).Idx) :
    mulf (broadcastTo (⟨3, ![32, n, 128]⟩ : Shape) (extractStridedSlice S32x1x128 ![0, i, 0] x0 hs1) hb)
        (extractStridedSlice (⟨3, ![32, n, 128]⟩ : Shape) ![0, j, 0] (k0_pay1 (F := Ideal) x0 x1) hs2) x
      = Gblk x0 x1 ((Rect.unit (s := S32x780x128) ![0, off, 0] (⟨3, ![32, n, 128]⟩ : Shape).size inb).emb x) := by
  subst hj
  exact at_rect n i off x0 x1 hi hn hoff inb _
    (fun b r d hjr => Slab.slab_apply n i (i + 1) x0 (k0_pay1 (F := Ideal) x0 x1) hs1 hs2 hb b r d (by omega) hjr) x

/-- The last slab (row 38: one row, no repetition) is the specification's block under its rectangle. -/
theorem last_piece (i j off : Nat) (x0 : FVec Ideal S32x40x128 .f32) (x1 : FVec Ideal S128x128 .f32)
    (hs1 : S32x40x128.Slices ![0, i, 0] S32x1x128) (hs2 : S32x40x128.Slices ![0, j, 0] S32x1x128)
    (inb : ∀ a, (![0, off, 0] : Fin 3 → Nat) a + S32x1x128.size a ≤ S32x780x128.size a)
    (hi : i = 38) (hj : j = i + 1) (hoff : off = rowStart i)
    (x : S32x1x128.Idx) :
    mulf (extractStridedSlice S32x1x128 ![0, i, 0] x0 hs1)
        (extractStridedSlice S32x1x128 ![0, j, 0] (k0_pay1 (F := Ideal) x0 x1) hs2) x
      = Gblk x0 x1 ((Rect.unit (s := S32x780x128) ![0, off, 0] S32x1x128.size inb).emb x) := by
  subst hj
  exact at_rect 1 i off x0 x1 (by omega) (by omega) hoff inb _
    (fun b r d hjr => Slab.last_apply i (i + 1) x0 (k0_pay1 (F := Ideal) x0 x1) hs1 hs2 b r d (by omega) hjr) x

end Cert.KernelIdeal.Block

end
-- ==== Proof.KBlock.lean ====
import proofs.«101170_j24747601560016_2_alg».proof.Proof.Block
import proofs.«101170_j24747601560016_2_alg».proof.Proof.Gen.KernelIdeal.Frame
import Idealize.ShloMosaic.Lib.Pipeline.Value
import Idealize.ShloMosaic.Lib.Tactic

/-!
What one grid block of the idealized kernel's result holds.  The body's 39 stores leave 39 slabs in the block's buffer,
slab `i` under the rectangle of rows `rowStart i, …, rowStart i + 38 - i`; each slab is the part of the specification's block
under its rectangle, and the rectangles cover the buffer, so the buffer reads back as the specification's block.
-/

noncomputable section

open Idealize.ShloMosaic Idealize.ShloMosaic.TcCoe Idealize.ShloMosaic.ValueIdx Idealize.SL.Sem Idealize.ShloMosaic.Tactic

namespace Cert.KernelIdeal.KBlock

open Cert.KernelIdeal Cert.KernelIdeal.Gen

theorem hz3 : (![0, 0, 0] : Fin 3 → Nat) = fun _ => 0 := funext fun a => by fin_cases a <;> rfl
theorem hz2 : (![0, 0] : Fin 2 → Nat) = fun _ => 0 := funext fun a => by fin_cases a <;> rfl

set_option maxRecDepth 65536 in
/-- Every slab the body's stores leave is the specification's block under the slab's rectangle. -/
theorem pieces_ok (c : Dev nD) (i : grid0.Coords) (arg1 : Memref sig .tc .vmem S32x40x128 .f32) (harg1 : arg1.IsWhole)
    (arg2 : Memref sig .tc .vmem S128x128 .f32) (harg2 : arg2.IsWhole)
    (arg3 : Memref sig .tc .vmem S32x780x128 .f32) (harg3 : arg3.IsWhole)
    (x0 : Vec Ideal S32x40x128 .f32) (x1 : Vec Ideal S128x128 .f32) :
    ∀ p ∈ (kernelRun0_A (F := Ideal) c i arg1 harg1 arg2 harg2 arg3 harg3 x0 x1).1,
      ∀ x : p.1.shape.Idx, p.2 x = Cert.Spec.Gblk x0 x1 (p.1.emb x) := by
  unfold kernelRun0_A
  dsimp only
  sl_unfold_words
  simp only [View.readAt_eq_ld, harg1.read_unread, harg2.read_unread, View.ld_unit_zero (S := S32x40x128) hz3,
    View.ld_unit_zero (S := S128x128) hz2]
  iterate 39
    refine List.forall_mem_cons.mpr ⟨fun x => ?_, ?_⟩
    · first
      | exact Block.slab_piece _ _ _ _ x0 x1 _ _ _ (by decide) (by decide) (by decide) (by decide) (by decide) x
      | exact Block.last_piece _ _ _ x0 x1 _ _ (by decide) (by decide) (by decide) (by decide) x
      | (unfold k0_pay9 k0_pay8 k0_pay7
         exact Block.slab_piece _ _ _ _ x0 x1 _ _ _ (by decide) (by decide) (by decide) (by decide) (by decide) x)
      | (unfold k0_pay31 k0_pay30 k0_pay29
         exact Block.slab_piece _ _ _ _ x0 x1 _ _ _ (by decide) (by decide) (by decide) (by decide) (by decide) x)
  exact fun _ h => absurd h List.not_mem_nil

/-- One grid block of the idealized kernel's result is the specification's block of the block's inputs. -/
theorem out_eq (c : Dev nD) (i : grid0.Coords) (arg1 : Memref sig .tc .vmem S32x40x128 .f32) (harg1 : arg1.IsWhole)
    (arg2 : Memref sig .tc .vmem S128x128 .f32) (harg2 : arg2.IsWhole)
    (arg3 : Memref sig .tc .vmem S32x780x128 .f32) (harg3 : arg3.IsWhole)
    (x0 : Vec Ideal S32x40x128 .f32) (x1 : Vec Ideal S128x128 .f32) :
    out0_A_2 (F := Ideal) c i arg1 harg1 arg2 harg2 arg3 harg3 x0 x1 = Cert.Spec.Gblk x0 x1 := by
  unfold out0_A_2
  rw [View.read_writes_eq_canon _ _ _ (cover0_A_2 c i arg1 harg1 arg2 harg2 arg3 harg3 x0 x1)]
  funext y
  exact View.canon_apply_of_pieces (Cert.Spec.Gblk x0 x1) _
    (pieces_ok c i arg1 harg1 arg2 harg2 arg3 harg3 x0 x1) y
    (cover0_A_2 c i arg1 harg1 arg2 harg2 arg3 harg3 x0 x1 y)

end Cert.KernelIdeal.KBlock

end
-- ==== Proof.KArray.lean ====
import proofs.«101170_j24747601560016_2_alg».proof.Proof.Gen.KernelIdeal.Value
import proofs.«101170_j24747601560016_2_alg».proof.Proof.Spec
import Idealize.ShloMosaic.Lib.Pipeline.Value

/-!
From the kernel's grid blocks to its whole result array.

The kernel runs over a grid of 64 points.  At point `t` it stages batch rows `32 t … 32 t + 31` of `x` (a 32 × 40 × 128
block), the whole of `W`, and writes back batch rows `32 t … 32 t + 31` of the result (a 32 × 780 × 128 block).  Given that
every block's staged result is `Spec.Gblk` of the block's inputs, the result array after the run is `Spec.G` of the two
argument arrays: `Gblk` of rows `32 t …` of `x` is rows `32 t …` of `G x W` (the formula never mixes batch rows), and the 64
row blocks cover the 2048 rows (row `r` lies in block `r / 32`).
-/

noncomputable section

open scoped BigOperators

namespace Cert.KernelIdeal.KArray

open Cert.KernelIdeal Cert.KernelIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

/-- The block hypothesis: on any staging memrefs and at any grid coordinates, what the kernel body leaves in the result's
    staging buffer is `Spec.Gblk` of the two staged input blocks. -/
abbrev BlockEq : Prop := ∀ (c : Dev nD) (i : grid0.Coords) (arg1 : Memref sig .tc .vmem S32x40x128 .f32) (harg1 : arg1.IsWhole) (arg2 : Memref sig .tc .vmem S128x128 .f32) (harg2 : arg2.IsWhole) (arg3 : Memref sig .tc .vmem S32x780x128 .f32) (harg3 : arg3.IsWhole) (x0 : Vec Ideal S32x40x128 .f32) (x1 : Vec Ideal S128x128 .f32),
    out0_A_2 (F := Ideal) c i arg1 harg1 arg2 harg2 arg3 harg3 x0 x1 = Cert.Spec.Gblk x0 x1

/-! ## The index maps -/

/-- The printed index maps, decided over the grid: at point `t` the block of `x` and the block of the result both sit
    at block row `t` (block 0 on the other two axes); the block of `W` is the whole of it. -/
theorem index_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

/-! ## The input blocks as rows of the arguments -/

/-- The block of `x` at point `t` is batch rows `32 t … 32 t + 31` of the argument. -/
theorem iblk0_apply (c : Dev nD) (t : Fin cfg0.N) (b : Fin 32) (i : Fin 40) (d : Fin 128) (r : Fin 2048)
    (hr : r.val = 32 * t.val + b.val) :
    (iblk m c 0 t : Vec Ideal S32x40x128 .f32) (ix3 b i d)
      = (m ((c : Thread nD τ).loc main_arg0) : S2048x40x128.Idx → EReal) (ix3 r i d) := by
  obtain ⟨e0, e1, e2, -⟩ := index_facts t
  unfold iblk
  rw [View.read_apply]
  show V m c main_arg0 _ = m ((c : Thread nD τ).loc main_arg0) _
  unfold V
  congr 1
  funext a
  apply Fin.ext
  match a with
  | ⟨0, _⟩ => show win0_0.index t 0 * 32 + 1 * b.val = r.val; rw [e0, hr]; omega
  | ⟨1, _⟩ => show win0_0.index t 1 * 40 + 1 * i.val = i.val; rw [e1]; omega
  | ⟨2, _⟩ => show win0_0.index t 2 * 128 + 1 * d.val = d.val; rw [e2]; omega

/-- The block of `W` at every point is the whole of the argument. -/
theorem iblk1_apply (c : Dev nD) (t : Fin cfg0.N) (k : Fin 128) (d : Fin 128) :
    (iblk m c 1 t : Vec Ideal S128x128 .f32) (ix2 k d)
      = (m ((c : Thread nD τ).loc main_arg1) : S128x128.Idx → EReal) (ix2 k d) := by
  obtain ⟨-, -, -, e0, e1, -⟩ := index_facts t
  unfold iblk
  rw [View.read_apply]
  show V m c main_arg1 _ = m ((c : Thread nD τ).loc main_arg1) _
  unfold V
  congr 1
  funext a
  apply Fin.ext
  match a with
  | ⟨0, _⟩ => show win0_1.index t 0 * 128 + 1 * k.val = k.val; rw [e0]; omega
  | ⟨1, _⟩ => show win0_1.index t 1 * 128 + 1 * d.val = d.val; rw [e1]; omega

/-! ## A block of the specification is the specification's rows -/

/-- The formula never mixes batch rows: if row `b` of the block `x0` is row `r` of `x`, and `x1` is `W`, then row `b` of
    `Gblk x0 x1` is row `r` of `G x W`. -/
theorem Gblk_row (x0 : FVec Ideal Cert.Spec.SXb .f32) (x1 : FVec Ideal Cert.Spec.SW .f32)
    (x : FVec Ideal Cert.Spec.SX .f32) (W : FVec Ideal Cert.Spec.SW .f32) (b : Fin 32) (r : Fin 2048)
    (h0 : ∀ (i : Fin 40) (d : Fin 128), x0 (ix3 b i d) = x (ix3 r i d))
    (h1 : ∀ (k : Fin 128) (d : Fin 128), x1 (ix2 k d) = W (ix2 k d)) (p : Fin 780) (d : Fin 128) :
    Cert.Spec.Gblk x0 x1 (ix3 b p d) = Cert.Spec.G x W (ix3 r p d) := by
  rw [Cert.Spec.Gblk_apply, Cert.Spec.G_apply, h0]
  unfold Cert.Spec.projb Cert.Spec.proj
  congr 1
  exact Finset.sum_congr rfl fun k _ => by rw [h0, h1]

/-! ## What a point writes back, the cover, the array -/

/-- WHAT POINT `t` WRITES BACK is block `t` of `G` of the argument arrays. -/
theorem flushed_eq (hblk : BlockEq) (c : Dev nD) (t : Fin cfg0.N) :
    (dats m 0 c).flushed 2 t = ((cfg0.win 2).blk t).view.read (Elt Ideal)
      (Cert.Spec.G (m ((c : Thread nD τ).loc main_arg0)) (m ((c : Thread nD τ).loc main_arg1))) := by
  rw [Value.flushed2_A, hblk]
  obtain ⟨-, -, -, -, -, e0, e1, e2⟩ := index_facts t
  have hN : grid0.N = 64 := N_0
  have ht : t.val < 64 := by have h : t.val < grid0.N := t.isLt; omega
  funext y
  have hy0 : (y 0).val < 32 := (y 0).isLt
  have hy1 : (y 1).val < 780 := (y 1).isLt
  have hy2 : (y 2).val < 128 := (y 2).isLt
  -- the array index under the block's index `y`: batch row `32 t + y 0`, the other coordinates unchanged
  have hemb : (((cfg0.win 2).blk t).view.emb y : S2048x780x128.Idx)
      = ix3 (⟨32 * t.val + (y 0).val, by omega⟩ : Fin 2048) (⟨(y 1).val, hy1⟩ : Fin 780) (⟨(y 2).val, hy2⟩ : Fin 128) := by
    funext a
    apply Fin.ext
    match a with
    | ⟨0, _⟩ => show win0_2.index t 0 * 32 + 1 * (y 0).val = 32 * t.val + (y 0).val; rw [e0]; omega
    | ⟨1, _⟩ => show win0_2.index t 1 * 780 + 1 * (y 1).val = (y 1).val; rw [e1]; omega
    | ⟨2, _⟩ => show win0_2.index t 2 * 128 + 1 * (y 2).val = (y 2).val; rw [e2]; omega
  show Cert.Spec.Gblk (iblk m c 0 t) (iblk m c 1 t) (ix3 (⟨(y 0).val, hy0⟩ : Fin 32) (⟨(y 1).val, hy1⟩ : Fin 780) (⟨(y 2).val, hy2⟩ : Fin 128))
    = Cert.Spec.G (m ((c : Thread nD τ).loc main_arg0)) (m ((c : Thread nD τ).loc main_arg1)) (((cfg0.win 2).blk t).view.emb y)
  refine (Gblk_row _ _ _ _ ⟨(y 0).val, hy0⟩ ⟨32 * t.val + (y 0).val, by omega⟩
    (fun i d => iblk0_apply m c t _ i d _ rfl) (fun k d => iblk1_apply m c t k d) _ _).trans ?_
  exact congrArg _ hemb.symm

/-- An index of the result array is in point `t`'s block iff each coordinate is in the block's range on its axis. -/
theorem mem_blk (t : Fin cfg0.N) (i : S2048x780x128.Idx) :
    i ∈ ((cfg0.win 2).blk t).view.set ↔ ∀ a : Fin 3, win0_2.index t a * S32x780x128.size a ≤ (i a).val ∧ (i a).val < win0_2.index t a * S32x780x128.size a + S32x780x128.size a := by
  show i ∈ ((View.whole main_v0).slice (win0_2.rect t)).set ↔ _
  rw [View.set_slice_whole, Rect.mem_set_unit]
  exact Iff.rfl

/-- THE COVER: batch row `r` of the result lies in the block of point `r / 32`. -/
theorem cover (i : S2048x780x128.Idx) :
    ∃ t : Fin cfg0.N, (cfg0.win 2).flush t = true ∧ i ∈ ((cfg0.win 2).blk t).view.set := by
  have hN : grid0.N = 64 := N_0
  have h0 : (i 0).val < 2048 := (i 0).isLt
  have h1 : (i 1).val < 780 := (i 1).isLt
  have h2 : (i 2).val < 128 := (i 2).isLt
  have hq : (i 0).val / 32 < grid0.N := by omega
  refine ⟨⟨(i 0).val / 32, hq⟩, flush0_2 _, ?_⟩
  obtain ⟨-, -, -, -, -, e0, e1, e2⟩ := index_facts ⟨(i 0).val / 32, hq⟩
  rw [mem_blk]
  intro a
  match a with
  | ⟨0, _⟩ =>
    show win0_2.index ⟨(i 0).val / 32, hq⟩ 0 * 32 ≤ (i 0).val ∧ (i 0).val < win0_2.index ⟨(i 0).val / 32, hq⟩ 0 * 32 + 32
    rw [e0]; show (i 0).val / 32 * 32 ≤ (i 0).val ∧ (i 0).val < (i 0).val / 32 * 32 + 32; omega
  | ⟨1, _⟩ =>
    show win0_2.index ⟨(i 0).val / 32, hq⟩ 1 * 780 ≤ (i 1).val ∧ (i 1).val < win0_2.index ⟨(i 0).val / 32, hq⟩ 1 * 780 + 780
    rw [e1]; omega
  | ⟨2, _⟩ =>
    show win0_2.index ⟨(i 0).val / 32, hq⟩ 2 * 128 ≤ (i 2).val ∧ (i 2).val < win0_2.index ⟨(i 0).val / 32, hq⟩ 2 * 128 + 128
    rw [e2]; omega

/-- THE ARRAY after the run: `G` of the argument arrays. -/
theorem final (hblk : BlockEq) (c : Dev nD) :
    (dats m 0 c).arrAt 2 cfg0.N
      = Cert.Spec.G (m ((c : Thread nD τ).loc main_arg0)) (m ((c : Thread nD τ).loc main_arg1)) :=
  (dats m 0 c).arrAt_eq_of_cover 2
    (Cert.Spec.G (m ((c : Thread nD τ).loc main_arg0)) (m ((c : Thread nD τ).loc main_arg1)))
    (fun t _ => flushed_eq m hblk c t) cover

/-! ## The run, read -/

/-- The kernel's run with its result array named as ONE function of the arguments, the arguments unchanged. -/
theorem run (hblk : BlockEq) (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c : Thread nD τ).loc main_v0)
        = Cert.Spec.G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m hblk c), (h c).2⟩) (Value.run_blocks m ρ)

end Cert.KernelIdeal.KArray

end
-- ==== Proof.lean ====
/-
  The kernel and its reference compute, for every batch row `b`, every pair of field indices `i < j` (there are
  `40 · 39 / 2 = 780` of them, enumerated row by row: all pairs of row 0, then of row 1, …; `p` is the position in
  that order) and every lane `d`,

      out[b, p, d] = x[b, i, d] · Σ_k x[b, j, k] · W[k, d],

  an element-wise product of one row of `x` with one row of the projection `x · W`.

  The KERNEL works on 64 blocks of 32 batch rows.  In each block it forms the projection of the whole block by one matrix
  product (the block flattened to 1280 rows, times `W`, into a zero accumulator), and then writes, for each `i`, the
  slab of the pairs `(i, i+1), …, (i, 39)` — row `i` of `x` spread over the `39 - i` rows `i+1 … 39` of the projection —
  at the rows `rowStart i …` of the block's output.  The 39 slabs tile the 780 rows of the block, and the 64 blocks tile
  the batch axis (Proof/Vid, Slab, Block, KBlock: one block is the specification's `Gblk`; Proof/KArray: the blocks make
  up `G`).

  The REFERENCE contracts the whole of `x` with `W` on the host, and gathers the two factors' rows by two index tables
  of length 780 that it computes by integer operations: the strictly-upper-triangular 40 × 40 mask, flattened; the
  running count of the mask; a histogram of the running counts over 780 bins; the running count of the histogram —
  which is, at `p`, the number of flat positions whose running count is at most `p`, that is the flat position
  `40 i + j` of the p-th pair —; and its quotient and remainder by 40 (Proof/RefTerm: the term; Proof/RefRun: the
  program's run ends at it; Proof/CumSum, Hist, Flags, Counting, TabWords, Tables: the tables are the pair enumeration;
  Proof/RefValue: the gathers and the contraction read at an index).

  Both sums over `k` run over the same 128 products, so the two results agree on all extended reals: no finiteness of
  the inputs is used.  The ideal pass rewrote nothing, so the kernel's idealization is the kernel's own text.
-/
import proofs.«101170_j24747601560016_2_alg».proof.Defs
import proofs.«101170_j24747601560016_2_alg».proof.Proof.Gen.Kernel
import proofs.«101170_j24747601560016_2_alg».proof.Proof.Gen.Kernel.Skeleton
import proofs.«101170_j24747601560016_2_alg».proof.Proof.Gen.Kernel.Launch
import proofs.«101170_j24747601560016_2_alg».proof.Proof.Gen.Kernel.Points
import proofs.«101170_j24747601560016_2_alg».proof.Proof.Gen.Kernel.Frame
import proofs.«101170_j24747601560016_2_alg».proof.Proof.Gen.KernelIdeal
import proofs.«101170_j24747601560016_2_alg».proof.Proof.Gen.KernelIdeal.Skeleton
import proofs.«101170_j24747601560016_2_alg».proof.Proof.Gen.KernelIdeal.Launch
import proofs.«101170_j24747601560016_2_alg».proof.Proof.Gen.KernelIdeal.Points
import proofs.«101170_j24747601560016_2_alg».proof.Proof.Gen.KernelIdeal.Frame
import proofs.«101170_j24747601560016_2_alg».proof.Proof.Gen.KernelIdeal.Value
import proofs.«101170_j24747601560016_2_alg».proof.Proof.Gen.ReferenceIdeal
import proofs.«101170_j24747601560016_2_alg».proof.Proof.Gen.Pre_finite_inputs
import proofs.«101170_j24747601560016_2_alg».proof.Proof.RefRun
import proofs.«101170_j24747601560016_2_alg».proof.Proof.RefValue
import proofs.«101170_j24747601560016_2_alg».proof.Proof.Tables
import proofs.«101170_j24747601560016_2_alg».proof.Proof.KBlock
import proofs.«101170_j24747601560016_2_alg».proof.Proof.KArray
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference runs and leaves its arguments unchanged: its run, with the result forgotten. -/
theorem frame_reference : Cert.frame_ReferenceIdeal := fun m ρ _ =>
  (θ_run Cert.ReferenceIdeal.defs _ _).mono (fun _ h c => (h c).2) (Cert.ReferenceIdeal.RefRun.run (F := Ideal) m ρ)

/-- Nothing was rewritten between the kernel and its idealization. -/
theorem preserves : Cert.preserves_Kernel_KernelIdeal := trivial

/-- From memories that agree on `x` and `W`, the kernel's output array and the reference's result are both the
    specification `G x W`: the kernel's by its blocks, the reference's by its term read at an index with the two tables
    the pair enumeration. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KArray.run Cert.KernelIdeal.KBlock.out_eq m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2]
  exact Cert.ReferenceIdeal.RefValue.refOut_eq Cert.ReferenceIdeal.Tables.iiTab_eq Cert.ReferenceIdeal.Tables.jjTab_eq _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
